-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v0_3)) (v5 : (c : Dev Cert.KernelIdeal.nD) → Buf (Elt Ideal) ((c.tc : Thread Cert.KernelIdeal.nD Cert.KernelIdeal.τ).loc Cert.KernelIdeal.main_v0_4)) (v6 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v0_3) = v4 c
          ∧ r.2.mem ((c.tc : Thread Cert.KernelIdeal.nD Cert.KernelIdeal.τ).loc Cert.KernelIdeal.main_v0_4) = v5 c
          ∧ r.2.mem ((c.tc : Thread Cert.KernelIdeal.nD Cert.KernelIdeal.τ).loc Cert.KernelIdeal.main_v0_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_v55) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S32x1 : Shape := ⟨2, ![32, 1]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1 : S_.BroadcastsInDim S32x1 (![] : Fin 0 → Fin S32x1.rank)
  reducesTo_S32x1_S_d0_1 : S32x1.ReducesTo [0, 1] S_

variable [Facts]

def fn_part2 {F : FTy → Type} [FloatOps F] (main_arg7 : FVec F S32x1024 .f32) (main_arg8 : FVec F S32x1024 .f32) (main_arg9 : FVec F S32x1 .f32) (main_v33 : IVec S_ 1) : IVec S_ 1 :=
  let main_v34 : FVec F S32x1024 .f32 := Host.absf main_arg7
  let main_cst_12 : FVec F S_ .f32 := constant S_ .f32 0x7F800000#32
  let main_v35 : FVec F S32x1024 .f32 := broadcastInDim S32x1024 ![] bcast_S_S32x1024 main_cst_12
  let main_v36 : IVec S32x1024 1 := cmpf .olt main_v34 main_v35
  let main_c_13 : IVec S_ 1 := constantI S_ 1 1#1
  let main_v37 : IVec S_ 1 := (fun x v => Host.reduce IntOp.andi x v reducesTo_S32x1024_S_d0_1 h_S_) main_v36 main_c_13
  let main_v38 : IVec S_ 1 := andi main_v33 main_v37
  let main_v39 : FVec F S32x1024 .f32 := Host.absf main_arg8
  let main_cst_14 : FVec F S_ .f32 := constant S_ .f32 0x7F800000#32
  let main_v40 : FVec F S32x1024 .f32 := broadcastInDim S32x1024 ![] bcast_S_S32x1024 main_cst_14
  let main_v41 : IVec S32x1024 1 := cmpf .olt main_v39 main_v40
  let main_c_15 : IVec S_ 1 := constantI S_ 1 1#1
  let main_v42 : IVec S_ 1 := (fun x v => Host.reduce IntOp.andi x v reducesTo_S32x1024_S_d0_1 h_S_) main_v41 main_c_15
  let main_v43 : IVec S_ 1 := andi main_v38 main_v42
  let main_v44 : FVec F S32x1 .f32 := Host.absf main_arg9
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  main_v48

def fn_part1 {F : FTy → Type} [FloatOps F] (main_arg4 : FVec F S32x1024x1024 .f32) (main_arg5 : FVec F S32x1024 .f32) (main_arg6 : FVec F S32x1024x1024 .f32) (main_arg7 : FVec F S32x1024 .f32) (main_arg8 : FVec F S32x1024 .f32) (main_arg9 : FVec F S32x1 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S32x1024x1024 .f32 := Host.absf main_arg4
  let main_cst_6 : FVec F S_ .f32 := constant S_ .f32 0x7F800000#32
  let main_v20 : FVec F S32x1024x1024 .f32 := broadcastInDim S32x1024x1024 ![] bcast_S_S32x1024x1024 main_cst_6
  let main_v21 : IVec S32x1024x1024 1 := cmpf .olt main_v19 main_v20
  let main_c_7 : IVec S_ 1 := constantI S_ 1 1#1
  let main_v22 : IVec S_ 1 := (fun x v => Host.reduce IntOp.andi x v reducesTo_S32x1024x1024_S_d0_1_2 h_S_) main_v21 main_c_7
  let main_v23 : IVec S_ 1 := andi main_v18 main_v22
  let main_v24 : FVec F S32x1024 .f32 := Host.absf main_arg5
  let main_cst_8 : FVec F S_ .f32 := constant S_ .f32 0x7F800000#32
  let main_v25 : FVec F S32x1024 .f32 := broadcastInDim S32x1024 ![] bcast_S_S32x1024 main_cst_8
  let main_v26 : IVec S32x1024 1 := cmpf .olt main_v24 main_v25
  let main_c_9 : IVec S_ 1 := constantI S_ 1 1#1
  let main_v27 : IVec S_ 1 := (fun x v => Host.reduce IntOp.andi x v reducesTo_S32x1024_S_d0_1 h_S_) main_v26 main_c_9
  let main_v28 : IVec S_ 1 := andi main_v23 main_v27
  let main_v29 : FVec F S32x1024x1024 .f32 := Host.absf main_arg6
  let main_cst_10 : FVec F S_ .f32 := constant S_ .f32 0x7F800000#32
  let main_v30 : FVec F S32x1024x1024 .f32 := broadcastInDim S32x1024x1024 ![] bcast_S_S32x1024x1024 main_cst_10
  let main_v31 : IVec S32x1024x1024 1 := cmpf .olt main_v29 main_v30
  let main_c_11 : IVec S_ 1 := constantI S_ 1 1#1
  let main_v32 : IVec S_ 1 := (fun x v => Host.reduce IntOp.andi x v reducesTo_S32x1024x1024_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S32x1024 .f32) (main_arg1 : FVec F S1024x1024 .f32) (main_arg2 : FVec F S1024 .f32) (main_arg3 : FVec F S32x1024 .f32) (main_arg4 : FVec F S32x1024x1024 .f32) (main_arg5 : FVec F S32x1024 .f32) (main_arg6 : FVec F S32x1024x1024 .f32) (main_arg7 : FVec F S32x1024 .f32) (main_arg8 : FVec F S32x1024 .f32) (main_arg9 : FVec F S32x1 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg4 main_arg5 main_arg6 main_arg7 main_arg8 main_arg9 main_v13 main_v16
-- ==== Kernel.lean ====
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S32x1 : Shape := ⟨2, ![32, 1]⟩
abbrev S1x1024 : Shape := ⟨2, ![1, 1024]⟩
abbrev S32x1x1024 : Shape := ⟨3, ![32, 1, 1024]⟩
abbrev S1x1x1024 : Shape := ⟨3, ![1, 1, 1024]⟩
abbrev S1x1x512 : Shape := ⟨3, ![1, 1, 512]⟩
abbrev S1x1024x512 : Shape := ⟨3, ![1, 1024, 512]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 20
  | .vmem => 27
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024, .f32⟩
  | .hbm, ⟨9, _⟩ => ⟨S32x1, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1, .f32⟩
  | .hbm, ⟨16, _⟩ => ⟨S32x1x1024, .f32⟩
  | .hbm, ⟨17, _⟩ => ⟨S32x1x1024, .f32⟩
  | .hbm, ⟨18, _⟩ => ⟨S32x1024x1024, .f32⟩
  | .hbm, ⟨19, _⟩ => ⟨S32x1024x1024, .f32⟩
  | .local _ .vmem, ⟨0, _⟩ => ⟨S32x1024, .f32⟩
  | .local _ .vmem, ⟨1, _⟩ => ⟨S1024x1024, .f32⟩
  | .local _ .vmem, ⟨2, _⟩ => ⟨S1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1, .f32⟩
  | .local _ .vmem, ⟨14, _⟩ => ⟨S1x1x1024, .f32⟩
  | .local _ .vmem, ⟨15, _⟩ => ⟨S1x1x1024, .f32⟩
  | .local _ .vmem, ⟨16, _⟩ => ⟨S1x1x512, .f32⟩
  | .local _ .vmem, ⟨17, _⟩ => ⟨S1x1x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | .local _ .vmem, ⟨22, _⟩ => ⟨S1x1024x512, .f32⟩
  | .local _ .vmem, ⟨23, _⟩ => ⟨S1x1024x512, .f32⟩
  | .local _ .vmem, ⟨24, _⟩ => ⟨S1x1024x512, .f32⟩
  | .local _ .vmem, ⟨25, _⟩ => ⟨S1x1024x512, .f32⟩
  | .local _ .vmem, ⟨26, _⟩ => ⟨S1024x1, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  inb_S32x1_S32x1_0_0 : ∀ a, (![0, 0] : Fin 2 → Nat) a + S32x1.size a ≤ S32x1.size a
  h_S32x1 : 0 < S32x1.numel
  broadcasts_S32x1_S32x1024 : S32x1.Broadcasts S32x1024
  shapeCasts_S32x1024_S32x1x1024 : S32x1024.ShapeCasts S32x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  transposes_S1x1024_p1_0_S1024x1 : S1x1024.Transposes [1, 0] S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  broadcasts_S1024x1_S1024x512 : S1024x1.Broadcasts S1024x512
  shapeCasts_S1x512_S1x512 : S1x512.ShapeCasts S1x512
  broadcasts_S1x512_S1024x512 : S1x512.Broadcasts S1024x512
  shapeCasts_S1024x512_S1x1024x512 : S1024x512.ShapeCasts S1x1024x512
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .f32 = 32 ∨ (Rect.block (s := S32x1024) S32x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .f32 = 32 ∨ (Rect.block (s := S32x1024) S32x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x1024.size a
  hwx0_6 : ∀ i : grid0.Coords, EltTy.bits .f32 = 32 ∨ (Rect.block (s := S32x1024) S32x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1024.size a ≤ S32x1024.size a
  hwx0_8 : ∀ i : grid0.Coords, EltTy.bits .f32 = 32 ∨ (Rect.block (s := S32x1024) S32x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1024.size a ≤ S32x1024.size a
  hwx0_9 : ∀ i : grid0.Coords, EltTy.bits .f32 = 32 ∨ (Rect.block (s := S32x1024) S32x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1024.size a ≤ S32x1024.size a
  hwx0_10 : ∀ i : grid0.Coords, EltTy.bits .f32 = 32 ∨ (Rect.block (s := S32x1024) S32x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x1024.size a ≤ S32x1024.size a
  hwx0_11 : ∀ i : grid0.Coords, EltTy.bits .f32 = 32 ∨ (Rect.block (s := S32x1024) S32x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1024.size a ≤ S32x1024.size a
  hwx0_12 : ∀ i : grid0.Coords, EltTy.bits .f32 = 32 ∨ (Rect.block (s := S32x1024) S32x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x1.size a ≤ S32x1.size a
  hwx0_13 : ∀ i : grid0.Coords, EltTy.bits .f32 = 32 ∨ (Rect.block (s := S32x1) S32x1.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024.size a ≤ S32x1x1024.size a
  hwx1_0 : ∀ i : grid1.Coords, EltTy.bits .f32 = 32 ∨ (Rect.block (s := S32x1x1024) S1x1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S32x1x1024.size a
  hwx1_1 : ∀ i : grid1.Coords, EltTy.bits .f32 = 32 ∨ (Rect.block (s := S32x1x1024) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S32x1024x1024.size a
  hwx1_2 : ∀ i : grid1.Coords, EltTy.bits .f32 = 32 ∨ (Rect.block (s := S32x1024x1024) S1x1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S32x1024x1024.size a
  hwx1_3 : ∀ i : grid1.Coords, EltTy.bits .f32 = 32 ∨ (Rect.block (s := S32x1024x1024) S1x1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S32x1024x1024.size a
  hwx1_4 : ∀ i : grid1.Coords, EltTy.bits .f32 = 32 ∨ (Rect.block (s := S32x1024x1024) S1x1024x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x512.size a ≤ S32x1024x1024.size a
  hwx1_5 : ∀ i : grid1.Coords, EltTy.bits .f32 = 32 ∨ (Rect.block (s := S32x1024x1024) S1x1024x512.size (cc1_transform_5 i) (hinb1_5 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S32x1024.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S32x1024.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S32x1024.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_3) S32x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_4) S32x1024.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_5) S32x1.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v1) S1x1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1x1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S1x1024x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S1x1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S32x1 : Shape := ⟨2, ![32, 1]⟩
abbrev S1x1024 : Shape := ⟨2, ![1, 1024]⟩
abbrev S_ : Shape := ⟨0, ![]⟩
abbrev S32x1024x1 : Shape := ⟨3, ![32, 1024, 1]⟩
abbrev S32x1x1024 : Shape := ⟨3, ![32, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024, .f32⟩
  | .hbm, ⟨9, _⟩ => ⟨S32x1, .f32⟩
  | .hbm, ⟨10, _⟩ => ⟨S32x1024, .f32⟩
  | .hbm, ⟨11, _⟩ => ⟨S1x1024, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S_, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024, .f32⟩
  | .hbm, ⟨33, _⟩ => ⟨S_, .f32⟩
  | .hbm, ⟨34, _⟩ => ⟨S32x1024, .f32⟩
  | .hbm, ⟨35, _⟩ => ⟨S32x1024, .f32⟩
  | .hbm, ⟨36, _⟩ => ⟨S32x1024x1, .f32⟩
  | .hbm, ⟨37, _⟩ => ⟨S32x1x1024, .f32⟩
  | .hbm, ⟨38, _⟩ => ⟨S32x1024x1024, .f32⟩
  | .hbm, ⟨39, _⟩ => ⟨S32x1024x1024, .f32⟩
  | .hbm, ⟨40, _⟩ => ⟨S32x1024x1024, .f32⟩
  | .hbm, ⟨41, _⟩ => ⟨S32x1024x1, .f32⟩
  | .hbm, ⟨42, _⟩ => ⟨S32x1024x1024, .f32⟩
  | .hbm, ⟨43, _⟩ => ⟨S_, .f32⟩
  | .hbm, ⟨44, _⟩ => ⟨S32x1024, .f32⟩
  | .hbm, ⟨45, _⟩ => ⟨S_, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S_, .f32⟩
  | .hbm, ⟨50, _⟩ => ⟨S32x1024, .f32⟩
  | .hbm, ⟨51, _⟩ => ⟨S32x1024, .f32⟩
  | .hbm, ⟨52, _⟩ => ⟨S32x1024, .f32⟩
  | .hbm, ⟨53, _⟩ => ⟨S32x1x1024, .f32⟩
  | .hbm, ⟨54, _⟩ => ⟨S32x1024x1024, .f32⟩
  | .hbm, ⟨55, _⟩ => ⟨S32x1024x1024, .f32⟩
  | .hbm, ⟨56, _⟩ => ⟨S32x1024x1024, .f32⟩
  | .hbm, ⟨57, _⟩ => ⟨S32x1024, .f32⟩
  | .hbm, ⟨58, _⟩ => ⟨S32x1024, .f32⟩
  | .hbm, ⟨59, _⟩ => ⟨S_, .f32⟩
  | .hbm, ⟨60, _⟩ => ⟨S32x1024x1024, .f32⟩
  | .hbm, ⟨61, _⟩ => ⟨S32x1024x1024, .f32⟩
  | .hbm, ⟨62, _⟩ => ⟨S32x1024x1024, .f32⟩
  | .hbm, ⟨63, _⟩ => ⟨S_, .f32⟩
  | .hbm, ⟨64, _⟩ => ⟨S32x1024, .f32⟩
  | .hbm, ⟨65, _⟩ => ⟨S32x1024, .f32⟩
  | .hbm, ⟨66, _⟩ => ⟨S32x1024, .f32⟩
  | .hbm, ⟨67, _⟩ => ⟨S32x1x1024, .f32⟩
  | .hbm, ⟨68, _⟩ => ⟨S32x1024x1024, .f32⟩
  | .hbm, ⟨69, _⟩ => ⟨S32x1024x1024, .f32⟩
  | .hbm, ⟨70, _⟩ => ⟨S32x1024x1024, .f32⟩
  | .hbm, ⟨71, _⟩ => ⟨S32x1024, .f32⟩
  | .hbm, ⟨72, _⟩ => ⟨S32x1024, .f32⟩
  | .hbm, ⟨73, _⟩ => ⟨S_, .f32⟩
  | .hbm, ⟨74, _⟩ => ⟨S32x1, .f32⟩
  | .hbm, ⟨75, _⟩ => ⟨S32x1, .f32⟩
  | .hbm, ⟨76, _⟩ => ⟨S_, .f32⟩
  | .hbm, ⟨77, _⟩ => ⟨S32x1, .f32⟩
  | .hbm, ⟨78, _⟩ => ⟨S32x1, .f32⟩
  | .hbm, ⟨79, _⟩ => ⟨S32x1, .f32⟩
  | .hbm, ⟨80, _⟩ => ⟨S32x1024, .f32⟩
  | .hbm, ⟨81, _⟩ => ⟨S32x1024, .f32⟩
  | .hbm, ⟨82, _⟩ => ⟨S_, .f32⟩
  | .hbm, ⟨83, _⟩ => ⟨S32x1, .f32⟩
  | .hbm, ⟨84, _⟩ => ⟨S32x1, .f32⟩
  | .hbm, ⟨85, _⟩ => ⟨S32x1024, .f32⟩
  | .hbm, ⟨86, _⟩ => ⟨S32x1024, .f32⟩
  | .hbm, ⟨87, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S_S32x1 : S_.BroadcastsInDim S32x1 (![] : Fin 0 → Fin S32x1.rank)
  bcast_S32x1_S32x1024_0_1 : S32x1.BroadcastsInDim S32x1024 (![0, 1] : Fin 2 → Fin S32x1024.rank)
  dot_S32x1024_S1024x1024_S32x1024_1_0_0_1_n_n_wf : DotDims.WF S32x1024 S1024x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.KB.Region0.lean ====
/-
  The first kernel region, read at the buffer contents `V` it is entered from: one grid point, every window a whole
  array. What each window's block is, what the body leaves in each result's staging buffer (one covering store each,
  of a pure term of the input blocks), the body's triple, the pipeline's proof data and the body obligation.
-/
import proofs.«164400_j30940944400973_2_alg».proof.Proof.Gen.Kernel.Launch
import proofs.«164400_j30940944400973_2_alg».proof.Proof.Gen.Kernel.Skeleton
import proofs.«164400_j30940944400973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S32x1024 := Rect.unit (s := S32x1024) ![0, 0] S32x1024.size inb_S32x1024_S32x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0
abbrev rR : Rect S32x1 := Rect.unit (s := S32x1) ![0, 0] S32x1.size inb_S32x1_S32x1_0_0

/-! ## What the body leaves in each result's staging buffer -/

/-- Result window 8's staging buffer after the body: its one store, covering it. -/
def out0_8 (x0 : Vec F S32x1024 .f32) (x1 : Vec F S1024x1024 .f32) (x2 : Vec F S1024 .f32) (x3 : Vec F S32x1024 .f32) : Vec F S32x1024 .f32 :=
  View.canon [⟨rA, k0_pay4 (View.ld x0 rA) (View.ld x1 rW) (View.ld x2 rB) (View.ld x3 rA)⟩]
theorem cover0_8 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 9's staging buffer after the body: its one store, covering it. -/
def out0_9 (x0 : Vec F S32x1024 .f32) (x1 : Vec F S1024x1024 .f32) (x2 : Vec F S1024 .f32) (x3 : Vec F S32x1024 .f32) : Vec F S32x1024 .f32 :=
  View.canon [⟨rA, k0_pay5 (View.ld x0 rA) (View.ld x1 rW) (View.ld x2 rB) (View.ld x3 rA)⟩]
theorem cover0_9 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 10's staging buffer after the body: its one store, covering it. -/
def out0_10 (x4 : Vec F S32x1024 .f32) : Vec F S32x1024 .f32 :=
  View.canon [⟨rA, k0_pay8 (View.ld x4 rA)⟩]
theorem cover0_10 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 11's staging buffer after the body: its one store, covering it. -/
def out0_11 (x0 : Vec F S32x1024 .f32) (x1 : Vec F S1024x1024 .f32) (x2 : Vec F S1024 .f32) (x3 : Vec F S32x1024 .f32) (x4 : Vec F S32x1024 .f32) (x5 : Vec F S32x1024 .f32) : Vec F S32x1024 .f32 :=
  View.canon [⟨rA, k0_pay9 (View.ld x0 rA) (View.ld x1 rW) (View.ld x2 rB) (View.ld x3 rA) (View.ld x4 rA) (View.ld x5 rA)⟩]
theorem cover0_11 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 12's staging buffer after the body: its one store, covering it. -/
def out0_12 (x0 : Vec F S32x1024 .f32) (x1 : Vec F S1024x1024 .f32) (x2 : Vec F S1024 .f32) (x3 : Vec F S32x1024 .f32) (x6 : Vec F S32x1024 .f32) (x7 : Vec F S32x1 .f32) : Vec F S32x1024 .f32 :=
  View.canon [⟨rA, k0_pay3 (k0_pay6 (View.ld x0 rA) (View.ld x1 rW) (View.ld x2 rB) (View.ld x3 rA)) (View.ld x7 rR) (Scalar.ofBits .f32 0x3F666666#32) (View.ld x6 rA)⟩]
theorem cover0_12 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 13's staging buffer after the body: its one store, covering it. -/
def out0_13 (x7 : Vec F S32x1 .f32) : Vec F S32x1 .f32 :=
  View.canon [⟨rR, k0_pay2 (View.ld x7 rR) (Scalar.ofBits .f32 0x3F666666#32)⟩]
theorem cover0_13 (p0 : Vec F S32x1 .f32) (y : S32x1.Idx) :
    ∃ pc ∈ ([⟨rR, p0⟩] : List (View.Piece (Elt F) S32x1 .f32)), y ∈ pc.1.set :=
  View.cover_of_tiled [⟨rR, p0⟩] S32x1.size (by rfl) y

/-! ## The body's triple -/

set_option maxHeartbeats 4000000 in
/-- The body on whole staging memrefs, the inputs' at contents `x·` and the results' at anything, runs to the
    continuation holding the inputs' as they were and each result's at `out0_·` of the inputs'. -/
theorem sound_kernel0 (c : Dev nD) (E : Set ℕ) (i : grid0.Coords) (arg1 : Memref sig .tc .vmem S32x1024 .f32) (harg1 : arg1.IsWhole) (arg2 : Memref sig .tc .vmem S1024x1024 .f32) (harg2 : arg2.IsWhole) (arg3 : Memref sig .tc .vmem S1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S32x1 .f32) (harg8 : arg8.IsWhole) (arg9 : Memref sig .tc .vmem S32x1024 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S32x1024 .f32) (harg13 : arg13.IsWhole) (arg14 : Memref sig .tc .vmem S32x1 .f32) (harg14 : arg14.IsWhole)
    (x0 : Vec F S32x1024 .f32) (x1 : Vec F S1024x1024 .f32) (x2 : Vec F S1024 .f32) (x3 : Vec F S32x1024 .f32) (x4 : Vec F S32x1024 .f32) (x5 : Vec F S32x1024 .f32) (x6 : Vec F S32x1024 .f32) (x7 : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3) ∗ owns (c : Thread nD τ) arg10 fullShare (out0_9 x0 x1 x2 x3) ∗ owns (c : Thread nD τ) arg11 fullShare (out0_10 x4) ∗ owns (c : Thread nD τ) arg12 fullShare (out0_11 x0 x1 x2 x3 x4 x5) ∗ owns (c : Thread nD τ) arg13 fullShare (out0_12 x0 x1 x2 x3 x6 x7) ∗ owns (c : Thread nD τ) arg14 fullShare (out0_13 x7)) -∗ K ⟨⟩))
      ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_a_body_eq_skeleton]; unfold cc0__kernel_a_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The pipeline's proof data -/

/-- The proof data of the first pipeline on core `c`: the arrays as the region finds them; after the body each
    input's buffer at its block and each result's at `out0_·` of the input blocks; the region's invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t)
    | ⟨9, _⟩ => out0_9 (iblk0 V c 0 t) (iblk0 V c 1 t) (iblk0 V c 2 t) (iblk0 V c 3 t)
    | ⟨10, _⟩ => out0_10 (iblk0 V c 4 t)
    | ⟨11, _⟩ => out0_11 (iblk0 V c 0 t) (iblk0 V c 1 t) (iblk0 V c 2 t) (iblk0 V c 3 t) (iblk0 V c 4 t) (iblk0 V c 5 t)
    | ⟨12, _⟩ => out0_12 (iblk0 V c 0 t) (iblk0 V c 1 t) (iblk0 V c 2 t) (iblk0 V c 3 t) (iblk0 V c 6 t) (iblk0 V c 7 t)
    | ⟨13, _⟩ => out0_13 (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 2 t) (iblk0 V c 3 t) := by dsimp only [dat0]
theorem after0_10 (c : Dev nD) (t : Fin cfg0.N) : (dat0 V c).after 10 t = out0_10 (iblk0 V c 4 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 6 t) (iblk0 V c 7 t) := by dsimp only [dat0]
theorem after0_13 (c : Dev nD) (t : Fin cfg0.N) : (dat0 V c).after 13 t = out0_13 (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 2000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Region1.lean ====
/-
  The second kernel region, read at the buffer contents `V` it is entered from: a grid of 32 × 2 points, the second
  coordinate the half of the output features. At the first half of each batch row the body writes the row of `x`,
  transposed to a column, into a scratch buffer, and at the second half it reads the column the first half left there:
  the scratch is carried from a point to the next. Two cases of the body, what each leaves in the results' staging
  buffers and in the scratch, what they hold point by point, the region's invariant naming the scratch's contents
  between points, the pipeline's proof data and the body obligation.
-/
import proofs.«164400_j30940944400973_2_alg».proof.Proof.Gen.Kernel.Launch
import proofs.«164400_j30940944400973_2_alg».proof.Proof.Gen.Kernel.Skeleton
import proofs.«164400_j30940944400973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: the second grid coordinate is zero. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- One staging buffer of each result window, through which its contents are stated. -/
abbrev VO1_4 : View sig .tc .vmem S1x1024x512 .f32 := (Memref.whole cc1_stg4_0 : Memref sig .tc .vmem S1x1024x512 .f32).view
abbrev VO1_5 : View sig .tc .vmem S1x1024x512 .f32 := (Memref.whole cc1_stg5_0 : Memref sig .tc .vmem S1x1024x512 .f32).view
abbrev ms1_0 (t : Fin cfg1.N) : Memref sig .tc .vmem S1x1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x512 .f32 := win1_5.stage (cfg1.slots t 5)
abbrev hs1_5 (t : Fin cfg1.N) : (ms1_5 t).IsWhole := hstage1_5 ((cfg1.slots t 5).cast nbuf1_5)
/-- The scratch column: a whole scoped buffer of the kernel's own. -/
abbrev scM1 : Memref sig .tc .vmem S1024x1 .f32 := Memref.whole cc1_scratch0
abbrev VS1 : View sig .tc .vmem S1024x1 .f32 := scM1.view

/-- The scoped buffers that are no staging buffer of this region, the scratch held as `S` says. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ S)

theorem scopedRest1_with (c : Dev nD) :
    (Pipeline.scopedRest (Ix := Unit) (Name := ℕ) (U := UR sig nD τ) (Lvl := ℕ) (Val := Elt F) spec1 c : sProp 𝕄)
      = scopedWith c iprop(∃ d, owns (c : Thread nD τ) scM1 fullShare d) := by
  rw [scopedRest1_eq]; unfold scopedWith; simp only [scM1, owns_whole]; try rfl

/-- The class invariant with the scratch as a memref owned at some contents. -/
theorem PhiA1_eq (c : Dev nD) :
    (Pipeline.ΦA spec1 c : sProp 𝕄)
      = iprop(scopedWith c iprop(∃ d, owns (c : Thread nD τ) scM1 fullShare d) ∗ (∃ r, prngReg c r)) := by
  unfold Pipeline.ΦA; rw [scopedRest1_with]

/-! ## The body's two cases, on any staging memrefs -/

set_option maxHeartbeats 4000000 in
/-- THE FIRST HALF of a batch row (the branch taken): the pieces the body's stores leave in the two results' buffers
    and in the scratch, with the proof that it runs to the continuation holding them. -/
noncomputable def kernelRun1_A (c : Dev nD) (i : grid1.Coords) (arg2 : Memref sig .tc .vmem S1x1x1024 .f32) (harg2 : arg2.IsWhole) (arg3 : Memref sig .tc .vmem S1x1x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1024x1 .f32) (harg8 : arg8.IsWhole) (hc0 : cond1_0 i)
    (x0 : Vec F S1x1x1024 .f32) (x1 : Vec F S1x1x512 .f32) (x2 : Vec F S1x1024x512 .f32) (x3 : Vec F S1x1024x512 .f32) :
    Σ' (L4 : List (View.Piece (Elt F) S1x1024x512 .f32)), Σ' (L5 : List (View.Piece (Elt F) S1x1024x512 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b_body i arg2 harg2 arg3 harg3 arg4 harg4 arg5 harg5 arg6 harg6 arg7 harg7 arg8 harg8) K } := by
  refine ⟨?_, ?_, ?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 4000000 in
/-- THE SECOND HALF of a batch row (the branch not taken): the scratch is read at the contents `xs0` the point before
    left and handed back as found. -/
noncomputable def kernelRun1_B (c : Dev nD) (i : grid1.Coords) (arg2 : Memref sig .tc .vmem S1x1x1024 .f32) (harg2 : arg2.IsWhole) (arg3 : Memref sig .tc .vmem S1x1x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1024x1 .f32) (harg8 : arg8.IsWhole) (hc0 : ¬cond1_0 i)
    (x0 : Vec F S1x1x1024 .f32) (x1 : Vec F S1x1x512 .f32) (x2 : Vec F S1x1024x512 .f32) (x3 : Vec F S1x1024x512 .f32) (xs0 : Vec F S1024x1 .f32) :
    Σ' (L4 : List (View.Piece (Elt F) S1x1024x512 .f32)), { L5 : List (View.Piece (Elt F) S1x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc1__kernel_b_body i arg2 harg2 arg3 harg3 arg4 harg4 arg5 harg5 arg6 harg6 arg7 harg7 arg8 harg8) K } := by
  refine ⟨?_, ?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; isplitr; · ipureintro; exact harg8.read_unread _
    iexact HS0

/-! ## What each case leaves -/

section Outs
variable (c : Dev nD) (i : grid1.Coords) (arg2 : Memref sig .tc .vmem S1x1x1024 .f32) (harg2 : arg2.IsWhole) (arg3 : Memref sig .tc .vmem S1x1x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1024x1 .f32) (harg8 : arg8.IsWhole)

theorem cover1_A_4 (hc0 : cond1_0 i) (x0 : Vec F S1x1x1024 .f32) (x1 : Vec F S1x1x512 .f32) (x2 : Vec F S1x1024x512 .f32) (x3 : Vec F S1x1024x512 .f32) (y : S1x1024x512.Idx) :
    ∃ pc ∈ (kernelRun1_A c i arg2 harg2 arg3 harg3 arg4 harg4 arg5 harg5 arg6 harg6 arg7 harg7 arg8 harg8 hc0 x0 x1 x2 x3).1, y ∈ pc.1.set :=
  View.cover_of_tiledL (kernelRun1_A c i arg2 harg2 arg3 harg3 arg4 harg4 arg5 harg5 arg6 harg6 arg7 harg7 arg8 harg8 hc0 x0 x1 x2 x3).1 S1x1024x512.size (by sl_kernel_rfl) y
theorem cover1_A_5 (hc0 : cond1_0 i) (x0 : Vec F S1x1x1024 .f32) (x1 : Vec F S1x1x512 .f32) (x2 : Vec F S1x1024x512 .f32) (x3 : Vec F S1x1024x512 .f32) (y : S1x1024x512.Idx) :
    ∃ pc ∈ (kernelRun1_A c i arg2 harg2 arg3 harg3 arg4 harg4 arg5 harg5 arg6 harg6 arg7 harg7 arg8 harg8 hc0 x0 x1 x2 x3).2.1, y ∈ pc.1.set :=
  View.cover_of_tiledL (kernelRun1_A c i arg2 harg2 arg3 harg3 arg4 harg4 arg5 harg5 arg6 harg6 arg7 harg7 arg8 harg8 hc0 x0 x1 x2 x3).2.1 S1x1024x512.size (by sl_kernel_rfl) y
theorem scover1_A (hc0 : cond1_0 i) (x0 : Vec F S1x1x1024 .f32) (x1 : Vec F S1x1x512 .f32) (x2 : Vec F S1x1024x512 .f32) (x3 : Vec F S1x1024x512 .f32) (y : S1024x1.Idx) :
    ∃ pc ∈ (kernelRun1_A c i arg2 harg2 arg3 harg3 arg4 harg4 arg5 harg5 arg6 harg6 arg7 harg7 arg8 harg8 hc0 x0 x1 x2 x3).2.2.1, y ∈ pc.1.set :=
  View.cover_of_tiledL (kernelRun1_A c i arg2 harg2 arg3 harg3 arg4 harg4 arg5 harg5 arg6 harg6 arg7 harg7 arg8 harg8 hc0 x0 x1 x2 x3).2.2.1 S1024x1.size (by sl_kernel_rfl) y
theorem cover1_B_4 (hc0 : ¬cond1_0 i) (x0 : Vec F S1x1x1024 .f32) (x1 : Vec F S1x1x512 .f32) (x2 : Vec F S1x1024x512 .f32) (x3 : Vec F S1x1024x512 .f32) (xs0 : Vec F S1024x1 .f32) (y : S1x1024x512.Idx) :
    ∃ pc ∈ (kernelRun1_B c i arg2 harg2 arg3 harg3 arg4 harg4 arg5 harg5 arg6 harg6 arg7 harg7 arg8 harg8 hc0 x0 x1 x2 x3 xs0).1, y ∈ pc.1.set :=
  View.cover_of_tiledL (kernelRun1_B c i arg2 harg2 arg3 harg3 arg4 harg4 arg5 harg5 arg6 harg6 arg7 harg7 arg8 harg8 hc0 x0 x1 x2 x3 xs0).1 S1x1024x512.size (by sl_kernel_rfl) y
theorem cover1_B_5 (hc0 : ¬cond1_0 i) (x0 : Vec F S1x1x1024 .f32) (x1 : Vec F S1x1x512 .f32) (x2 : Vec F S1x1024x512 .f32) (x3 : Vec F S1x1024x512 .f32) (xs0 : Vec F S1024x1 .f32) (y : S1x1024x512.Idx) :
    ∃ pc ∈ (kernelRun1_B c i arg2 harg2 arg3 harg3 arg4 harg4 arg5 harg5 arg6 harg6 arg7 harg7 arg8 harg8 hc0 x0 x1 x2 x3 xs0).2.1, y ∈ pc.1.set :=
  View.cover_of_tiledL (kernelRun1_B c i arg2 harg2 arg3 harg3 arg4 harg4 arg5 harg5 arg6 harg6 arg7 harg7 arg8 harg8 hc0 x0 x1 x2 x3 xs0).2.1 S1x1024x512.size (by sl_kernel_rfl) y

/-- What the first half leaves in the first result's buffer, the second's, and the scratch: its pieces read back. -/
def out1_A_4 (hc0 : cond1_0 i) (x0 : Vec F S1x1x1024 .f32) (x1 : Vec F S1x1x512 .f32) (x2 : Vec F S1x1024x512 .f32) (x3 : Vec F S1x1024x512 .f32) : Vec F S1x1024x512 .f32 :=
  VO1_4.read (Elt F) (VO1_4.writes (Elt F) VO1_4.junk (kernelRun1_A c i arg2 harg2 arg3 harg3 arg4 harg4 arg5 harg5 arg6 harg6 arg7 harg7 arg8 harg8 hc0 x0 x1 x2 x3).1)
def out1_A_5 (hc0 : cond1_0 i) (x0 : Vec F S1x1x1024 .f32) (x1 : Vec F S1x1x512 .f32) (x2 : Vec F S1x1024x512 .f32) (x3 : Vec F S1x1024x512 .f32) : Vec F S1x1024x512 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3).2.1)
def sout1_A (hc0 : cond1_0 i) (x0 : Vec F S1x1x1024 .f32) (x1 : Vec F S1x1x512 .f32) (x2 : Vec F S1x1024x512 .f32) (x3 : Vec F S1x1024x512 .f32) : Vec F S1024x1 .f32 :=
  VS1.read (Elt F) (VS1.writes (Elt F) VS1.junk (kernelRun1_A c i arg2 harg2 arg3 harg3 arg4 harg4 arg5 harg5 arg6 harg6 arg7 harg7 arg8 harg8 hc0 x0 x1 x2 x3).2.2.1)
/-- What the second half leaves in the results' buffers. -/
def out1_B_4 (hc0 : ¬cond1_0 i) (x0 : Vec F S1x1x1024 .f32) (x1 : Vec F S1x1x512 .f32) (x2 : Vec F S1x1024x512 .f32) (x3 : Vec F S1x1024x512 .f32) (xs0 : Vec F S1024x1 .f32) : Vec F S1x1024x512 .f32 :=
  VO1_4.read (Elt F) (VO1_4.writes (Elt F) VO1_4.junk (kernelRun1_B c i arg2 harg2 arg3 harg3 arg4 harg4 arg5 harg5 arg6 harg6 arg7 harg7 arg8 harg8 hc0 x0 x1 x2 x3 xs0).1)
def out1_B_5 (hc0 : ¬cond1_0 i) (x0 : Vec F S1x1x1024 .f32) (x1 : Vec F S1x1x512 .f32) (x2 : Vec F S1x1024x512 .f32) (x3 : Vec F S1x1024x512 .f32) (xs0 : Vec F S1024x1 .f32) : Vec F S1x1024x512 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 xs0).2.1)

end Outs

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the results' buffers and the scratch hold after each point -/

/-- After the body at position `n`: the two results' staging buffers, then the scratch. At an even position the first
    half's contents; at an odd one the second half's, over the scratch the position before left, which stays. -/
def outsAt1 (c : Dev nD) : (n : ℕ) → n < cfg1.N → Vec F S1x1024x512 .f32 × Vec F S1x1024x512 .f32 × Vec F S1024x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
        (outsAt1 c n (Nat.lt_of_succ_lt hn)).2.2)

/-- `outsAt1` at an even point. -/
theorem outsAt1_A (c : Dev nD) (t : Fin cfg1.N) (h0 : t.val % 2 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t),
      out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t),
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an odd point, over what the point before left. -/
theorem outsAt1_B (c : Dev nD) (t : Fin cfg1.N) (h0 : ¬t.val % 2 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2,
      out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2,
      (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point the class's; afterwards the scoped rest with
    the scratch at what the point before left in it, and the generator register at some state. -/
def PhiS (c : Dev nD) : (n : ℕ) → n ≤ cfg1.N → sProp 𝕄
  | 0, _ => Pipeline.ΦA spec1 c
  | n + 1, hn => iprop(scopedWith c (owns (c : Thread nD τ) scM1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) scM1 fullShare ((outsAt1 V c n hn).2.2)) ∗ (∃ r, prngReg c r)) := rfl
theorem PhiS_pos (c : Dev nD) (n : ℕ) (h : n ≤ cfg1.N) (hz : n ≠ 0) :
    PhiS V c n h = iprop(scopedWith c (owns (c : Thread nD τ) scM1 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point: the inputs' memrefs hold their blocks; the point's parity says which half it is; the
    invariant hands the body the scratch (at anything before the first point, else at what the point before left) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5]
  have hN : t.val < 64 := lt_of_lt_of_eq t.isLt (show cfg1.N = 64 from N_1)
  by_cases h0 : t.val % 2 = 0
  · rw [outsAt1_A V c t h0]
    unfold out1_A_4 out1_A_5 sout1_A; (try dsimp only)
    by_cases hz : t.val = 0
    · rw [PhiS_castSucc V c t, PhiS_zero V c _ _ hz, PhiA1_eq]
      unfold scopedWith
      iintro ⟨⟨⟨G0, G1, G2, G3, G4, G5, G6, G7, G8, G9, G10, G11, G12, G13, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [G0 G1 G2 G3 G4 G5 G6 G7 G8 G9 G10 G11 G12 G13 HS0 Hg]
      · isplitl [G0 G1 G2 G3 G4 G5 G6 G7 G8 G9 G10 G11 G12 G13 HS0]
        ·
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          unfold owns; iexists _; isplitr
          swap; · iexact HS0
          ipureintro; exact View.read_writes_of_cover _ _ _ _ _ (scover1_A c _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ )
      unfold owns; iexists _; isplitr
      swap; · iexact H5
      ipureintro; exact View.read_writes_of_cover _ _ _ _ _ (cover1_A_5 c _ _ _ _ _ _ _ _ _ _ _ _ _ _ _ _ _ _ _ _ )
    · rw [PhiS_castSucc V c t, PhiS_pos V c _ _ hz]
      unfold scopedWith
      iintro ⟨⟨⟨G0, G1, G2, G3, G4, G5, G6, G7, G8, G9, G10, G11, G12, G13, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [G0 G1 G2 G3 G4 G5 G6 G7 G8 G9 G10 G11 G12 G13 HS0 Hg]
      · isplitl [G0 G1 G2 G3 G4 G5 G6 G7 G8 G9 G10 G11 G12 G13 HS0]
        ·
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          unfold owns; iexists _; isplitr
          swap; · iexact HS0
          ipureintro; exact View.read_writes_of_cover _ _ _ _ _ (scover1_A c _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ )
      unfold owns; iexists _; isplitr
      swap; · iexact H5
      ipureintro; exact View.read_writes_of_cover _ _ _ _ _ (cover1_A_5 c _ _ _ _ _ _ _ _ _ _ _ _ _ _ _ _ _ _ _ _ )
  · rw [outsAt1_B V c t h0]
    unfold out1_B_4 out1_B_5; (try dsimp only)
    have hz : t.val ≠ 0 := fun e => h0 (by rw [e])
    rw [PhiS_castSucc V c t, PhiS_pos V c _ _ hz]
    unfold scopedWith
    iintro ⟨⟨⟨G0, G1, G2, G3, G4, G5, G6, G7, G8, G9, G10, G11, G12, G13, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [G0 G1 G2 G3 G4 G5 G6 G7 G8 G9 G10 G11 G12 G13 HS0 Hg]
    · isplitl [G0 G1 G2 G3 G4 G5 G6 G7 G8 G9 G10 G11 G12 G13 HS0]
      ·
        isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ )
    unfold owns; iexists _; isplitr
    swap; · iexact H5
    ipureintro; exact View.read_writes_of_cover _ _ _ _ _ (cover1_B_5 c _ _ _ _ _ _ _ _ _ _ _ _ _ _ _ _ _ _ _ _ _ )

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨G0, G1, G2, G3, G4, G5, G6, G7, G8, G9, G10, G11, G12, G13, HS0⟩, Hg⟩
  isplitl [G0 G1 G2 G3 G4 G5 G6 G7 G8 G9 G10 G11 G12 G13 HS0]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexists _; iexact HS0
  iexact Hg

end Region1

end Cert.Kernel.Hand

end
-- ==== Proof.KB.Run.lean ====
/-
  The whole run of the program: the first kernel region, two reshapes on the host, the second kernel region. The
  contents of every unscoped buffer at each boundary between them, as a fold from the launch memory; each region as a
  segment entered from one boundary's contents and left at the next's; and the run: every weakly fair execution
  terminates with every unscoped buffer at the last boundary's contents. The arguments are read back through the fold
  to their launch contents.
-/
import proofs.«164400_j30940944400973_2_alg».proof.Proof.KB.Region0
import proofs.«164400_j30940944400973_2_alg».proof.Proof.KB.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: the second region's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer the reshapes do not write keeps its contents across them. -/
theorem W2_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_not_written m ρ c main_arg1 (by decide) (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_not_written m ρ c main_arg2 (by decide) (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_not_written m ρ c main_arg3 (by decide) (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_not_written m ρ c main_arg4 (by decide) (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_not_written m ρ c main_arg5 (by decide) (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_not_written m ρ c main_arg6 (by decide) (by decide)
    _ = W0 m ρ c (Proc.devRef .tc main_arg6) := W1_of_ne m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_not_written m ρ c main_arg7 (by decide) (by decide)
    _ = W0 m ρ c (Proc.devRef .tc main_arg7) := (W1_arr m ρ c 5).trans (((dat0 (V0 m ρ) c).arrAt_in 5 rfl _).trans (A_eq0 (V0 m ρ) c 5))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_not_written m ρ c main_arg8 (by decide) (by decide)
    _ = W0 m ρ c (Proc.devRef .tc main_arg8) := (W1_arr m ρ c 6).trans (((dat0 (V0 m ρ) c).arrAt_in 6 rfl _).trans (A_eq0 (V0 m ρ) c 6))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_not_written m ρ c main_arg9 (by decide) (by decide)
    _ = W0 m ρ c (Proc.devRef .tc main_arg9) := (W1_arr m ρ c 7).trans (((dat0 (V0 m ρ) c).arrAt_in 7 rfl _).trans (A_eq0 (V0 m ρ) c 7))
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V2 m ρ) c
    refine Idealize.SL.BI.BIBase.Entails.trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (V2 m ρ) c
    refine Idealize.SL.BI.BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.Kernel.Hand

end
-- ==== Proof.KI.Region0.lean ====
/-
  The first kernel region, read at the buffer contents `V` it is entered from: one grid point, every window a whole
  array. What each window's block is, what the body leaves in each result's staging buffer (one covering store each,
  of a pure term of the input blocks), the body's triple, the pipeline's proof data and the body obligation.
-/
import proofs.«164400_j30940944400973_2_alg».proof.Proof.Gen.KernelIdeal.Launch
import proofs.«164400_j30940944400973_2_alg».proof.Proof.Gen.KernelIdeal.Skeleton
import proofs.«164400_j30940944400973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S32x1024 := Rect.unit (s := S32x1024) ![0, 0] S32x1024.size inb_S32x1024_S32x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0
abbrev rR : Rect S32x1 := Rect.unit (s := S32x1) ![0, 0] S32x1.size inb_S32x1_S32x1_0_0

/-! ## What the body leaves in each result's staging buffer -/

/-- Result window 8's staging buffer after the body: its one store, covering it. -/
def out0_8 (x0 : Vec F S32x1024 .f32) (x1 : Vec F S1024x1024 .f32) (x2 : Vec F S1024 .f32) (x3 : Vec F S32x1024 .f32) : Vec F S32x1024 .f32 :=
  View.canon [⟨rA, k0_pay4 (View.ld x0 rA) (View.ld x1 rW) (View.ld x2 rB) (View.ld x3 rA)⟩]
theorem cover0_8 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 9's staging buffer after the body: its one store, covering it. -/
def out0_9 (x0 : Vec F S32x1024 .f32) (x1 : Vec F S1024x1024 .f32) (x2 : Vec F S1024 .f32) (x3 : Vec F S32x1024 .f32) : Vec F S32x1024 .f32 :=
  View.canon [⟨rA, k0_pay5 (View.ld x0 rA) (View.ld x1 rW) (View.ld x2 rB) (View.ld x3 rA)⟩]
theorem cover0_9 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 10's staging buffer after the body: its one store, covering it. -/
def out0_10 (x4 : Vec F S32x1024 .f32) : Vec F S32x1024 .f32 :=
  View.canon [⟨rA, k0_pay8 (View.ld x4 rA)⟩]
theorem cover0_10 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 11's staging buffer after the body: its one store, covering it. -/
def out0_11 (x0 : Vec F S32x1024 .f32) (x1 : Vec F S1024x1024 .f32) (x2 : Vec F S1024 .f32) (x3 : Vec F S32x1024 .f32) (x4 : Vec F S32x1024 .f32) (x5 : Vec F S32x1024 .f32) : Vec F S32x1024 .f32 :=
  View.canon [⟨rA, k0_pay9 (View.ld x0 rA) (View.ld x1 rW) (View.ld x2 rB) (View.ld x3 rA) (View.ld x4 rA) (View.ld x5 rA)⟩]
theorem cover0_11 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 12's staging buffer after the body: its one store, covering it. -/
def out0_12 (x0 : Vec F S32x1024 .f32) (x1 : Vec F S1024x1024 .f32) (x2 : Vec F S1024 .f32) (x3 : Vec F S32x1024 .f32) (x6 : Vec F S32x1024 .f32) (x7 : Vec F S32x1 .f32) : Vec F S32x1024 .f32 :=
  View.canon [⟨rA, k0_pay3 (k0_pay6 (View.ld x0 rA) (View.ld x1 rW) (View.ld x2 rB) (View.ld x3 rA)) (View.ld x7 rR) (Scalar.ofBits .f32 0x3F666666#32) (View.ld x6 rA)⟩]
theorem cover0_12 (p0 : Vec F S32x1024 .f32) (y : S32x1024.Idx) :
    ∃ pc ∈ ([⟨rA, p0⟩] : List (View.Piece (Elt F) S32x1024 .f32)), y ∈ pc.1.set :=
  View.cover_of_tiled [⟨rA, p0⟩] S32x1024.size (by rfl) y
/-- Result window 13's staging buffer after the body: its one store, covering it. -/
def out0_13 (x7 : Vec F S32x1 .f32) : Vec F S32x1 .f32 :=
  View.canon [⟨rR, k0_pay2 (View.ld x7 rR) (Scalar.ofBits .f32 0x3F666666#32)⟩]
theorem cover0_13 (p0 : Vec F S32x1 .f32) (y : S32x1.Idx) :
    ∃ pc ∈ ([⟨rR, p0⟩] : List (View.Piece (Elt F) S32x1 .f32)), y ∈ pc.1.set :=
  View.cover_of_tiled [⟨rR, p0⟩] S32x1.size (by rfl) y

/-! ## The body's triple -/

set_option maxHeartbeats 4000000 in
/-- The body on whole staging memrefs, the inputs' at contents `x·` and the results' at anything, runs to the
    continuation holding the inputs' as they were and each result's at `out0_·` of the inputs'. -/
theorem sound_kernel0 (c : Dev nD) (E : Set ℕ) (i : grid0.Coords) (arg1 : Memref sig .tc .vmem S32x1024 .f32) (harg1 : arg1.IsWhole) (arg2 : Memref sig .tc .vmem S1024x1024 .f32) (harg2 : arg2.IsWhole) (arg3 : Memref sig .tc .vmem S1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S32x1 .f32) (harg8 : arg8.IsWhole) (arg9 : Memref sig .tc .vmem S32x1024 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S32x1024 .f32) (harg13 : arg13.IsWhole) (arg14 : Memref sig .tc .vmem S32x1 .f32) (harg14 : arg14.IsWhole)
    (x0 : Vec F S32x1024 .f32) (x1 : Vec F S1024x1024 .f32) (x2 : Vec F S1024 .f32) (x3 : Vec F S32x1024 .f32) (x4 : Vec F S32x1024 .f32) (x5 : Vec F S32x1024 .f32) (x6 : Vec F S32x1024 .f32) (x7 : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3) ∗ owns (c : Thread nD τ) arg10 fullShare (out0_9 x0 x1 x2 x3) ∗ owns (c : Thread nD τ) arg11 fullShare (out0_10 x4) ∗ owns (c : Thread nD τ) arg12 fullShare (out0_11 x0 x1 x2 x3 x4 x5) ∗ owns (c : Thread nD τ) arg13 fullShare (out0_12 x0 x1 x2 x3 x6 x7) ∗ owns (c : Thread nD τ) arg14 fullShare (out0_13 x7)) -∗ K ⟨⟩))
      ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_a_body_eq_skeleton]; unfold cc0__kernel_a_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The pipeline's proof data -/

/-- The proof data of the first pipeline on core `c`: the arrays as the region finds them; after the body each
    input's buffer at its block and each result's at `out0_·` of the input blocks; the region's invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t)
    | ⟨9, _⟩ => out0_9 (iblk0 V c 0 t) (iblk0 V c 1 t) (iblk0 V c 2 t) (iblk0 V c 3 t)
    | ⟨10, _⟩ => out0_10 (iblk0 V c 4 t)
    | ⟨11, _⟩ => out0_11 (iblk0 V c 0 t) (iblk0 V c 1 t) (iblk0 V c 2 t) (iblk0 V c 3 t) (iblk0 V c 4 t) (iblk0 V c 5 t)
    | ⟨12, _⟩ => out0_12 (iblk0 V c 0 t) (iblk0 V c 1 t) (iblk0 V c 2 t) (iblk0 V c 3 t) (iblk0 V c 6 t) (iblk0 V c 7 t)
    | ⟨13, _⟩ => out0_13 (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 2 t) (iblk0 V c 3 t) := by dsimp only [dat0]
theorem after0_10 (c : Dev nD) (t : Fin cfg0.N) : (dat0 V c).after 10 t = out0_10 (iblk0 V c 4 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 6 t) (iblk0 V c 7 t) := by dsimp only [dat0]
theorem after0_13 (c : Dev nD) (t : Fin cfg0.N) : (dat0 V c).after 13 t = out0_13 (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 2000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  The second kernel region, read at the buffer contents `V` it is entered from: a grid of 32 × 2 points, the second
  coordinate the half of the output features. At the first half of each batch row the body writes the row of `x`,
  transposed to a column, into a scratch buffer, and at the second half it reads the column the first half left there:
  the scratch is carried from a point to the next. Two cases of the body, what each leaves in the results' staging
  buffers and in the scratch, what they hold point by point, the region's invariant naming the scratch's contents
  between points, the pipeline's proof data and the body obligation.
-/
import proofs.«164400_j30940944400973_2_alg».proof.Proof.Gen.KernelIdeal.Launch
import proofs.«164400_j30940944400973_2_alg».proof.Proof.Gen.KernelIdeal.Skeleton
import proofs.«164400_j30940944400973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: the second grid coordinate is zero. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- One staging buffer of each result window, through which its contents are stated. -/
abbrev VO1_4 : View sig .tc .vmem S1x1024x512 .f32 := (Memref.whole cc1_stg4_0 : Memref sig .tc .vmem S1x1024x512 .f32).view
abbrev VO1_5 : View sig .tc .vmem S1x1024x512 .f32 := (Memref.whole cc1_stg5_0 : Memref sig .tc .vmem S1x1024x512 .f32).view
abbrev ms1_0 (t : Fin cfg1.N) : Memref sig .tc .vmem S1x1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x512 .f32 := win1_5.stage (cfg1.slots t 5)
abbrev hs1_5 (t : Fin cfg1.N) : (ms1_5 t).IsWhole := hstage1_5 ((cfg1.slots t 5).cast nbuf1_5)
/-- The scratch column: a whole scoped buffer of the kernel's own. -/
abbrev scM1 : Memref sig .tc .vmem S1024x1 .f32 := Memref.whole cc1_scratch0
abbrev VS1 : View sig .tc .vmem S1024x1 .f32 := scM1.view

/-- The scoped buffers that are no staging buffer of this region, the scratch held as `S` says. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ S)

theorem scopedRest1_with (c : Dev nD) :
    (Pipeline.scopedRest (Ix := Unit) (Name := ℕ) (U := UR sig nD τ) (Lvl := ℕ) (Val := Elt F) spec1 c : sProp 𝕄)
      = scopedWith c iprop(∃ d, owns (c : Thread nD τ) scM1 fullShare d) := by
  rw [scopedRest1_eq]; unfold scopedWith; simp only [scM1, owns_whole]; try rfl

/-- The class invariant with the scratch as a memref owned at some contents. -/
theorem PhiA1_eq (c : Dev nD) :
    (Pipeline.ΦA spec1 c : sProp 𝕄)
      = iprop(scopedWith c iprop(∃ d, owns (c : Thread nD τ) scM1 fullShare d) ∗ (∃ r, prngReg c r)) := by
  unfold Pipeline.ΦA; rw [scopedRest1_with]

/-! ## The body's two cases, on any staging memrefs -/

set_option maxHeartbeats 4000000 in
/-- THE FIRST HALF of a batch row (the branch taken): the pieces the body's stores leave in the two results' buffers
    and in the scratch, with the proof that it runs to the continuation holding them. -/
noncomputable def kernelRun1_A (c : Dev nD) (i : grid1.Coords) (arg2 : Memref sig .tc .vmem S1x1x1024 .f32) (harg2 : arg2.IsWhole) (arg3 : Memref sig .tc .vmem S1x1x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1024x1 .f32) (harg8 : arg8.IsWhole) (hc0 : cond1_0 i)
    (x0 : Vec F S1x1x1024 .f32) (x1 : Vec F S1x1x512 .f32) (x2 : Vec F S1x1024x512 .f32) (x3 : Vec F S1x1024x512 .f32) :
    Σ' (L4 : List (View.Piece (Elt F) S1x1024x512 .f32)), Σ' (L5 : List (View.Piece (Elt F) S1x1024x512 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b_body i arg2 harg2 arg3 harg3 arg4 harg4 arg5 harg5 arg6 harg6 arg7 harg7 arg8 harg8) K } := by
  refine ⟨?_, ?_, ?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 4000000 in
/-- THE SECOND HALF of a batch row (the branch not taken): the scratch is read at the contents `xs0` the point before
    left and handed back as found. -/
noncomputable def kernelRun1_B (c : Dev nD) (i : grid1.Coords) (arg2 : Memref sig .tc .vmem S1x1x1024 .f32) (harg2 : arg2.IsWhole) (arg3 : Memref sig .tc .vmem S1x1x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1024x1 .f32) (harg8 : arg8.IsWhole) (hc0 : ¬cond1_0 i)
    (x0 : Vec F S1x1x1024 .f32) (x1 : Vec F S1x1x512 .f32) (x2 : Vec F S1x1024x512 .f32) (x3 : Vec F S1x1024x512 .f32) (xs0 : Vec F S1024x1 .f32) :
    Σ' (L4 : List (View.Piece (Elt F) S1x1024x512 .f32)), { L5 : List (View.Piece (Elt F) S1x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc1__kernel_b_body i arg2 harg2 arg3 harg3 arg4 harg4 arg5 harg5 arg6 harg6 arg7 harg7 arg8 harg8) K } := by
  refine ⟨?_, ?_, fun E K => ?run⟩
  case run =>
    simp only [cc1__kernel_b_body_eq_skeleton]; unfold cc1__kernel_b_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; isplitr; · ipureintro; exact harg8.read_unread _
    iexact HS0

/-! ## What each case leaves -/

section Outs
variable (c : Dev nD) (i : grid1.Coords) (arg2 : Memref sig .tc .vmem S1x1x1024 .f32) (harg2 : arg2.IsWhole) (arg3 : Memref sig .tc .vmem S1x1x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1024x1 .f32) (harg8 : arg8.IsWhole)

theorem cover1_A_4 (hc0 : cond1_0 i) (x0 : Vec F S1x1x1024 .f32) (x1 : Vec F S1x1x512 .f32) (x2 : Vec F S1x1024x512 .f32) (x3 : Vec F S1x1024x512 .f32) (y : S1x1024x512.Idx) :
    ∃ pc ∈ (kernelRun1_A c i arg2 harg2 arg3 harg3 arg4 harg4 arg5 harg5 arg6 harg6 arg7 harg7 arg8 harg8 hc0 x0 x1 x2 x3).1, y ∈ pc.1.set :=
  View.cover_of_tiledL (kernelRun1_A c i arg2 harg2 arg3 harg3 arg4 harg4 arg5 harg5 arg6 harg6 arg7 harg7 arg8 harg8 hc0 x0 x1 x2 x3).1 S1x1024x512.size (by sl_kernel_rfl) y
theorem cover1_A_5 (hc0 : cond1_0 i) (x0 : Vec F S1x1x1024 .f32) (x1 : Vec F S1x1x512 .f32) (x2 : Vec F S1x1024x512 .f32) (x3 : Vec F S1x1024x512 .f32) (y : S1x1024x512.Idx) :
    ∃ pc ∈ (kernelRun1_A c i arg2 harg2 arg3 harg3 arg4 harg4 arg5 harg5 arg6 harg6 arg7 harg7 arg8 harg8 hc0 x0 x1 x2 x3).2.1, y ∈ pc.1.set :=
  View.cover_of_tiledL (kernelRun1_A c i arg2 harg2 arg3 harg3 arg4 harg4 arg5 harg5 arg6 harg6 arg7 harg7 arg8 harg8 hc0 x0 x1 x2 x3).2.1 S1x1024x512.size (by sl_kernel_rfl) y
theorem scover1_A (hc0 : cond1_0 i) (x0 : Vec F S1x1x1024 .f32) (x1 : Vec F S1x1x512 .f32) (x2 : Vec F S1x1024x512 .f32) (x3 : Vec F S1x1024x512 .f32) (y : S1024x1.Idx) :
    ∃ pc ∈ (kernelRun1_A c i arg2 harg2 arg3 harg3 arg4 harg4 arg5 harg5 arg6 harg6 arg7 harg7 arg8 harg8 hc0 x0 x1 x2 x3).2.2.1, y ∈ pc.1.set :=
  View.cover_of_tiledL (kernelRun1_A c i arg2 harg2 arg3 harg3 arg4 harg4 arg5 harg5 arg6 harg6 arg7 harg7 arg8 harg8 hc0 x0 x1 x2 x3).2.2.1 S1024x1.size (by sl_kernel_rfl) y
theorem cover1_B_4 (hc0 : ¬cond1_0 i) (x0 : Vec F S1x1x1024 .f32) (x1 : Vec F S1x1x512 .f32) (x2 : Vec F S1x1024x512 .f32) (x3 : Vec F S1x1024x512 .f32) (xs0 : Vec F S1024x1 .f32) (y : S1x1024x512.Idx) :
    ∃ pc ∈ (kernelRun1_B c i arg2 harg2 arg3 harg3 arg4 harg4 arg5 harg5 arg6 harg6 arg7 harg7 arg8 harg8 hc0 x0 x1 x2 x3 xs0).1, y ∈ pc.1.set :=
  View.cover_of_tiledL (kernelRun1_B c i arg2 harg2 arg3 harg3 arg4 harg4 arg5 harg5 arg6 harg6 arg7 harg7 arg8 harg8 hc0 x0 x1 x2 x3 xs0).1 S1x1024x512.size (by sl_kernel_rfl) y
theorem cover1_B_5 (hc0 : ¬cond1_0 i) (x0 : Vec F S1x1x1024 .f32) (x1 : Vec F S1x1x512 .f32) (x2 : Vec F S1x1024x512 .f32) (x3 : Vec F S1x1024x512 .f32) (xs0 : Vec F S1024x1 .f32) (y : S1x1024x512.Idx) :
    ∃ pc ∈ (kernelRun1_B c i arg2 harg2 arg3 harg3 arg4 harg4 arg5 harg5 arg6 harg6 arg7 harg7 arg8 harg8 hc0 x0 x1 x2 x3 xs0).2.1, y ∈ pc.1.set :=
  View.cover_of_tiledL (kernelRun1_B c i arg2 harg2 arg3 harg3 arg4 harg4 arg5 harg5 arg6 harg6 arg7 harg7 arg8 harg8 hc0 x0 x1 x2 x3 xs0).2.1 S1x1024x512.size (by sl_kernel_rfl) y

/-- What the first half leaves in the first result's buffer, the second's, and the scratch: its pieces read back. -/
def out1_A_4 (hc0 : cond1_0 i) (x0 : Vec F S1x1x1024 .f32) (x1 : Vec F S1x1x512 .f32) (x2 : Vec F S1x1024x512 .f32) (x3 : Vec F S1x1024x512 .f32) : Vec F S1x1024x512 .f32 :=
  VO1_4.read (Elt F) (VO1_4.writes (Elt F) VO1_4.junk (kernelRun1_A c i arg2 harg2 arg3 harg3 arg4 harg4 arg5 harg5 arg6 harg6 arg7 harg7 arg8 harg8 hc0 x0 x1 x2 x3).1)
def out1_A_5 (hc0 : cond1_0 i) (x0 : Vec F S1x1x1024 .f32) (x1 : Vec F S1x1x512 .f32) (x2 : Vec F S1x1024x512 .f32) (x3 : Vec F S1x1024x512 .f32) : Vec F S1x1024x512 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3).2.1)
def sout1_A (hc0 : cond1_0 i) (x0 : Vec F S1x1x1024 .f32) (x1 : Vec F S1x1x512 .f32) (x2 : Vec F S1x1024x512 .f32) (x3 : Vec F S1x1024x512 .f32) : Vec F S1024x1 .f32 :=
  VS1.read (Elt F) (VS1.writes (Elt F) VS1.junk (kernelRun1_A c i arg2 harg2 arg3 harg3 arg4 harg4 arg5 harg5 arg6 harg6 arg7 harg7 arg8 harg8 hc0 x0 x1 x2 x3).2.2.1)
/-- What the second half leaves in the results' buffers. -/
def out1_B_4 (hc0 : ¬cond1_0 i) (x0 : Vec F S1x1x1024 .f32) (x1 : Vec F S1x1x512 .f32) (x2 : Vec F S1x1024x512 .f32) (x3 : Vec F S1x1024x512 .f32) (xs0 : Vec F S1024x1 .f32) : Vec F S1x1024x512 .f32 :=
  VO1_4.read (Elt F) (VO1_4.writes (Elt F) VO1_4.junk (kernelRun1_B c i arg2 harg2 arg3 harg3 arg4 harg4 arg5 harg5 arg6 harg6 arg7 harg7 arg8 harg8 hc0 x0 x1 x2 x3 xs0).1)
def out1_B_5 (hc0 : ¬cond1_0 i) (x0 : Vec F S1x1x1024 .f32) (x1 : Vec F S1x1x512 .f32) (x2 : Vec F S1x1024x512 .f32) (x3 : Vec F S1x1024x512 .f32) (xs0 : Vec F S1024x1 .f32) : Vec F S1x1024x512 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 xs0).2.1)

end Outs

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the results' buffers and the scratch hold after each point -/

/-- After the body at position `n`: the two results' staging buffers, then the scratch. At an even position the first
    half's contents; at an odd one the second half's, over the scratch the position before left, which stays. -/
def outsAt1 (c : Dev nD) : (n : ℕ) → n < cfg1.N → Vec F S1x1024x512 .f32 × Vec F S1x1024x512 .f32 × Vec F S1024x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
        (outsAt1 c n (Nat.lt_of_succ_lt hn)).2.2)

/-- `outsAt1` at an even point. -/
theorem outsAt1_A (c : Dev nD) (t : Fin cfg1.N) (h0 : t.val % 2 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t),
      out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t),
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an odd point, over what the point before left. -/
theorem outsAt1_B (c : Dev nD) (t : Fin cfg1.N) (h0 : ¬t.val % 2 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2,
      out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2,
      (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point the class's; afterwards the scoped rest with
    the scratch at what the point before left in it, and the generator register at some state. -/
def PhiS (c : Dev nD) : (n : ℕ) → n ≤ cfg1.N → sProp 𝕄
  | 0, _ => Pipeline.ΦA spec1 c
  | n + 1, hn => iprop(scopedWith c (owns (c : Thread nD τ) scM1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) scM1 fullShare ((outsAt1 V c n hn).2.2)) ∗ (∃ r, prngReg c r)) := rfl
theorem PhiS_pos (c : Dev nD) (n : ℕ) (h : n ≤ cfg1.N) (hz : n ≠ 0) :
    PhiS V c n h = iprop(scopedWith c (owns (c : Thread nD τ) scM1 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point: the inputs' memrefs hold their blocks; the point's parity says which half it is; the
    invariant hands the body the scratch (at anything before the first point, else at what the point before left) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5]
  have hN : t.val < 64 := lt_of_lt_of_eq t.isLt (show cfg1.N = 64 from N_1)
  by_cases h0 : t.val % 2 = 0
  · rw [outsAt1_A V c t h0]
    unfold out1_A_4 out1_A_5 sout1_A; (try dsimp only)
    by_cases hz : t.val = 0
    · rw [PhiS_castSucc V c t, PhiS_zero V c _ _ hz, PhiA1_eq]
      unfold scopedWith
      iintro ⟨⟨⟨G0, G1, G2, G3, G4, G5, G6, G7, G8, G9, G10, G11, G12, G13, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [G0 G1 G2 G3 G4 G5 G6 G7 G8 G9 G10 G11 G12 G13 HS0 Hg]
      · isplitl [G0 G1 G2 G3 G4 G5 G6 G7 G8 G9 G10 G11 G12 G13 HS0]
        ·
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          unfold owns; iexists _; isplitr
          swap; · iexact HS0
          ipureintro; exact View.read_writes_of_cover _ _ _ _ _ (scover1_A c _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ )
      unfold owns; iexists _; isplitr
      swap; · iexact H5
      ipureintro; exact View.read_writes_of_cover _ _ _ _ _ (cover1_A_5 c _ _ _ _ _ _ _ _ _ _ _ _ _ _ _ _ _ _ _ _ )
    · rw [PhiS_castSucc V c t, PhiS_pos V c _ _ hz]
      unfold scopedWith
      iintro ⟨⟨⟨G0, G1, G2, G3, G4, G5, G6, G7, G8, G9, G10, G11, G12, G13, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [G0 G1 G2 G3 G4 G5 G6 G7 G8 G9 G10 G11 G12 G13 HS0 Hg]
      · isplitl [G0 G1 G2 G3 G4 G5 G6 G7 G8 G9 G10 G11 G12 G13 HS0]
        ·
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          unfold owns; iexists _; isplitr
          swap; · iexact HS0
          ipureintro; exact View.read_writes_of_cover _ _ _ _ _ (scover1_A c _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ )
      unfold owns; iexists _; isplitr
      swap; · iexact H5
      ipureintro; exact View.read_writes_of_cover _ _ _ _ _ (cover1_A_5 c _ _ _ _ _ _ _ _ _ _ _ _ _ _ _ _ _ _ _ _ )
  · rw [outsAt1_B V c t h0]
    unfold out1_B_4 out1_B_5; (try dsimp only)
    have hz : t.val ≠ 0 := fun e => h0 (by rw [e])
    rw [PhiS_castSucc V c t, PhiS_pos V c _ _ hz]
    unfold scopedWith
    iintro ⟨⟨⟨G0, G1, G2, G3, G4, G5, G6, G7, G8, G9, G10, G11, G12, G13, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [G0 G1 G2 G3 G4 G5 G6 G7 G8 G9 G10 G11 G12 G13 HS0 Hg]
    · isplitl [G0 G1 G2 G3 G4 G5 G6 G7 G8 G9 G10 G11 G12 G13 HS0]
      ·
        isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ )
    unfold owns; iexists _; isplitr
    swap; · iexact H5
    ipureintro; exact View.read_writes_of_cover _ _ _ _ _ (cover1_B_5 c _ _ _ _ _ _ _ _ _ _ _ _ _ _ _ _ _ _ _ _ _ )

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨G0, G1, G2, G3, G4, G5, G6, G7, G8, G9, G10, G11, G12, G13, HS0⟩, Hg⟩
  isplitl [G0 G1 G2 G3 G4 G5 G6 G7 G8 G9 G10 G11 G12 G13 HS0]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexists _; iexact HS0
  iexact Hg

end Region1

end Cert.KernelIdeal.Hand

end
-- ==== Proof.KI.Run.lean ====
/-
  The whole run of the program: the first kernel region, two reshapes on the host, the second kernel region. The
  contents of every unscoped buffer at each boundary between them, as a fold from the launch memory; each region as a
  segment entered from one boundary's contents and left at the next's; and the run: every weakly fair execution
  terminates with every unscoped buffer at the last boundary's contents. The arguments are read back through the fold
  to their launch contents.
-/
import proofs.«164400_j30940944400973_2_alg».proof.Proof.KI.Region0
import proofs.«164400_j30940944400973_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: the second region's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer the reshapes do not write keeps its contents across them. -/
theorem W2_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_not_written m ρ c main_arg1 (by decide) (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_not_written m ρ c main_arg2 (by decide) (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_not_written m ρ c main_arg3 (by decide) (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_not_written m ρ c main_arg4 (by decide) (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_not_written m ρ c main_arg5 (by decide) (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_not_written m ρ c main_arg6 (by decide) (by decide)
    _ = W0 m ρ c (Proc.devRef .tc main_arg6) := W1_of_ne m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_not_written m ρ c main_arg7 (by decide) (by decide)
    _ = W0 m ρ c (Proc.devRef .tc main_arg7) := (W1_arr m ρ c 5).trans (((dat0 (V0 m ρ) c).arrAt_in 5 rfl _).trans (A_eq0 (V0 m ρ) c 5))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_not_written m ρ c main_arg8 (by decide) (by decide)
    _ = W0 m ρ c (Proc.devRef .tc main_arg8) := (W1_arr m ρ c 6).trans (((dat0 (V0 m ρ) c).arrAt_in 6 rfl _).trans (A_eq0 (V0 m ρ) c 6))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_not_written m ρ c main_arg9 (by decide) (by decide)
    _ = W0 m ρ c (Proc.devRef .tc main_arg9) := (W1_arr m ρ c 7).trans (((dat0 (V0 m ρ) c).arrAt_in 7 rfl _).trans (A_eq0 (V0 m ρ) c 7))
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V2 m ρ) c
    refine Idealize.SL.BI.BIBase.Entails.trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (V2 m ρ) c
    refine Idealize.SL.BI.BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.KernelIdeal.Hand

end
-- ==== Proof.Spec.lean ====
/-
  The trace update as plain formulas on the extended reals, entry by entry.

  For a batch row `p`, an input feature `k` and an output feature `q`:
    h      = Σ_k x[p,k] · W[k,q] + b[q]                 the dense layer
    u'     = β · u[p,q] + h                             the leaky integrator (β the literal 0.9 as a float)
    s      = logistic (u' − 1)                          the spike
    sg     = s · (1 − s)                                its derivative
    ds/du  = β · sg
  the bias traces
    E_b1 = β · E_b + 1,  dθ_b = ds/du · E_b1 + sg,  E_b2 = β · E_b1 + 1,  Rh_b2 = ds/du · Rh_b + dθ_b
  the ratio trace
    ρ0 = β · r[p],  r2 = ρ0 + 1,  ρ = ρ0 / r2,  g_bar2 = ρ · g_bar + (1 − ρ) · ds/du
  and the weight traces, with x[p,k] spread along q and sg[p,q] spread along k,
    E_W1 = β · E_W + x,  dθ_W = ds/du · E_W1 + x · sg,  E_W2 = β · E_W1 + x,  Rh_W2 = ds/du · Rh_W + dθ_W.
  The two float literals are kept as their words: both programs spell the same words, so their values never matter,
  except that the logistic's own `1` is the literal one (`one_eq`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The leak β, as the float literal both programs spell. -/
abbrev beta : EReal := Ideal.ofBits .f32 0x3F666666#32
/-- The float literal one. -/
abbrev one : EReal := Ideal.ofBits .f32 0x3F800000#32

/-- The literal one is the number one. -/
theorem one_eq : one = 1 := by
  simp [one, Ideal.ofBits, Ideal.ieee, -EReal.coe_mul]; norm_num

abbrev M2 (a b : Nat) : Type := (⟨2, ![a, b]⟩ : Shape).Idx → EReal
abbrev M1 (a : Nat) : Type := (⟨1, ![a]⟩ : Shape).Idx → EReal
abbrev M3 (a b c : Nat) : Type := (⟨3, ![a, b, c]⟩ : Shape).Idx → EReal

variable (x : M2 32 1024) (W : M2 1024 1024) (b : M1 1024) (u : M2 32 1024)
  (E_W : M3 32 1024 1024) (E_b : M2 32 1024) (Rh_W : M3 32 1024 1024) (Rh_b : M2 32 1024)
  (g_bar : M2 32 1024) (r : M2 32 1)

/-- The dense layer. -/
def h (p : Fin 32) (q : Fin 1024) : EReal := (∑ k : Fin 1024, x (ix2 p k) * W (ix2 k q)) + b (ix1 q)
/-- The membrane after the leaky step. -/
def unew (p : Fin 32) (q : Fin 1024) : EReal := beta * u (ix2 p q) + h x W b p q
/-- The spike. -/
def s (p : Fin 32) (q : Fin 1024) : EReal := Ideal.logistic (unew x W b u p q - one)
/-- The spike's derivative. -/
def sg (p : Fin 32) (q : Fin 1024) : EReal := s x W b u p q * (one - s x W b u p q)
/-- The derivative through the leak. -/
def dsdu (p : Fin 32) (q : Fin 1024) : EReal := beta * sg x W b u p q

/-- The bias eligibility after one step. -/
def eb1 (p : Fin 32) (q : Fin 1024) : EReal := beta * E_b (ix2 p q) + one
/-- The bias eligibility after two steps: the third result. -/
def eb2 (p : Fin 32) (q : Fin 1024) : EReal := beta * eb1 E_b p q + one
/-- The bias trace: the fifth result. -/
def rhb2 (p : Fin 32) (q : Fin 1024) : EReal :=
  dsdu x W b u p q * Rh_b (ix2 p q) + (dsdu x W b u p q * eb1 E_b p q + sg x W b u p q)

/-- The leaked ratio. -/
def ratio0 (p : Fin 32) : EReal := beta * r (ix2 p 0)
/-- The ratio's denominator: the seventh result. -/
def r2 (p : Fin 32) : EReal := ratio0 r p + one
/-- The ratio. -/
def ratio (p : Fin 32) : EReal := Ideal.div (ratio0 r p) (r2 r p)
/-- The averaged gradient: the sixth result. -/
def gbar2 (p : Fin 32) (q : Fin 1024) : EReal :=
  ratio r p * g_bar (ix2 p q) + (one - ratio r p) * dsdu x W b u p q

/-- The weight eligibility after one step. -/
def ew1 (p : Fin 32) (k q : Fin 1024) : EReal := beta * E_W (ix3 p k q) + x (ix2 p k)
/-- The weight eligibility after two steps: the second result. -/
def ew2 (p : Fin 32) (k q : Fin 1024) : EReal := beta * ew1 x E_W p k q + x (ix2 p k)
/-- The weight trace: the fourth result. -/
def rhw2 (p : Fin 32) (k q : Fin 1024) : EReal :=
  dsdu x W b u p q * Rh_W (ix3 p k q) + (dsdu x W b u p q * ew1 x E_W p k q + x (ix2 p k) * sg x W b u p q)

end Cert.Spec

end
-- ==== Proof.PayloadSpec.lean ====
/-
  The kernel's arithmetic, entry by entry.

  Each value the two kernel functions store is read at one index and identified with the entrywise formula of the
  specification. The pointwise operations read through at the index; what remains is one fact per operation that moves
  data: the matrix product into a zero accumulator is the sum over the contracted coordinate, a bias `[1024]` viewed
  `[1, 1024]` and spread over the rows reads its column's entry, a column `[a, 1]` spread along the second axis reads
  its row's entry, a row stood up as a column reads the row's entry, and the leading unit axis of a block is dropped and
  put back without moving any entry.
-/
import proofs.«164400_j30940944400973_2_alg».proof.Proof.Gen.KernelIdeal.Skeleton
import proofs.«164400_j30940944400973_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PaySpec

open Cert.KernelIdeal Cert.KernelIdeal.Gen Idealize.ShloMosaic Idealize.ShloMosaic.ValueIdx

/-! ## Layout operations of these shapes, read at an index given by coordinates -/

/-- A column `[a, 1]` spread along the second axis reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product

The product contracts the left operand's second axis with the right operand's first: at the output index `(p, q)` and
the contracted coordinate `k` the operands are read at `(p, k)` and `(k, q)`. -/

local notation "D" => dot_S32x1024_S1024x1024_S32x1024_1_0_0_1_n_n

/-- The left operand's row is the output's row. -/
theorem lhs_row (i : S32x1024.Idx) (c : (D).contr.Idx) : ((D).lhsIdx i c 0).val = (i 0).val := by
  unfold DotDims.lhsIdx
  rw [dif_neg (show ¬(0 : Fin S32x1024.rank) ∈ (D).lhsBatch by decide),
    dif_pos (show (0 : Fin S32x1024.rank) ∈ (D).lhsNonContracting by decide)]
  rfl
/-- The left operand's column is the contracted coordinate. -/
theorem lhs_col (i : S32x1024.Idx) (c : (D).contr.Idx) : ((D).lhsIdx i c 1).val = (c ⟨0, by decide⟩).val :=
  (D).lhsIdx_val_of_single rfl i c
/-- The right operand's row is the contracted coordinate. -/
theorem rhs_row (i : S32x1024.Idx) (c : (D).contr.Idx) : ((D).rhsIdx i c 0).val = (c ⟨0, by decide⟩).val :=
  (D).rhsIdx_val_of_single rfl i c
/-- The right operand's column is the output's column. -/
theorem rhs_col (i : S32x1024.Idx) (c : (D).contr.Idx) : ((D).rhsIdx i c 1).val = (i 1).val := by
  unfold DotDims.rhsIdx
  rw [dif_neg (show ¬(1 : Fin S1024x1024.rank) ∈ (D).rhsBatch by decide),
    dif_pos (show (1 : Fin S1024x1024.rank) ∈ (D).rhsNonContracting by decide)]
  rfl

/-- The product of a `[32, 1024]` by a `[1024, 1024]` matrix into a zero accumulator, read at `(p, q)`:
    the sum over the contracted coordinate. -/
theorem matmul_zero_apply {φ₁ φ₂ : FTy} (l : FVec Ideal S32x1024 φ₁) (r : FVec Ideal S1024x1024 φ₂) (p : Fin 32) (q : Fin 1024) :
    matmul (D) none l r (constant S32x1024 .f32 0x00000000#32) (ix2 p q)
      = ∑ k : Fin 1024, l (ix2 p k) * r (ix2 k q) := by
  show FloatOps.matmul (D) none l r (constant S32x1024 .f32 0x00000000#32) (ix2 p q) = _
  rw [Ideal.matmul_constant_zero_apply, ← Equiv.sum_comp (ValueIdx.contrEquiv1 (D) 1024 rfl rfl).symm]
  refine Finset.sum_congr rfl fun k _ => ?_
  have hk := ValueIdx.contrEquiv1_symm_val (D) 1024 rfl rfl k
  have el : (D).lhsIdx (ix2 p q) ((ValueIdx.contrEquiv1 (D) 1024 rfl rfl).symm k) = ix2 p k :=
    funext fun a => Fin.ext (by
      match a with
      | ⟨0, _⟩ => exact lhs_row _ _
      | ⟨1, _⟩ => exact (lhs_col _ _).trans hk)
  have er : (D).rhsIdx (ix2 p q) ((ValueIdx.contrEquiv1 (D) 1024 rfl rfl).symm k) = ix2 k q :=
    funext fun a => Fin.ext (by
      match a with
      | ⟨0, _⟩ => exact (rhs_row _ _).trans hk
      | ⟨1, _⟩ => exact rhs_col _ _)
  rw [el, er]

/-! ## The first kernel's payloads at an index -/

/-- The logistic of a vector reads the logistic of the element. -/
theorem logistic_apply {s : Shape} {φ : FTy} (a : FVec Ideal s φ) (i : s.Idx) : logistic a i = Ideal.logistic (a i) := rfl

section First
variable (x : Vec Ideal S32x1024 .f32) (W : Vec Ideal S1024x1024 .f32) (b : Vec Ideal S1024 .f32)
  (u eb rhb gbar : Vec Ideal S32x1024 .f32) (r : Vec Ideal S32x1 .f32) (p : Fin 32) (q : Fin 1024)

/-- The bias eligibility after one step. -/
theorem k0_pay7_apply : k0_pay7 eb (ix2 p q) = Cert.Spec.eb1 eb p q := rfl

/-- The bias eligibility after two steps. -/
theorem k0_pay8_apply : k0_pay8 eb (ix2 p q) = Cert.Spec.eb2 eb p q := rfl

/-- The leaked ratio. -/
theorem k0_pay1_apply : k0_pay1 r (Scalar.ofBits (F := Ideal) .f32 0x3F666666#32) (ix2 p (0 : Fin 1)) = Cert.Spec.ratio0 r p := rfl

/-- The ratio's denominator. -/
theorem k0_pay2_apply : k0_pay2 r (Scalar.ofBits (F := Ideal) .f32 0x3F666666#32) (ix2 p (0 : Fin 1)) = Cert.Spec.r2 r p := rfl

/-- The spike: the dense layer's sum, the bias spread over the rows, the leaky step and the logistic. -/
theorem k0_pay4_apply : k0_pay4 x W b u (ix2 p q) = Cert.Spec.s x W b u p q := by
  unfold k0_pay4
  simp only [logistic_apply, subf_apply, addf_apply, mulf_apply, broadcast_apply]
  rw [matmul_zero_apply, broadcastTo_1b_ab_apply, shapeCast_a_1a_apply]
  rfl

/-- The spike's derivative. -/
theorem k0_pay5_apply : k0_pay5 x W b u (ix2 p q) = Cert.Spec.sg x W b u p q := by
  show k0_pay4 x W b u (ix2 p q) * (Cert.Spec.one - k0_pay4 x W b u (ix2 p q)) = _
  rw [k0_pay4_apply]
  rfl

/-- The derivative through the leak. -/
theorem k0_pay6_apply : k0_pay6 x W b u (ix2 p q) = Cert.Spec.dsdu x W b u p q := by
  show Cert.Spec.beta * k0_pay5 x W b u (ix2 p q) = _
  rw [k0_pay5_apply]
  rfl

/-- The bias trace. -/
theorem k0_pay9_apply : k0_pay9 x W b u eb rhb (ix2 p q) = Cert.Spec.rhb2 x W b u eb rhb p q := by
  show k0_pay6 x W b u (ix2 p q) * rhb (ix2 p q)
      + (k0_pay6 x W b u (ix2 p q) * k0_pay7 eb (ix2 p q) + k0_pay5 x W b u (ix2 p q)) = _
  rw [k0_pay6_apply, k0_pay5_apply, k0_pay7_apply]
  rfl

/-- The averaged gradient: the ratio's column spread along the row. -/
theorem k0_pay3_apply :
    k0_pay3 (k0_pay6 x W b u) r (Scalar.ofBits (F := Ideal) .f32 0x3F666666#32) gbar (ix2 p q)
      = Cert.Spec.gbar2 x W b u gbar r p q := by
  unfold k0_pay3
  simp only [addf_apply, mulf_apply]
  rw [broadcastTo_a1_ab_apply, broadcastTo_a1_ab_apply, k0_pay6_apply]
  rfl

end First

/-! ## The second kernel's payloads at an index -/

section Second
variable (xrow : Vec Ideal S1x1x1024 .f32) (xcol : Vec Ideal S1024x1 .f32) (sgb : Vec Ideal S1x1x512 .f32)
  (ew rhw : Vec Ideal S1x1024x512 .f32) (k : Fin 1024) (j : Fin 512)

/-- The input row stood up as a column. -/
theorem k1_pay1_apply : k1_pay1 xrow (ix2 k (0 : Fin 1)) = xrow (ix3 (0 : Fin 1) (0 : Fin 1) k) := by
  unfold k1_pay1
  simp only [shapeCast_self]
  rw [transpose_ix2_apply, shapeCast_1ab_ab_apply]

/-- The input column spread along the output features. -/
theorem k1_pay2_apply : k1_pay2 xcol (ix2 k j) = xcol (ix2 k (0 : Fin 1)) := by
  unfold k1_pay2
  simp only [shapeCast_self]
  rw [broadcastTo_a1_ab_apply]

/-- The weight eligibility after one step. -/
theorem k1_pay3_apply : k1_pay3 ew xcol (ix2 k j) = Cert.Spec.beta * ew (ix3 (0 : Fin 1) k j) + xcol (ix2 k (0 : Fin 1)) := by
  unfold k1_pay3
  simp only [addf_apply, mulf_apply, broadcast_apply]
  rw [shapeCast_1ab_ab_apply, k1_pay2_apply]
  rfl

/-- The weight eligibility after two steps. -/
theorem k1_pay4_apply :
    k1_pay4 ew xcol (ix3 (0 : Fin 1) k j)
      = Cert.Spec.beta * (Cert.Spec.beta * ew (ix3 (0 : Fin 1) k j) + xcol (ix2 k (0 : Fin 1))) + xcol (ix2 k (0 : Fin 1)) := by
  unfold k1_pay4
  rw [shapeCast_ab_1ab_apply]
  simp only [addf_apply, mulf_apply, broadcast_apply]
  rw [k1_pay3_apply, k1_pay2_apply]
  rfl

/-- The weight trace. -/
theorem k1_pay5_apply :
    k1_pay5 sgb ew rhw xcol (ix3 (0 : Fin 1) k j)
      = (Cert.Spec.beta * sgb (ix3 (0 : Fin 1) (0 : Fin 1) j)) * rhw (ix3 (0 : Fin 1) k j)
        + ((Cert.Spec.beta * sgb (ix3 (0 : Fin 1) (0 : Fin 1) j)) * (Cert.Spec.beta * ew (ix3 (0 : Fin 1) k j) + xcol (ix2 k (0 : Fin 1)))
          + xcol (ix2 k (0 : Fin 1)) * sgb (ix3 (0 : Fin 1) (0 : Fin 1) j)) := by
  unfold k1_pay5
  rw [shapeCast_ab_1ab_apply]
  simp only [addf_apply, mulf_apply, broadcast_apply, shapeCast_self]
  rw [broadcastTo_1b_ab_apply, shapeCast_1ab_ab_apply, shapeCast_1ab_ab_apply, k1_pay3_apply, k1_pay2_apply]
  rfl

end Second

end Cert.KernelIdeal.PaySpec

end
-- ==== Proof.KI.Value0.lean ====
/-
  The first kernel region's results as whole arrays.

  The region has one grid point and every window's block is its whole array, so each input block is the array the
  region is entered with, and what the one point writes back to a result is the body's stored term read entry by entry:
  the specification's formula of the entry arrays. The one point's block covers every index, so the array ends holding
  that formula everywhere.
-/
import proofs.«164400_j30940944400973_2_alg».proof.Proof.KI.Region0
import proofs.«164400_j30940944400973_2_alg».proof.Proof.PayloadSpec
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

section Value0
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- Every window's block index is zero on every axis at the region's one point. -/
theorem index_zero0 : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-! ## The input blocks are the entry arrays

A block's coordinate on an axis is the block index times the block's size plus the coordinate inside the block; the
block index is zero. -/

/-- The input's block is its array. -/
theorem iblk0_0 (c : Dev nD) (t : Fin cfg0.N) : iblk0 V c 0 t = V c main_arg0 := by
  unfold iblk0
  funext j
  show V c main_arg0 (((cfg0.win 0).blk t).view.emb j) = V c main_arg0 j
  refine congrArg (V c main_arg0) (funext fun a => Fin.ext ?_)
  obtain ⟨⟨e0, e1⟩, -⟩ := index_zero0 t
  match a with
  | ⟨0, _⟩ => show win0_0.index t (0 : Fin 2) * 32 + 1 * (j 0).val = (j 0).val; omega
  | ⟨1, _⟩ => show win0_0.index t (1 : Fin 2) * 1024 + 1 * (j 1).val = (j 1).val; omega

/-- The weight's block is its array. -/
theorem iblk0_1 (c : Dev nD) (t : Fin cfg0.N) : iblk0 V c 1 t = V c main_arg1 := by
  unfold iblk0
  funext j
  show V c main_arg1 (((cfg0.win 1).blk t).view.emb j) = V c main_arg1 j
  refine congrArg (V c main_arg1) (funext fun a => Fin.ext ?_)
  obtain ⟨-, ⟨e0, e1⟩, -⟩ := index_zero0 t
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- The bias's block is its array. -/
theorem iblk0_2 (c : Dev nD) (t : Fin cfg0.N) : iblk0 V c 2 t = V c main_arg2 := by
  unfold iblk0
  funext j
  show V c main_arg2 (((cfg0.win 2).blk t).view.emb j) = V c main_arg2 j
  refine congrArg (V c main_arg2) (funext fun a => Fin.ext ?_)
  obtain ⟨-, -, e0, -⟩ := index_zero0 t
  match a with
  | ⟨0, _⟩ => show win0_2.index t (0 : Fin 1) * 1024 + 1 * (j 0).val = (j 0).val; omega

/-- The membrane's block is its array. -/
theorem iblk0_3 (c : Dev nD) (t : Fin cfg0.N) : iblk0 V c 3 t = V c main_arg3 := by
  unfold iblk0
  funext j
  show V c main_arg3 (((cfg0.win 3).blk t).view.emb j) = V c main_arg3 j
  refine congrArg (V c main_arg3) (funext fun a => Fin.ext ?_)
  obtain ⟨-, -, -, ⟨e0, e1⟩, -⟩ := index_zero0 t
  match a with
  | ⟨0, _⟩ => show win0_3.index t (0 : Fin 2) * 32 + 1 * (j 0).val = (j 0).val; omega
  | ⟨1, _⟩ => show win0_3.index t (1 : Fin 2) * 1024 + 1 * (j 1).val = (j 1).val; omega

/-- The bias eligibility's block is its array. -/
theorem iblk0_4 (c : Dev nD) (t : Fin cfg0.N) : iblk0 V c 4 t = V c main_arg5 := by
  unfold iblk0
  funext j
  show V c main_arg5 (((cfg0.win 4).blk t).view.emb j) = V c main_arg5 j
  refine congrArg (V c main_arg5) (funext fun a => Fin.ext ?_)
  obtain ⟨-, -, -, -, ⟨e0, e1⟩, -⟩ := index_zero0 t
  match a with
  | ⟨0, _⟩ => show win0_4.index t (0 : Fin 2) * 32 + 1 * (j 0).val = (j 0).val; omega
  | ⟨1, _⟩ => show win0_4.index t (1 : Fin 2) * 1024 + 1 * (j 1).val = (j 1).val; omega

/-- The bias trace's block is its array. -/
theorem iblk0_5 (c : Dev nD) (t : Fin cfg0.N) : iblk0 V c 5 t = V c main_arg7 := by
  unfold iblk0
  funext j
  show V c main_arg7 (((cfg0.win 5).blk t).view.emb j) = V c main_arg7 j
  refine congrArg (V c main_arg7) (funext fun a => Fin.ext ?_)
  obtain ⟨-, -, -, -, -, ⟨e0, e1⟩, -⟩ := index_zero0 t
  match a with
  | ⟨0, _⟩ => show win0_5.index t (0 : Fin 2) * 32 + 1 * (j 0).val = (j 0).val; omega
  | ⟨1, _⟩ => show win0_5.index t (1 : Fin 2) * 1024 + 1 * (j 1).val = (j 1).val; omega

/-- The averaged gradient's block is its array. -/
theorem iblk0_6 (c : Dev nD) (t : Fin cfg0.N) : iblk0 V c 6 t = V c main_arg8 := by
  unfold iblk0
  funext j
  show V c main_arg8 (((cfg0.win 6).blk t).view.emb j) = V c main_arg8 j
  refine congrArg (V c main_arg8) (funext fun a => Fin.ext ?_)
  obtain ⟨-, -, -, -, -, -, ⟨e0, e1⟩, -⟩ := index_zero0 t
  match a with
  | ⟨0, _⟩ => show win0_6.index t (0 : Fin 2) * 32 + 1 * (j 0).val = (j 0).val; omega
  | ⟨1, _⟩ => show win0_6.index t (1 : Fin 2) * 1024 + 1 * (j 1).val = (j 1).val; omega

/-- The ratio's block is its array. -/
theorem iblk0_7 (c : Dev nD) (t : Fin cfg0.N) : iblk0 V c 7 t = V c main_arg9 := by
  unfold iblk0
  funext j
  show V c main_arg9 (((cfg0.win 7).blk t).view.emb j) = V c main_arg9 j
  refine congrArg (V c main_arg9) (funext fun a => Fin.ext ?_)
  obtain ⟨-, -, -, -, -, -, -, ⟨e0, e1⟩, -⟩ := index_zero0 t
  match a with
  | ⟨0, _⟩ => show win0_7.index t (0 : Fin 2) * 32 + 1 * (j 0).val = (j 0).val; omega
  | ⟨1, _⟩ => show win0_7.index t (1 : Fin 2) * 1 + 1 * (j 1).val = (j 1).val; omega

/-! ## The spike -/

/-- An index of the one point's block is the same index of the array. -/
theorem emb0_8 (t : Fin cfg0.N) (j : S32x1024.Idx) : ((cfg0.win 8).blk t).view.emb j = j := by
  funext a; apply Fin.ext
  obtain ⟨-, -, -, -, -, -, -, -, ⟨e0, e1⟩, -⟩ := index_zero0 t
  match a with
  | ⟨0, _⟩ => show win0_8.index t (0 : Fin 2) * 32 + 1 * (j 0).val = (j 0).val; omega
  | ⟨1, _⟩ => show win0_8.index t (1 : Fin 2) * 1024 + 1 * (j 1).val = (j 1).val; omega

/-- What the point writes back is the block of the formula. -/
theorem flushed0_8_eq (c : Dev nD) (t : Fin cfg0.N) :
    (dat0 V c).flushed 8 t = ((cfg0.win 8).blk t).view.read (Elt Ideal)
      (fun i : S32x1024.Idx => Cert.Spec.s (V c main_arg0) (V c main_arg1) (V c main_arg2) (V c main_arg3) (i 0) (i 1)) := by
  show (cfg0.win 8).cut (grid0.coords t) ((dat0 V c).after 8 t) = _
  rw [after0_8]
  unfold out0_8
  rw [View.canon_unit_zero zeros2]
  simp only [View.ld_unit_zero (S := S32x1024) zeros2, View.ld_unit_zero (S := S1024x1024) zeros2,
    View.ld_unit_zero (S := S1024) zeros1, View.ld_unit_zero (S := S32x1) zeros2]
  rw [iblk0_0, iblk0_1, iblk0_2, iblk0_3]
  funext j
  show k0_pay4 (V c main_arg0) (V c main_arg1) (V c main_arg2) (V c main_arg3) j
    = (fun i : S32x1024.Idx => Cert.Spec.s (V c main_arg0) (V c main_arg1) (V c main_arg2) (V c main_arg3) (i 0) (i 1)) (((cfg0.win 8).blk t).view.emb j)
  rw [emb0_8]
  obtain ⟨p, q, rfl⟩ : ∃ (p : Fin 32) (q : Fin 1024), j = ix2 p q := ⟨j 0, j 1, eq_ix2 j⟩
  exact PaySpec.k0_pay4_apply (V c main_arg0) (V c main_arg1) (V c main_arg2) (V c main_arg3) p q

/-- An index of the array is in the point's block iff each coordinate is in the block's range on its axis. -/
theorem mem_blk0_8 (t : Fin cfg0.N) (i : S32x1024.Idx) :
    i ∈ ((cfg0.win 8).blk t).view.set ↔ ∀ a : Fin 2, win0_8.index t a * S32x1024.size a ≤ (i a).val ∧ (i a).val < win0_8.index t a * S32x1024.size a + S32x1024.size a := by
  show i ∈ ((View.whole main_v0_0).slice (win0_8.rect t)).set ↔ _
  rw [View.set_slice_whole, Rect.mem_set_unit]
  exact Iff.rfl

/-- The one point's block covers every index. -/
theorem covered0_8 (i : S32x1024.Idx) : ∃ t : Fin cfg0.N, (cfg0.win 8).flush t = true ∧ i ∈ ((cfg0.win 8).blk t).view.set := by
  refine ⟨⟨0, by decide⟩, flush0_8 _, ?_⟩
  rw [mem_blk0_8]
  obtain ⟨-, -, -, -, -, -, -, -, ⟨e0, e1⟩, -⟩ := index_zero0 ⟨0, by decide⟩
  have h0 : (i 0).val < 32 := (i 0).isLt
  have h1 : (i 1).val < 1024 := (i 1).isLt
  intro a
  match a with
  | ⟨0, _⟩ => show win0_8.index _ (0 : Fin 2) * 32 ≤ (i 0).val ∧ (i 0).val < win0_8.index _ (0 : Fin 2) * 32 + 32; omega
  | ⟨1, _⟩ => show win0_8.index _ (1 : Fin 2) * 1024 ≤ (i 1).val ∧ (i 1).val < win0_8.index _ (1 : Fin 2) * 1024 + 1024; omega

/-- The array after the region. -/
theorem final0_8 (c : Dev nD) :
    (dat0 V c).arrAt 8 cfg0.N = fun i : S32x1024.Idx => Cert.Spec.s (V c main_arg0) (V c main_arg1) (V c main_arg2) (V c main_arg3) (i 0) (i 1) :=
  (dat0 V c).arrAt_eq_of_cover 8 _ (fun t _ => flushed0_8_eq V c t) covered0_8

/-! ## The spike's derivative -/

/-- An index of the one point's block is the same index of the array. -/
theorem emb0_9 (t : Fin cfg0.N) (j : S32x1024.Idx) : ((cfg0.win 9).blk t).view.emb j = j := by
  funext a; apply Fin.ext
  obtain ⟨-, -, -, -, -, -, -, -, -, ⟨e0, e1⟩, -⟩ := index_zero0 t
  match a with
  | ⟨0, _⟩ => show win0_9.index t (0 : Fin 2) * 32 + 1 * (j 0).val = (j 0).val; omega
  | ⟨1, _⟩ => show win0_9.index t (1 : Fin 2) * 1024 + 1 * (j 1).val = (j 1).val; omega

/-- What the point writes back is the block of the formula. -/
theorem flushed0_9_eq (c : Dev nD) (t : Fin cfg0.N) :
    (dat0 V c).flushed 9 t = ((cfg0.win 9).blk t).view.read (Elt Ideal)
      (fun i : S32x1024.Idx => Cert.Spec.sg (V c main_arg0) (V c main_arg1) (V c main_arg2) (V c main_arg3) (i 0) (i 1)) := by
  show (cfg0.win 9).cut (grid0.coords t) ((dat0 V c).after 9 t) = _
  rw [after0_9]
  unfold out0_9
  rw [View.canon_unit_zero zeros2]
  simp only [View.ld_unit_zero (S := S32x1024) zeros2, View.ld_unit_zero (S := S1024x1024) zeros2,
    View.ld_unit_zero (S := S1024) zeros1, View.ld_unit_zero (S := S32x1) zeros2]
  rw [iblk0_0, iblk0_1, iblk0_2, iblk0_3]
  funext j
  show k0_pay5 (V c main_arg0) (V c main_arg1) (V c main_arg2) (V c main_arg3) j
    = (fun i : S32x1024.Idx => Cert.Spec.sg (V c main_arg0) (V c main_arg1) (V c main_arg2) (V c main_arg3) (i 0) (i 1)) (((cfg0.win 9).blk t).view.emb j)
  rw [emb0_9]
  obtain ⟨p, q, rfl⟩ : ∃ (p : Fin 32) (q : Fin 1024), j = ix2 p q := ⟨j 0, j 1, eq_ix2 j⟩
  exact PaySpec.k0_pay5_apply (V c main_arg0) (V c main_arg1) (V c main_arg2) (V c main_arg3) p q

/-- An index of the array is in the point's block iff each coordinate is in the block's range on its axis. -/
theorem mem_blk0_9 (t : Fin cfg0.N) (i : S32x1024.Idx) :
    i ∈ ((cfg0.win 9).blk t).view.set ↔ ∀ a : Fin 2, win0_9.index t a * S32x1024.size a ≤ (i a).val ∧ (i a).val < win0_9.index t a * S32x1024.size a + S32x1024.size a := by
  show i ∈ ((View.whole main_v0_1).slice (win0_9.rect t)).set ↔ _
  rw [View.set_slice_whole, Rect.mem_set_unit]
  exact Iff.rfl

/-- The one point's block covers every index. -/
theorem covered0_9 (i : S32x1024.Idx) : ∃ t : Fin cfg0.N, (cfg0.win 9).flush t = true ∧ i ∈ ((cfg0.win 9).blk t).view.set := by
  refine ⟨⟨0, by decide⟩, flush0_9 _, ?_⟩
  rw [mem_blk0_9]
  obtain ⟨-, -, -, -, -, -, -, -, -, ⟨e0, e1⟩, -⟩ := index_zero0 ⟨0, by decide⟩
  have h0 : (i 0).val < 32 := (i 0).isLt
  have h1 : (i 1).val < 1024 := (i 1).isLt
  intro a
  match a with
  | ⟨0, _⟩ => show win0_9.index _ (0 : Fin 2) * 32 ≤ (i 0).val ∧ (i 0).val < win0_9.index _ (0 : Fin 2) * 32 + 32; omega
  | ⟨1, _⟩ => show win0_9.index _ (1 : Fin 2) * 1024 ≤ (i 1).val ∧ (i 1).val < win0_9.index _ (1 : Fin 2) * 1024 + 1024; omega

/-- The array after the region. -/
theorem final0_9 (c : Dev nD) :
    (dat0 V c).arrAt 9 cfg0.N = fun i : S32x1024.Idx => Cert.Spec.sg (V c main_arg0) (V c main_arg1) (V c main_arg2) (V c main_arg3) (i 0) (i 1) :=
  (dat0 V c).arrAt_eq_of_cover 9 _ (fun t _ => flushed0_9_eq V c t) covered0_9

/-! ## The bias eligibility after two steps -/

/-- An index of the one point's block is the same index of the array. -/
theorem emb0_10 (t : Fin cfg0.N) (j : S32x1024.Idx) : ((cfg0.win 10).blk t).view.emb j = j := by
  funext a; apply Fin.ext
  obtain ⟨-, -, -, -, -, -, -, -, -, -, ⟨e0, e1⟩, -⟩ := index_zero0 t
  match a with
  | ⟨0, _⟩ => show win0_10.index t (0 : Fin 2) * 32 + 1 * (j 0).val = (j 0).val; omega
  | ⟨1, _⟩ => show win0_10.index t (1 : Fin 2) * 1024 + 1 * (j 1).val = (j 1).val; omega

/-- What the point writes back is the block of the formula. -/
theorem flushed0_10_eq (c : Dev nD) (t : Fin cfg0.N) :
    (dat0 V c).flushed 10 t = ((cfg0.win 10).blk t).view.read (Elt Ideal)
      (fun i : S32x1024.Idx => Cert.Spec.eb2 (V c main_arg5) (i 0) (i 1)) := by
  show (cfg0.win 10).cut (grid0.coords t) ((dat0 V c).after 10 t) = _
  rw [after0_10]
  unfold out0_10
  rw [View.canon_unit_zero zeros2]
  simp only [View.ld_unit_zero (S := S32x1024) zeros2, View.ld_unit_zero (S := S1024x1024) zeros2,
    View.ld_unit_zero (S := S1024) zeros1, View.ld_unit_zero (S := S32x1) zeros2]
  rw [iblk0_4]
  funext j
  show k0_pay8 (V c main_arg5) j
    = (fun i : S32x1024.Idx => Cert.Spec.eb2 (V c main_arg5) (i 0) (i 1)) (((cfg0.win 10).blk t).view.emb j)
  rw [emb0_10]
  obtain ⟨p, q, rfl⟩ : ∃ (p : Fin 32) (q : Fin 1024), j = ix2 p q := ⟨j 0, j 1, eq_ix2 j⟩
  exact PaySpec.k0_pay8_apply (V c main_arg5) p q

/-- An index of the array is in the point's block iff each coordinate is in the block's range on its axis. -/
theorem mem_blk0_10 (t : Fin cfg0.N) (i : S32x1024.Idx) :
    i ∈ ((cfg0.win 10).blk t).view.set ↔ ∀ a : Fin 2, win0_10.index t a * S32x1024.size a ≤ (i a).val ∧ (i a).val < win0_10.index t a * S32x1024.size a + S32x1024.size a := by
  show i ∈ ((View.whole main_v0_2).slice (win0_10.rect t)).set ↔ _
  rw [View.set_slice_whole, Rect.mem_set_unit]
  exact Iff.rfl

/-- The one point's block covers every index. -/
theorem covered0_10 (i : S32x1024.Idx) : ∃ t : Fin cfg0.N, (cfg0.win 10).flush t = true ∧ i ∈ ((cfg0.win 10).blk t).view.set := by
  refine ⟨⟨0, by decide⟩, flush0_10 _, ?_⟩
  rw [mem_blk0_10]
  obtain ⟨-, -, -, -, -, -, -, -, -, -, ⟨e0, e1⟩, -⟩ := index_zero0 ⟨0, by decide⟩
  have h0 : (i 0).val < 32 := (i 0).isLt
  have h1 : (i 1).val < 1024 := (i 1).isLt
  intro a
  match a with
  | ⟨0, _⟩ => show win0_10.index _ (0 : Fin 2) * 32 ≤ (i 0).val ∧ (i 0).val < win0_10.index _ (0 : Fin 2) * 32 + 32; omega
  | ⟨1, _⟩ => show win0_10.index _ (1 : Fin 2) * 1024 ≤ (i 1).val ∧ (i 1).val < win0_10.index _ (1 : Fin 2) * 1024 + 1024; omega

/-- The array after the region. -/
theorem final0_10 (c : Dev nD) :
    (dat0 V c).arrAt 10 cfg0.N = fun i : S32x1024.Idx => Cert.Spec.eb2 (V c main_arg5) (i 0) (i 1) :=
  (dat0 V c).arrAt_eq_of_cover 10 _ (fun t _ => flushed0_10_eq V c t) covered0_10

/-! ## The bias trace -/

/-- An index of the one point's block is the same index of the array. -/
theorem emb0_11 (t : Fin cfg0.N) (j : S32x1024.Idx) : ((cfg0.win 11).blk t).view.emb j = j := by
  funext a; apply Fin.ext
  obtain ⟨-, -, -, -, -, -, -, -, -, -, -, ⟨e0, e1⟩, -⟩ := index_zero0 t
  match a with
  | ⟨0, _⟩ => show win0_11.index t (0 : Fin 2) * 32 + 1 * (j 0).val = (j 0).val; omega
  | ⟨1, _⟩ => show win0_11.index t (1 : Fin 2) * 1024 + 1 * (j 1).val = (j 1).val; omega

/-- What the point writes back is the block of the formula. -/
theorem flushed0_11_eq (c : Dev nD) (t : Fin cfg0.N) :
    (dat0 V c).flushed 11 t = ((cfg0.win 11).blk t).view.read (Elt Ideal)
      (fun i : S32x1024.Idx => Cert.Spec.rhb2 (V c main_arg0) (V c main_arg1) (V c main_arg2) (V c main_arg3) (V c main_arg5) (V c main_arg7) (i 0) (i 1)) := by
  show (cfg0.win 11).cut (grid0.coords t) ((dat0 V c).after 11 t) = _
  rw [after0_11]
  unfold out0_11
  rw [View.canon_unit_zero zeros2]
  simp only [View.ld_unit_zero (S := S32x1024) zeros2, View.ld_unit_zero (S := S1024x1024) zeros2,
    View.ld_unit_zero (S := S1024) zeros1, View.ld_unit_zero (S := S32x1) zeros2]
  rw [iblk0_0, iblk0_1, iblk0_2, iblk0_3, iblk0_4, iblk0_5]
  funext j
  show k0_pay9 (V c main_arg0) (V c main_arg1) (V c main_arg2) (V c main_arg3) (V c main_arg5) (V c main_arg7) j
    = (fun i : S32x1024.Idx => Cert.Spec.rhb2 (V c main_arg0) (V c main_arg1) (V c main_arg2) (V c main_arg3) (V c main_arg5) (V c main_arg7) (i 0) (i 1)) (((cfg0.win 11).blk t).view.emb j)
  rw [emb0_11]
  obtain ⟨p, q, rfl⟩ : ∃ (p : Fin 32) (q : Fin 1024), j = ix2 p q := ⟨j 0, j 1, eq_ix2 j⟩
  exact PaySpec.k0_pay9_apply (V c main_arg0) (V c main_arg1) (V c main_arg2) (V c main_arg3) (V c main_arg5) (V c main_arg7) p q

/-- An index of the array is in the point's block iff each coordinate is in the block's range on its axis. -/
theorem mem_blk0_11 (t : Fin cfg0.N) (i : S32x1024.Idx) :
    i ∈ ((cfg0.win 11).blk t).view.set ↔ ∀ a : Fin 2, win0_11.index t a * S32x1024.size a ≤ (i a).val ∧ (i a).val < win0_11.index t a * S32x1024.size a + S32x1024.size a := by
  show i ∈ ((View.whole main_v0_3).slice (win0_11.rect t)).set ↔ _
  rw [View.set_slice_whole, Rect.mem_set_unit]
  exact Iff.rfl

/-- The one point's block covers every index. -/
theorem covered0_11 (i : S32x1024.Idx) : ∃ t : Fin cfg0.N, (cfg0.win 11).flush t = true ∧ i ∈ ((cfg0.win 11).blk t).view.set := by
  refine ⟨⟨0, by decide⟩, flush0_11 _, ?_⟩
  rw [mem_blk0_11]
  obtain ⟨-, -, -, -, -, -, -, -, -, -, -, ⟨e0, e1⟩, -⟩ := index_zero0 ⟨0, by decide⟩
  have h0 : (i 0).val < 32 := (i 0).isLt
  have h1 : (i 1).val < 1024 := (i 1).isLt
  intro a
  match a with
  | ⟨0, _⟩ => show win0_11.index _ (0 : Fin 2) * 32 ≤ (i 0).val ∧ (i 0).val < win0_11.index _ (0 : Fin 2) * 32 + 32; omega
  | ⟨1, _⟩ => show win0_11.index _ (1 : Fin 2) * 1024 ≤ (i 1).val ∧ (i 1).val < win0_11.index _ (1 : Fin 2) * 1024 + 1024; omega

/-- The array after the region. -/
theorem final0_11 (c : Dev nD) :
    (dat0 V c).arrAt 11 cfg0.N = fun i : S32x1024.Idx => Cert.Spec.rhb2 (V c main_arg0) (V c main_arg1) (V c main_arg2) (V c main_arg3) (V c main_arg5) (V c main_arg7) (i 0) (i 1) :=
  (dat0 V c).arrAt_eq_of_cover 11 _ (fun t _ => flushed0_11_eq V c t) covered0_11

/-! ## The averaged gradient -/

/-- An index of the one point's block is the same index of the array. -/
theorem emb0_12 (t : Fin cfg0.N) (j : S32x1024.Idx) : ((cfg0.win 12).blk t).view.emb j = j := by
  funext a; apply Fin.ext
  obtain ⟨-, -, -, -, -, -, -, -, -, -, -, -, ⟨e0, e1⟩, -⟩ := index_zero0 t
  match a with
  | ⟨0, _⟩ => show win0_12.index t (0 : Fin 2) * 32 + 1 * (j 0).val = (j 0).val; omega
  | ⟨1, _⟩ => show win0_12.index t (1 : Fin 2) * 1024 + 1 * (j 1).val = (j 1).val; omega

/-- What the point writes back is the block of the formula. -/
theorem flushed0_12_eq (c : Dev nD) (t : Fin cfg0.N) :
    (dat0 V c).flushed 12 t = ((cfg0.win 12).blk t).view.read (Elt Ideal)
      (fun i : S32x1024.Idx => Cert.Spec.gbar2 (V c main_arg0) (V c main_arg1) (V c main_arg2) (V c main_arg3) (V c main_arg8) (V c main_arg9) (i 0) (i 1)) := by
  show (cfg0.win 12).cut (grid0.coords t) ((dat0 V c).after 12 t) = _
  rw [after0_12]
  unfold out0_12
  rw [View.canon_unit_zero zeros2]
  simp only [View.ld_unit_zero (S := S32x1024) zeros2, View.ld_unit_zero (S := S1024x1024) zeros2,
    View.ld_unit_zero (S := S1024) zeros1, View.ld_unit_zero (S := S32x1) zeros2]
  rw [iblk0_0, iblk0_1, iblk0_2, iblk0_3, iblk0_6, iblk0_7]
  funext j
  show k0_pay3 (k0_pay6 (V c main_arg0) (V c main_arg1) (V c main_arg2) (V c main_arg3)) (V c main_arg9) (Scalar.ofBits (F := Ideal) .f32 0x3F666666#32) (V c main_arg8) j
    = (fun i : S32x1024.Idx => Cert.Spec.gbar2 (V c main_arg0) (V c main_arg1) (V c main_arg2) (V c main_arg3) (V c main_arg8) (V c main_arg9) (i 0) (i 1)) (((cfg0.win 12).blk t).view.emb j)
  rw [emb0_12]
  obtain ⟨p, q, rfl⟩ : ∃ (p : Fin 32) (q : Fin 1024), j = ix2 p q := ⟨j 0, j 1, eq_ix2 j⟩
  exact PaySpec.k0_pay3_apply (V c main_arg0) (V c main_arg1) (V c main_arg2) (V c main_arg3) (V c main_arg8) (V c main_arg9) p q

/-- An index of the array is in the point's block iff each coordinate is in the block's range on its axis. -/
theorem mem_blk0_12 (t : Fin cfg0.N) (i : S32x1024.Idx) :
    i ∈ ((cfg0.win 12).blk t).view.set ↔ ∀ a : Fin 2, win0_12.index t a * S32x1024.size a ≤ (i a).val ∧ (i a).val < win0_12.index t a * S32x1024.size a + S32x1024.size a := by
  show i ∈ ((View.whole main_v0_4).slice (win0_12.rect t)).set ↔ _
  rw [View.set_slice_whole, Rect.mem_set_unit]
  exact Iff.rfl

/-- The one point's block covers every index. -/
theorem covered0_12 (i : S32x1024.Idx) : ∃ t : Fin cfg0.N, (cfg0.win 12).flush t = true ∧ i ∈ ((cfg0.win 12).blk t).view.set := by
  refine ⟨⟨0, by decide⟩, flush0_12 _, ?_⟩
  rw [mem_blk0_12]
  obtain ⟨-, -, -, -, -, -, -, -, -, -, -, -, ⟨e0, e1⟩, -⟩ := index_zero0 ⟨0, by decide⟩
  have h0 : (i 0).val < 32 := (i 0).isLt
  have h1 : (i 1).val < 1024 := (i 1).isLt
  intro a
  match a with
  | ⟨0, _⟩ => show win0_12.index _ (0 : Fin 2) * 32 ≤ (i 0).val ∧ (i 0).val < win0_12.index _ (0 : Fin 2) * 32 + 32; omega
  | ⟨1, _⟩ => show win0_12.index _ (1 : Fin 2) * 1024 ≤ (i 1).val ∧ (i 1).val < win0_12.index _ (1 : Fin 2) * 1024 + 1024; omega

/-- The array after the region. -/
theorem final0_12 (c : Dev nD) :
    (dat0 V c).arrAt 12 cfg0.N = fun i : S32x1024.Idx => Cert.Spec.gbar2 (V c main_arg0) (V c main_arg1) (V c main_arg2) (V c main_arg3) (V c main_arg8) (V c main_arg9) (i 0) (i 1) :=
  (dat0 V c).arrAt_eq_of_cover 12 _ (fun t _ => flushed0_12_eq V c t) covered0_12

/-! ## The ratio's denominator -/

/-- An index of the one point's block is the same index of the array. -/
theorem emb0_13 (t : Fin cfg0.N) (j : S32x1.Idx) : ((cfg0.win 13).blk t).view.emb j = j := by
  funext a; apply Fin.ext
  obtain ⟨-, -, -, -, -, -, -, -, -, -, -, -, -, ⟨e0, e1⟩⟩ := index_zero0 t
  match a with
  | ⟨0, _⟩ => show win0_13.index t (0 : Fin 2) * 32 + 1 * (j 0).val = (j 0).val; omega
  | ⟨1, _⟩ => show win0_13.index t (1 : Fin 2) * 1 + 1 * (j 1).val = (j 1).val; omega

/-- What the point writes back is the block of the formula. -/
theorem flushed0_13_eq (c : Dev nD) (t : Fin cfg0.N) :
    (dat0 V c).flushed 13 t = ((cfg0.win 13).blk t).view.read (Elt Ideal)
      (fun i : S32x1.Idx => Cert.Spec.r2 (V c main_arg9) (i 0)) := by
  show (cfg0.win 13).cut (grid0.coords t) ((dat0 V c).after 13 t) = _
  rw [after0_13]
  unfold out0_13
  rw [View.canon_unit_zero zeros2]
  simp only [View.ld_unit_zero (S := S32x1024) zeros2, View.ld_unit_zero (S := S1024x1024) zeros2,
    View.ld_unit_zero (S := S1024) zeros1, View.ld_unit_zero (S := S32x1) zeros2]
  rw [iblk0_7]
  funext j
  show k0_pay2 (V c main_arg9) (Scalar.ofBits (F := Ideal) .f32 0x3F666666#32) j
    = (fun i : S32x1.Idx => Cert.Spec.r2 (V c main_arg9) (i 0)) (((cfg0.win 13).blk t).view.emb j)
  rw [emb0_13]
  obtain ⟨p, z, rfl⟩ : ∃ (p : Fin 32) (z : Fin 1), j = ix2 p z := ⟨j 0, j 1, eq_ix2 j⟩
  obtain rfl : z = 0 := Subsingleton.elim _ _
  exact PaySpec.k0_pay2_apply (V c main_arg9) p

/-- An index of the array is in the point's block iff each coordinate is in the block's range on its axis. -/
theorem mem_blk0_13 (t : Fin cfg0.N) (i : S32x1.Idx) :
    i ∈ ((cfg0.win 13).blk t).view.set ↔ ∀ a : Fin 2, win0_13.index t a * S32x1.size a ≤ (i a).val ∧ (i a).val < win0_13.index t a * S32x1.size a + S32x1.size a := by
  show i ∈ ((View.whole main_v0_5).slice (win0_13.rect t)).set ↔ _
  rw [View.set_slice_whole, Rect.mem_set_unit]
  exact Iff.rfl

/-- The one point's block covers every index. -/
theorem covered0_13 (i : S32x1.Idx) : ∃ t : Fin cfg0.N, (cfg0.win 13).flush t = true ∧ i ∈ ((cfg0.win 13).blk t).view.set := by
  refine ⟨⟨0, by decide⟩, flush0_13 _, ?_⟩
  rw [mem_blk0_13]
  obtain ⟨-, -, -, -, -, -, -, -, -, -, -, -, -, ⟨e0, e1⟩⟩ := index_zero0 ⟨0, by decide⟩
  have h0 : (i 0).val < 32 := (i 0).isLt
  have h1 : (i 1).val < 1 := (i 1).isLt
  intro a
  match a with
  | ⟨0, _⟩ => show win0_13.index _ (0 : Fin 2) * 32 ≤ (i 0).val ∧ (i 0).val < win0_13.index _ (0 : Fin 2) * 32 + 32; omega
  | ⟨1, _⟩ => show win0_13.index _ (1 : Fin 2) * 1 ≤ (i 1).val ∧ (i 1).val < win0_13.index _ (1 : Fin 2) * 1 + 1; omega

/-- The array after the region. -/
theorem final0_13 (c : Dev nD) :
    (dat0 V c).arrAt 13 cfg0.N = fun i : S32x1.Idx => Cert.Spec.r2 (V c main_arg9) (i 0) :=
  (dat0 V c).arrAt_eq_of_cover 13 _ (fun t _ => flushed0_13_eq V c t) covered0_13

end Value0

end Cert.KernelIdeal.Hand

end
-- ==== Proof.LibMidUnitAxis.lean ====
/-
  A shape cast adding or dropping a MIDDLE unit axis, [a, b] <-> [a, 1, b], read at an entry: both arrays list the
  same entries in the same row-major order, so entry (p, u, k) of the one is entry (p, k) of the other.
-/
import Idealize.ShloMosaic.Lib.Pipeline.Value
import Idealize.ShloMosaic.Lib.ValueIdx

namespace Cert.MidUnitAxis

open Idealize.ShloMosaic Idealize.ShloMosaic.ValueIdx

/-- An `[a, b]` array cast to `[a, 1, b]` reads, at `(p, u, k)`, the operand at `(p, k)`. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An `[a, 1, b]` array cast to `[a, b]` reads, at `(p, k)`, the operand at `(p, u, k)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (p : Fin a) (u : Fin 1) (k : Fin b) :
    shapeCast ⟨2, ![a, b]⟩ x h (ix2 p k) = x (ix3 p u k) :=
  shapeCast_apply x h _ _ (by
    have hu : u.val = 0 := by omega
    rw [Shape.rowMajor_val_three, Shape.rowMajor_val_two]
    show (p.val * 1 + u.val) * b + k.val = p.val * b + k.val
    rw [hu, Nat.mul_one, Nat.add_zero])

end Cert.MidUnitAxis
-- ==== Proof.KI.Values.lean ====
/-
  The contents of the buffers between and after the two kernel regions, as formulas of the launch arrays.

  After the first region its six results hold the specification's entrywise formulas of the arguments, and nothing later
  writes five of them. The host then views the input and the spike's derivative `[32, 1024]` as `[32, 1, 1024]`: the
  middle unit axis moves no entry. The second region's results, given as formulas of its entry contents, are therefore
  the weight eligibility after two steps and the weight trace of the launch arrays.
-/
import proofs.«164400_j30940944400973_2_alg».proof.Proof.KI.Run
import proofs.«164400_j30940944400973_2_alg».proof.Proof.KI.Value0
import proofs.«164400_j30940944400973_2_alg».proof.Proof.LibMidUnitAxis
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.MidUnitAxis

section Values
variable (m : (ℓ : Loc nD τ sig) → Buf (Elt Ideal) ℓ) (ρ : Dev nD → PrngReg)

/-! ## The second region's entry contents at their literal types -/

/-- The input, `[32, 1, 1024]`. -/
abbrev entryX (c : Dev nD) : S32x1x1024.Idx → EReal := V2 m ρ c main_v1
/-- The spike's derivative, `[32, 1, 1024]`. -/
abbrev entrySg (c : Dev nD) : S32x1x1024.Idx → EReal := V2 m ρ c main_v2
/-- The weight eligibility. -/
abbrev entryEW (c : Dev nD) : S32x1024x1024.Idx → EReal := V2 m ρ c main_arg4
/-- The weight trace. -/
abbrev entryRhW (c : Dev nD) : S32x1024x1024.Idx → EReal := V2 m ρ c main_arg6

/-! ## After the first region -/

/-- The first region leaves its input as launched. -/
theorem W1_arg0 (c : Dev nD) : W1 m ρ c (Proc.devRef .tc main_arg0) = (m ((c : Thread nD τ).loc main_arg0)) :=
  (W1_arr m ρ c 0).trans (((dat0 (V0 m ρ) c).arrAt_in 0 rfl _).trans (A_eq0 (V0 m ρ) c 0))

/-- The first region leaves the spike's derivative in its second result. -/
theorem W1_v0_1 (c : Dev nD) : W1 m ρ c (Proc.devRef .tc main_v0_1)
    = fun i : S32x1024.Idx => Cert.Spec.sg (m ((c : Thread nD τ).loc main_arg0)) (m ((c : Thread nD τ).loc main_arg1)) (m ((c : Thread nD τ).loc main_arg2)) (m ((c : Thread nD τ).loc main_arg3)) (i 0) (i 1) :=
  (W1_arr m ρ c 9).trans (final0_9 (V0 m ρ) c)

/-! ## The second region's entry contents -/

/-- The input with a middle unit axis. -/
theorem V2_v1 (c : Dev nD) : (V2 m ρ c main_v1 : S32x1x1024.Idx → EReal)
    = shapeCast S32x1x1024 (W1 m ρ c (Proc.devRef .tc main_arg0) : S32x1024.Idx → EReal) shapeCasts_S32x1024_S32x1x1024 := by
  show StableHlo.after hostOps1 (W1 m ρ c) (Proc.devRef .tc main_v1) = _
  after_results
  rfl

/-- The spike's derivative with a middle unit axis. -/
theorem V2_v2 (c : Dev nD) : (V2 m ρ c main_v2 : S32x1x1024.Idx → EReal)
    = shapeCast S32x1x1024 (W1 m ρ c (Proc.devRef .tc main_v0_1) : S32x1024.Idx → EReal) shapeCasts_S32x1024_S32x1x1024 := by
  show StableHlo.after hostOps1 (W1 m ρ c) (Proc.devRef .tc main_v2) = _
  after_results
  rfl

/-- The reshaped input at an index. -/
theorem V2_v1_apply (c : Dev nD) (p : Fin 32) (k : Fin 1024) :
    (V2 m ρ c main_v1 : S32x1x1024.Idx → EReal) (ix3 p (0 : Fin 1) k) = (m ((c : Thread nD τ).loc main_arg0)) (ix2 p k) :=
  (congrFun (V2_v1 m ρ c) _).trans ((shapeCast_ab_a1b_apply _ _ p 0 k).trans (congrFun (W1_arg0 m ρ c) _))

/-- The reshaped derivative at an index. -/
theorem V2_v2_apply (c : Dev nD) (p : Fin 32) (q : Fin 1024) :
    (V2 m ρ c main_v2 : S32x1x1024.Idx → EReal) (ix3 p (0 : Fin 1) q)
      = Cert.Spec.sg (m ((c : Thread nD τ).loc main_arg0)) (m ((c : Thread nD τ).loc main_arg1)) (m ((c : Thread nD τ).loc main_arg2)) (m ((c : Thread nD τ).loc main_arg3)) p q :=
  (congrFun (V2_v2 m ρ c) _).trans ((shapeCast_ab_a1b_apply _ _ p 0 q).trans (congrFun (W1_v0_1 m ρ c) (ix2 p q)))

/-- The weight eligibility enters the second region as launched. -/
theorem V2_arg4 (c : Dev nD) : V2 m ρ c main_arg4 = (m ((c : Thread nD τ).loc main_arg4)) :=
  (W2_of_not_written m ρ c main_arg4 (by decide) (by decide)).trans (W1_of_ne m ρ c main_arg4 (by decide))

/-- The weight trace enters the second region as launched. -/
theorem V2_arg6 (c : Dev nD) : V2 m ρ c main_arg6 = (m ((c : Thread nD τ).loc main_arg6)) :=
  (W2_of_not_written m ρ c main_arg6 (by decide) (by decide)).trans (W1_of_ne m ρ c main_arg6 (by decide))

/-- The same four facts over the entry contents at their literal types. -/
theorem entryX_apply (c : Dev nD) (p : Fin 32) (k : Fin 1024) :
    entryX m ρ c (ix3 p (0 : Fin 1) k) = (m ((c : Thread nD τ).loc main_arg0)) (ix2 p k) := V2_v1_apply m ρ c p k
theorem entrySg_apply (c : Dev nD) (p : Fin 32) (q : Fin 1024) :
    entrySg m ρ c (ix3 p (0 : Fin 1) q) = Cert.Spec.sg (m ((c : Thread nD τ).loc main_arg0)) (m ((c : Thread nD τ).loc main_arg1)) (m ((c : Thread nD τ).loc main_arg2)) (m ((c : Thread nD τ).loc main_arg3)) p q := V2_v2_apply m ρ c p q
theorem entryEW_eq (c : Dev nD) : entryEW m ρ c = (m ((c : Thread nD τ).loc main_arg4)) := V2_arg4 m ρ c
theorem entryRhW_eq (c : Dev nD) : entryRhW m ρ c = (m ((c : Thread nD τ).loc main_arg6)) := V2_arg6 m ρ c

/-! ## The first region's results at the end -/

/-- The spike. -/
theorem W3_v0_0 (c : Dev nD) : W3 m ρ c (Proc.devRef .tc main_v0_0)
    = fun i : S32x1024.Idx => Cert.Spec.s (m ((c : Thread nD τ).loc main_arg0)) (m ((c : Thread nD τ).loc main_arg1)) (m ((c : Thread nD τ).loc main_arg2)) (m ((c : Thread nD τ).loc main_arg3)) (i 0) (i 1) :=
  calc W3 m ρ c (Proc.devRef .tc main_v0_0)
    _ = W2 m ρ c (Proc.devRef .tc main_v0_0) := W3_of_ne m ρ c main_v0_0 (by decide)
    _ = W1 m ρ c (Proc.devRef .tc main_v0_0) := W2_of_not_written m ρ c main_v0_0 (by decide) (by decide)
    _ = (dat0 (V0 m ρ) c).arrAt 8 cfg0.N := W1_arr m ρ c 8
    _ = _ := final0_8 (V0 m ρ) c

/-- The bias eligibility after two steps. -/
theorem W3_v0_2 (c : Dev nD) : W3 m ρ c (Proc.devRef .tc main_v0_2)
    = fun i : S32x1024.Idx => Cert.Spec.eb2 (m ((c : Thread nD τ).loc main_arg5)) (i 0) (i 1) :=
  calc W3 m ρ c (Proc.devRef .tc main_v0_2)
    _ = W2 m ρ c (Proc.devRef .tc main_v0_2) := W3_of_ne m ρ c main_v0_2 (by decide)
    _ = W1 m ρ c (Proc.devRef .tc main_v0_2) := W2_of_not_written m ρ c main_v0_2 (by decide) (by decide)
    _ = (dat0 (V0 m ρ) c).arrAt 10 cfg0.N := W1_arr m ρ c 10
    _ = _ := final0_10 (V0 m ρ) c

/-- The bias trace. -/
theorem W3_v0_3 (c : Dev nD) : W3 m ρ c (Proc.devRef .tc main_v0_3)
    = fun i : S32x1024.Idx => Cert.Spec.rhb2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (i 0) (i 1) :=
  calc W3 m ρ c (Proc.devRef .tc main_v0_3)
    _ = W2 m ρ c (Proc.devRef .tc main_v0_3) := W3_of_ne m ρ c main_v0_3 (by decide)
    _ = W1 m ρ c (Proc.devRef .tc main_v0_3) := W2_of_not_written m ρ c main_v0_3 (by decide) (by decide)
    _ = (dat0 (V0 m ρ) c).arrAt 11 cfg0.N := W1_arr m ρ c 11
    _ = _ := final0_11 (V0 m ρ) c

/-- The averaged gradient. -/
theorem W3_v0_4 (c : Dev nD) : W3 m ρ c (Proc.devRef .tc main_v0_4)
    = fun i : S32x1024.Idx => Cert.Spec.gbar2 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (i 0) (i 1) :=
  calc W3 m ρ c (Proc.devRef .tc main_v0_4)
    _ = W2 m ρ c (Proc.devRef .tc main_v0_4) := W3_of_ne m ρ c main_v0_4 (by decide)
    _ = W1 m ρ c (Proc.devRef .tc main_v0_4) := W2_of_not_written m ρ c main_v0_4 (by decide) (by decide)
    _ = (dat0 (V0 m ρ) c).arrAt 12 cfg0.N := W1_arr m ρ c 12
    _ = _ := final0_12 (V0 m ρ) c

/-- The ratio's denominator. -/
theorem W3_v0_5 (c : Dev nD) : W3 m ρ c (Proc.devRef .tc main_v0_5)
    = fun i : S32x1.Idx => Cert.Spec.r2 (m ((c : Thread nD τ).loc main_arg9)) (i 0) :=
  calc W3 m ρ c (Proc.devRef .tc main_v0_5)
    _ = W2 m ρ c (Proc.devRef .tc main_v0_5) := W3_of_ne m ρ c main_v0_5 (by decide)
    _ = W1 m ρ c (Proc.devRef .tc main_v0_5) := W2_of_not_written m ρ c main_v0_5 (by decide) (by decide)
    _ = (dat0 (V0 m ρ) c).arrAt 13 cfg0.N := W1_arr m ρ c 13
    _ = _ := final0_13 (V0 m ρ) c

/-! ## The second region's results at the end, from their formulas of the region's entry contents -/

/-- The weight eligibility after two steps. -/
theorem W3_v3_0_of (c : Dev nD)
    (h4 : (dat1 (V2 m ρ) c).arrAt 4 cfg1.N = fun i : S32x1024x1024.Idx =>
      Cert.Spec.beta * (Cert.Spec.beta * entryEW m ρ c i
          + entryX m ρ c (ix3 (i 0) (0 : Fin 1) (i 1)))
        + entryX m ρ c (ix3 (i 0) (0 : Fin 1) (i 1))) :
    W3 m ρ c (Proc.devRef .tc main_v3_0)
      = fun i : S32x1024x1024.Idx => Cert.Spec.ew2 (m ((c : Thread nD τ).loc main_arg0)) (m ((c : Thread nD τ).loc main_arg4)) (i 0) (i 1) (i 2) := by
  refine (W3_arr m ρ c 4).trans (h4.trans (funext fun i => ?_))
  obtain ⟨p, k, q, rfl⟩ : ∃ (p : Fin 32) (k q : Fin 1024), i = ix3 p k q := ⟨i 0, i 1, i 2, eq_ix3 i⟩
  show Cert.Spec.beta * (Cert.Spec.beta * entryEW m ρ c (ix3 p k q)
        + entryX m ρ c (ix3 p (0 : Fin 1) k))
      + entryX m ρ c (ix3 p (0 : Fin 1) k)
    = Cert.Spec.ew2 (m ((c : Thread nD τ).loc main_arg0)) (m ((c : Thread nD τ).loc main_arg4)) p k q
  rw [entryX_apply, entryEW_eq]
  rfl

/-- The weight trace. -/
theorem W3_v3_1_of (c : Dev nD)
    (h5 : (dat1 (V2 m ρ) c).arrAt 5 cfg1.N = fun i : S32x1024x1024.Idx =>
      (Cert.Spec.beta * entrySg m ρ c (ix3 (i 0) (0 : Fin 1) (i 2))) * entryRhW m ρ c i
        + ((Cert.Spec.beta * entrySg m ρ c (ix3 (i 0) (0 : Fin 1) (i 2)))
              * (Cert.Spec.beta * entryEW m ρ c i + entryX m ρ c (ix3 (i 0) (0 : Fin 1) (i 1)))
            + entryX m ρ c (ix3 (i 0) (0 : Fin 1) (i 1)) * entrySg m ρ c (ix3 (i 0) (0 : Fin 1) (i 2)))) :
    W3 m ρ c (Proc.devRef .tc main_v3_1)
      = fun i : S32x1024x1024.Idx => Cert.Spec.rhw2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (i 0) (i 1) (i 2) := by
  refine (W3_arr m ρ c 5).trans (h5.trans (funext fun i => ?_))
  obtain ⟨p, k, q, rfl⟩ : ∃ (p : Fin 32) (k q : Fin 1024), i = ix3 p k q := ⟨i 0, i 1, i 2, eq_ix3 i⟩
  show (Cert.Spec.beta * entrySg m ρ c (ix3 p (0 : Fin 1) q)) * entryRhW m ρ c (ix3 p k q)
      + ((Cert.Spec.beta * entrySg m ρ c (ix3 p (0 : Fin 1) q))
            * (Cert.Spec.beta * entryEW m ρ c (ix3 p k q) + entryX m ρ c (ix3 p (0 : Fin 1) k))
          + entryX m ρ c (ix3 p (0 : Fin 1) k) * entrySg m ρ c (ix3 p (0 : Fin 1) q))
    = Cert.Spec.rhw2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) p k q
  rw [entrySg_apply, entryX_apply, entryEW_eq, entryRhW_eq]
  rfl

end Values

end Cert.KernelIdeal.Hand

end
-- ==== Proof.KI.Value1.lean ====
/-
  The second kernel region, read as values.

  The region visits 32 × 2 points: point t works on batch row t / 2 and on the half t % 2 of the output features.
  At an even point the body copies the row of x, stood up as a column, into a scratch column and computes from it;
  at the odd point after it the body reads the column the even point left.  So at every point the column in use is
  row t / 2 of x, and what the point leaves in the two result blocks is the two-step weight eligibility and the
  weight trace of the specification at batch row t / 2, every input feature, and the output features of its half.
  Every point writes its two blocks back, and the blocks tile the two result arrays.
-/
import proofs.«164400_j30940944400973_2_alg».proof.Proof.KI.Region1
import proofs.«164400_j30940944400973_2_alg».proof.Proof.PayloadSpec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! ## What the body's stores leave, as the payloads of the blocks

In each case every buffer is written by one store of its whole block, so what is read back is that store's payload;
the loads read the whole input blocks, and in the first half the scratch is loaded after it was stored. -/

theorem hz3 : (![0, 0, 0] : Fin 3 → Nat) = fun _ => 0 := funext fun a => by fin_cases a <;> rfl
theorem hz2 : (![0, 0] : Fin 2 → Nat) = fun _ => 0 := funext fun a => by fin_cases a <;> rfl

section Pieces
variable {F : FTy → Type} [FloatOps F]
variable (c : Dev nD) (i : grid1.Coords) (arg2 : Memref sig .tc .vmem S1x1x1024 .f32) (harg2 : arg2.IsWhole) (arg3 : Memref sig .tc .vmem S1x1x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1024x1 .f32) (harg8 : arg8.IsWhole)

/-- The first half leaves the row of x, as a column, in the scratch. -/
theorem sout1_A_eq (hc0 : cond1_0 i) (x0 : Vec F S1x1x1024 .f32) (x1 : Vec F S1x1x512 .f32) (x2 : Vec F S1x1024x512 .f32) (x3 : Vec F S1x1024x512 .f32) :
    sout1_A c i arg2 harg2 arg3 harg3 arg4 harg4 arg5 harg5 arg6 harg6 arg7 harg7 arg8 harg8 hc0 x0 x1 x2 x3 = k1_pay1 x0 := by
  unfold sout1_A
  rw [View.read_writes_eq_canon _ _ _ (scover1_A c i arg2 harg2 arg3 harg3 arg4 harg4 arg5 harg5 arg6 harg6 arg7 harg7 arg8 harg8 hc0 x0 x1 x2 x3)]
  unfold kernelRun1_A
  dsimp only
  sl_unfold_words
  rw [View.canon_unit_zero hz2]
  simp only [View.readAt_eq_ld, harg2.read_unread, View.ld_unit_zero (S := S1x1x1024) hz3]

/-- The first half's first result block, computed from the column it has just stored. -/
theorem out1_A_4_eq (hc0 : cond1_0 i) (x0 : Vec F S1x1x1024 .f32) (x1 : Vec F S1x1x512 .f32) (x2 : Vec F S1x1024x512 .f32) (x3 : Vec F S1x1024x512 .f32) :
    out1_A_4 c i arg2 harg2 arg3 harg3 arg4 harg4 arg5 harg5 arg6 harg6 arg7 harg7 arg8 harg8 hc0 x0 x1 x2 x3 = k1_pay4 x2 (k1_pay1 x0) := by
  unfold out1_A_4
  rw [View.read_writes_eq_canon _ _ _ (cover1_A_4 c i arg2 harg2 arg3 harg3 arg4 harg4 arg5 harg5 arg6 harg6 arg7 harg7 arg8 harg8 hc0 x0 x1 x2 x3)]
  unfold kernelRun1_A
  dsimp only
  sl_unfold_words
  rw [View.canon_unit_zero hz3, View.readCov_unit_zero (S := S1024x1) _ hz2]
  simp only [View.readAt_eq_ld, harg2.read_unread, harg4.read_unread, View.ld_unit_zero (S := S1x1x1024) hz3,
    View.ld_unit_zero (S := S1x1024x512) hz3]

/-- The first half's second result block. -/
theorem out1_A_5_eq (hc0 : cond1_0 i) (x0 : Vec F S1x1x1024 .f32) (x1 : Vec F S1x1x512 .f32) (x2 : Vec F S1x1024x512 .f32) (x3 : Vec F S1x1024x512 .f32) :
    out1_A_5 c i arg2 harg2 arg3 harg3 arg4 harg4 arg5 harg5 arg6 harg6 arg7 harg7 arg8 harg8 hc0 x0 x1 x2 x3 = k1_pay5 x1 x2 x3 (k1_pay1 x0) := by
  unfold out1_A_5
  rw [View.read_writes_eq_canon _ _ _ (cover1_A_5 c i arg2 harg2 arg3 harg3 arg4 harg4 arg5 harg5 arg6 harg6 arg7 harg7 arg8 harg8 hc0 x0 x1 x2 x3)]
  unfold kernelRun1_A
  dsimp only
  sl_unfold_words
  rw [View.canon_unit_zero hz3, View.readCov_unit_zero (S := S1024x1) _ hz2]
  simp only [View.readAt_eq_ld, harg2.read_unread, harg3.read_unread, harg4.read_unread, harg5.read_unread,
    View.ld_unit_zero (S := S1x1x1024) hz3, View.ld_unit_zero (S := S1x1x512) hz3,
    View.ld_unit_zero (S := S1x1024x512) hz3]

/-- The second half's first result block, computed from the column it finds in the scratch. -/
theorem out1_B_4_eq (hc0 : ¬cond1_0 i) (x0 : Vec F S1x1x1024 .f32) (x1 : Vec F S1x1x512 .f32) (x2 : Vec F S1x1024x512 .f32) (x3 : Vec F S1x1024x512 .f32) (xs0 : Vec F S1024x1 .f32) :
    out1_B_4 c i arg2 harg2 arg3 harg3 arg4 harg4 arg5 harg5 arg6 harg6 arg7 harg7 arg8 harg8 hc0 x0 x1 x2 x3 xs0 = k1_pay4 x2 xs0 := by
  unfold out1_B_4
  rw [View.read_writes_eq_canon _ _ _ (cover1_B_4 c i arg2 harg2 arg3 harg3 arg4 harg4 arg5 harg5 arg6 harg6 arg7 harg7 arg8 harg8 hc0 x0 x1 x2 x3 xs0)]
  unfold kernelRun1_B
  dsimp only
  rw [View.canon_unit_zero hz3]
  simp only [View.readAt_eq_ld, harg4.read_unread, harg8.read_unread, View.ld_unit_zero (S := S1024x1) hz2,
    View.ld_unit_zero (S := S1x1024x512) hz3]

/-- The second half's second result block. -/
theorem out1_B_5_eq (hc0 : ¬cond1_0 i) (x0 : Vec F S1x1x1024 .f32) (x1 : Vec F S1x1x512 .f32) (x2 : Vec F S1x1024x512 .f32) (x3 : Vec F S1x1024x512 .f32) (xs0 : Vec F S1024x1 .f32) :
    out1_B_5 c i arg2 harg2 arg3 harg3 arg4 harg4 arg5 harg5 arg6 harg6 arg7 harg7 arg8 harg8 hc0 x0 x1 x2 x3 xs0 = k1_pay5 x1 x2 x3 xs0 := by
  unfold out1_B_5
  rw [View.read_writes_eq_canon _ _ _ (cover1_B_5 c i arg2 harg2 arg3 harg3 arg4 harg4 arg5 harg5 arg6 harg6 arg7 harg7 arg8 harg8 hc0 x0 x1 x2 x3 xs0)]
  unfold kernelRun1_B
  dsimp only
  rw [View.canon_unit_zero hz3]
  simp only [View.readAt_eq_ld, harg3.read_unread, harg4.read_unread, harg5.read_unread, harg8.read_unread,
    View.ld_unit_zero (S := S1024x1) hz2, View.ld_unit_zero (S := S1x1x512) hz3,
    View.ld_unit_zero (S := S1x1024x512) hz3]

end Pieces

/-! ## The blocks the windows read

Point t reads window 0 at block (t / 2, 0, 0) and the other windows at block (t / 2, 0, t % 2); an entry of a block
is the array's entry at block index × block size + the coordinate inside the block, axis by axis. -/

section Values
variable (V : (c : Dev nD) → (b : Ref sig .tc) → Buf (Elt Ideal) ((c : Thread nD τ).loc b))

/-- The region's four input arrays as it finds them: the rows of x and of the spike's derivative (each with a unit
    middle axis), the weight eligibility and the weight trace. -/
abbrev inX (c : Dev nD) : S32x1x1024.Idx → EReal := V c main_v1
abbrev inSg (c : Dev nD) : S32x1x1024.Idx → EReal := V c main_v2
abbrev inEW (c : Dev nD) : S32x1024x1024.Idx → EReal := V c main_arg4
abbrev inRhW (c : Dev nD) : S32x1024x1024.Idx → EReal := V c main_arg6

/-- The block indices of the six windows at a point, decided over the grid. -/
theorem idx_facts1 : ∀ t : Fin cfg1.N,
    win1_0.index t (0 : Fin 3) = t.val / 2 ∧ win1_0.index t (1 : Fin 3) = 0 ∧ win1_0.index t (2 : Fin 3) = 0
    ∧ win1_1.index t (0 : Fin 3) = t.val / 2 ∧ win1_1.index t (1 : Fin 3) = 0 ∧ win1_1.index t (2 : Fin 3) = t.val % 2
    ∧ win1_2.index t (0 : Fin 3) = t.val / 2 ∧ win1_2.index t (1 : Fin 3) = 0 ∧ win1_2.index t (2 : Fin 3) = t.val % 2
    ∧ win1_3.index t (0 : Fin 3) = t.val / 2 ∧ win1_3.index t (1 : Fin 3) = 0 ∧ win1_3.index t (2 : Fin 3) = t.val % 2
    ∧ win1_4.index t (0 : Fin 3) = t.val / 2 ∧ win1_4.index t (1 : Fin 3) = 0 ∧ win1_4.index t (2 : Fin 3) = t.val % 2
    ∧ win1_5.index t (0 : Fin 3) = t.val / 2 ∧ win1_5.index t (1 : Fin 3) = 0 ∧ win1_5.index t (2 : Fin 3) = t.val % 2 :=
  (by decide +kernel : ∀ t : Fin grid1.N, _)

/-- The row of x the point reads: batch row t / 2. -/
theorem iblk1_0_at (c : Dev nD) (t : Fin cfg1.N) (b : Fin 32) (hb : b.val = t.val / 2) (k : Fin 1024) :
    (iblk1 V c 0 t : Vec Ideal S1x1x1024 .f32) (ix3 (0 : Fin 1) (0 : Fin 1) k)
      = inX V c (ix3 b (0 : Fin 1) k) := by
  unfold iblk1
  rw [View.read_apply]
  show inX V c (((cfg1.win 0).blk t).view.emb (ix3 (0 : Fin 1) (0 : Fin 1) k)) = _
  obtain ⟨e0, e1, e2, -⟩ := idx_facts1 t
  refine congrArg (inX V c) (funext fun a => Fin.ext ?_)
  match a with
  | ⟨0, _⟩ => show win1_0.index t (0 : Fin 3) * 1 + 1 * 0 = b.val; omega
  | ⟨1, _⟩ => show win1_0.index t (1 : Fin 3) * 1 + 1 * 0 = 0; omega
  | ⟨2, _⟩ => show win1_0.index t (2 : Fin 3) * 1024 + 1 * k.val = k.val; omega

/-- The half row of the spike's derivative the point reads. -/
theorem iblk1_1_at (c : Dev nD) (t : Fin cfg1.N) (b : Fin 32) (hb : b.val = t.val / 2) (j : Fin 512) (o : Fin 1024)
    (ho : o.val = t.val % 2 * 512 + j.val) :
    (iblk1 V c 1 t : Vec Ideal S1x1x512 .f32) (ix3 (0 : Fin 1) (0 : Fin 1) j)
      = inSg V c (ix3 b (0 : Fin 1) o) := by
  unfold iblk1
  rw [View.read_apply]
  show inSg V c (((cfg1.win 1).blk t).view.emb (ix3 (0 : Fin 1) (0 : Fin 1) j)) = _
  obtain ⟨-, -, -, e0, e1, e2, -⟩ := idx_facts1 t
  refine congrArg (inSg V c) (funext fun a => Fin.ext ?_)
  match a with
  | ⟨0, _⟩ => show win1_1.index t (0 : Fin 3) * 1 + 1 * 0 = b.val; omega
  | ⟨1, _⟩ => show win1_1.index t (1 : Fin 3) * 1 + 1 * 0 = 0; omega
  | ⟨2, _⟩ => show win1_1.index t (2 : Fin 3) * 512 + 1 * j.val = o.val; omega

/-- The block of the weight eligibility the point reads. -/
theorem iblk1_2_at (c : Dev nD) (t : Fin cfg1.N) (b : Fin 32) (hb : b.val = t.val / 2) (k : Fin 1024) (j : Fin 512)
    (o : Fin 1024) (ho : o.val = t.val % 2 * 512 + j.val) :
    (iblk1 V c 2 t : Vec Ideal S1x1024x512 .f32) (ix3 (0 : Fin 1) k j)
      = inEW V c (ix3 b k o) := by
  unfold iblk1
  rw [View.read_apply]
  show inEW V c (((cfg1.win 2).blk t).view.emb (ix3 (0 : Fin 1) k j)) = _
  obtain ⟨-, -, -, -, -, -, e0, e1, e2, -⟩ := idx_facts1 t
  refine congrArg (inEW V c) (funext fun a => Fin.ext ?_)
  match a with
  | ⟨0, _⟩ => show win1_2.index t (0 : Fin 3) * 1 + 1 * 0 = b.val; omega
  | ⟨1, _⟩ => show win1_2.index t (1 : Fin 3) * 1024 + 1 * k.val = k.val; omega
  | ⟨2, _⟩ => show win1_2.index t (2 : Fin 3) * 512 + 1 * j.val = o.val; omega

/-- The block of the weight trace the point reads. -/
theorem iblk1_3_at (c : Dev nD) (t : Fin cfg1.N) (b : Fin 32) (hb : b.val = t.val / 2) (k : Fin 1024) (j : Fin 512)
    (o : Fin 1024) (ho : o.val = t.val % 2 * 512 + j.val) :
    (iblk1 V c 3 t : Vec Ideal S1x1024x512 .f32) (ix3 (0 : Fin 1) k j)
      = inRhW V c (ix3 b k o) := by
  unfold iblk1
  rw [View.read_apply]
  show inRhW V c (((cfg1.win 3).blk t).view.emb (ix3 (0 : Fin 1) k j)) = _
  obtain ⟨-, -, -, -, -, -, -, -, -, e0, e1, e2, -⟩ := idx_facts1 t
  refine congrArg (inRhW V c) (funext fun a => Fin.ext ?_)
  match a with
  | ⟨0, _⟩ => show win1_3.index t (0 : Fin 3) * 1 + 1 * 0 = b.val; omega
  | ⟨1, _⟩ => show win1_3.index t (1 : Fin 3) * 1024 + 1 * k.val = k.val; omega
  | ⟨2, _⟩ => show win1_3.index t (2 : Fin 3) * 512 + 1 * j.val = o.val; omega

/-! ## The scratch between points -/

/-- After an even point the scratch column is the row of x the point read. -/
theorem scratch_even (c : Dev nD) (t : Fin cfg1.N) (h0 : t.val % 2 = 0) (b : Fin 32) (hb : b.val = t.val / 2)
    (k : Fin 1024) :
    ((outsAt1 V c t.val t.isLt).2.2 : Vec Ideal S1024x1 .f32) (ix2 k (0 : Fin 1))
      = inX V c (ix3 b (0 : Fin 1) k) := by
  rw [outsAt1_A V c t h0]
  dsimp only
  exact (congrFun (sout1_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t)) (ix2 k (0 : Fin 1))).trans
    ((PaySpec.k1_pay1_apply (iblk1 V c 0 t) k).trans (iblk1_0_at V c t b hb k))

/-- After any point the scratch column is batch row t / 2 of x: an odd point hands on what the even point before it
    left, and the two share the batch row. -/
theorem scratch_at (c : Dev nD) (t : Fin cfg1.N) (b : Fin 32) (hb : b.val = t.val / 2) (k : Fin 1024) :
    ((outsAt1 V c t.val t.isLt).2.2 : Vec Ideal S1024x1 .f32) (ix2 k (0 : Fin 1))
      = inX V c (ix3 b (0 : Fin 1) k) := by
  by_cases h0 : t.val % 2 = 0
  · exact scratch_even V c t h0 b hb k
  · rw [outsAt1_B V c t h0]
    dsimp only
    exact scratch_even V c ⟨t.val - 1, Nat.lt_of_le_of_lt (Nat.sub_le _ _) t.isLt⟩ (by dsimp only; omega) b
      (by dsimp only; omega) k

/-! ## What a point leaves in the two result blocks -/

/-- The first result's payload at an entry, from the entries of its operands. -/
theorem pay4_of (ew : Vec Ideal S1x1024x512 .f32) (col : Vec Ideal S1024x1 .f32) (k : Fin 1024) (j : Fin 512)
    (E X : EReal) (hE : ew (ix3 (0 : Fin 1) k j) = E) (hX : col (ix2 k (0 : Fin 1)) = X) :
    k1_pay4 ew col (ix3 (0 : Fin 1) k j) = Cert.Spec.beta * (Cert.Spec.beta * E + X) + X := by
  rw [PaySpec.k1_pay4_apply, hE, hX]

/-- The second result's payload at an entry, from the entries of its operands. -/
theorem pay5_of (sgb : Vec Ideal S1x1x512 .f32) (ew rhw : Vec Ideal S1x1024x512 .f32) (col : Vec Ideal S1024x1 .f32)
    (k : Fin 1024) (j : Fin 512) (S E R X : EReal) (hS : sgb (ix3 (0 : Fin 1) (0 : Fin 1) j) = S)
    (hE : ew (ix3 (0 : Fin 1) k j) = E) (hR : rhw (ix3 (0 : Fin 1) k j) = R) (hX : col (ix2 k (0 : Fin 1)) = X) :
    k1_pay5 sgb ew rhw col (ix3 (0 : Fin 1) k j)
      = (Cert.Spec.beta * S) * R + ((Cert.Spec.beta * S) * (Cert.Spec.beta * E + X) + X * S) := by
  rw [PaySpec.k1_pay5_apply, hS, hE, hR, hX]

/-- The first result block after point t: the two-step weight eligibility at batch row t / 2, input feature k and
    output feature (t % 2) · 512 + j. -/
theorem after4_at (c : Dev nD) (t : Fin cfg1.N) (b : Fin 32) (hb : b.val = t.val / 2) (k : Fin 1024) (j : Fin 512)
    (o : Fin 1024) (ho : o.val = t.val % 2 * 512 + j.val) :
    ((outsAt1 V c t.val t.isLt).1 : Vec Ideal S1x1024x512 .f32) (ix3 (0 : Fin 1) k j)
      = Cert.Spec.beta * (Cert.Spec.beta * inEW V c (ix3 b k o)
            + inX V c (ix3 b (0 : Fin 1) k))
          + inX V c (ix3 b (0 : Fin 1) k) := by
  by_cases h0 : t.val % 2 = 0
  · rw [outsAt1_A V c t h0]
    dsimp only
    exact (congrFun (out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t)) (ix3 (0 : Fin 1) k j)).trans
      (pay4_of (iblk1 V c 2 t) (k1_pay1 (iblk1 V c 0 t)) k j _ _ (iblk1_2_at V c t b hb k j o ho)
        ((PaySpec.k1_pay1_apply (iblk1 V c 0 t) k).trans (iblk1_0_at V c t b hb k)))
  · rw [outsAt1_B V c t h0]
    dsimp only
    exact (congrFun (out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (iblk1 V c 0 t) (iblk1 V c 1 t) (iblk1 V c 2 t) (iblk1 V c 3 t)
        (outsAt1 V c (t.val - 1) (Nat.lt_of_le_of_lt (Nat.sub_le _ _) t.isLt)).2.2) (ix3 (0 : Fin 1) k j)).trans
      (pay4_of (iblk1 V c 2 t) (outsAt1 V c (t.val - 1) (Nat.lt_of_le_of_lt (Nat.sub_le _ _) t.isLt)).2.2 k j _ _
        (iblk1_2_at V c t b hb k j o ho)
        (scratch_at V c ⟨t.val - 1, Nat.lt_of_le_of_lt (Nat.sub_le _ _) t.isLt⟩ b (by dsimp only; omega) k))

/-- The second result block after point t: the weight trace at the same entry. -/
theorem after5_at (c : Dev nD) (t : Fin cfg1.N) (b : Fin 32) (hb : b.val = t.val / 2) (k : Fin 1024) (j : Fin 512)
    (o : Fin 1024) (ho : o.val = t.val % 2 * 512 + j.val) :
    ((outsAt1 V c t.val t.isLt).2.1 : Vec Ideal S1x1024x512 .f32) (ix3 (0 : Fin 1) k j)
      = (Cert.Spec.beta * inSg V c (ix3 b (0 : Fin 1) o))
            * inRhW V c (ix3 b k o)
          + ((Cert.Spec.beta * inSg V c (ix3 b (0 : Fin 1) o))
              * (Cert.Spec.beta * inEW V c (ix3 b k o)
                  + inX V c (ix3 b (0 : Fin 1) k))
            + inX V c (ix3 b (0 : Fin 1) k)
              * inSg V c (ix3 b (0 : Fin 1) o)) := by
  by_cases h0 : t.val % 2 = 0
  · rw [outsAt1_A V c t h0]
    dsimp only
    exact (congrFun (out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (iblk1 V c 0 t) (iblk1 V c 1 t) (iblk1 V c 2 t) (iblk1 V c 3 t)) (ix3 (0 : Fin 1) k j)).trans
      (pay5_of (iblk1 V c 1 t) (iblk1 V c 2 t) (iblk1 V c 3 t) (k1_pay1 (iblk1 V c 0 t)) k j _ _ _ _
        (iblk1_1_at V c t b hb j o ho) (iblk1_2_at V c t b hb k j o ho) (iblk1_3_at V c t b hb k j o ho)
        ((PaySpec.k1_pay1_apply (iblk1 V c 0 t) k).trans (iblk1_0_at V c t b hb k)))
  · rw [outsAt1_B V c t h0]
    dsimp only
    exact (congrFun (out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (iblk1 V c 0 t) (iblk1 V c 1 t) (iblk1 V c 2 t) (iblk1 V c 3 t)
        (outsAt1 V c (t.val - 1) (Nat.lt_of_le_of_lt (Nat.sub_le _ _) t.isLt)).2.2) (ix3 (0 : Fin 1) k j)).trans
      (pay5_of (iblk1 V c 1 t) (iblk1 V c 2 t) (iblk1 V c 3 t)
        (outsAt1 V c (t.val - 1) (Nat.lt_of_le_of_lt (Nat.sub_le _ _) t.isLt)).2.2 k j _ _ _ _
        (iblk1_1_at V c t b hb j o ho) (iblk1_2_at V c t b hb k j o ho) (iblk1_3_at V c t b hb k j o ho)
        (scratch_at V c ⟨t.val - 1, Nat.lt_of_le_of_lt (Nat.sub_le _ _) t.isLt⟩ b (by dsimp only; omega) k))

/-! ## From the blocks to the arrays -/

/-- The first result as a function of the region's inputs: the weight eligibility after two steps. -/
abbrev G4 (c : Dev nD) : S32x1024x1024.Idx → EReal := fun i =>
  Cert.Spec.beta * (Cert.Spec.beta * inEW V c i + inX V c (ix3 (i 0) (0 : Fin 1) (i 1)))
    + inX V c (ix3 (i 0) (0 : Fin 1) (i 1))

/-- The second result as a function of the region's inputs: the weight trace. -/
abbrev G5 (c : Dev nD) : S32x1024x1024.Idx → EReal := fun i =>
  (Cert.Spec.beta * inSg V c (ix3 (i 0) (0 : Fin 1) (i 2))) * inRhW V c i
    + ((Cert.Spec.beta * inSg V c (ix3 (i 0) (0 : Fin 1) (i 2)))
          * (Cert.Spec.beta * inEW V c i + inX V c (ix3 (i 0) (0 : Fin 1) (i 1)))
        + inX V c (ix3 (i 0) (0 : Fin 1) (i 1)) * inSg V c (ix3 (i 0) (0 : Fin 1) (i 2)))

/-- What point t writes back to the first result is block t of it. -/
theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  funext y
  obtain ⟨z, k, j, rfl⟩ : ∃ (z : Fin 1) (k : Fin 1024) (j : Fin 512), (y : S1x1024x512.Idx) = ix3 z k j :=
    ⟨y 0, y 1, y 2, eq_ix3 y⟩
  obtain rfl : z = 0 := Subsingleton.elim z 0
  rw [View.read_apply]
  have hN : cfg1.N = 64 := N_1
  have ht : t.val < 64 := lt_of_lt_of_eq t.isLt hN
  show ((outsAt1 V c t.val t.isLt).1 : Vec Ideal S1x1024x512 .f32) (ix3 (0 : Fin 1) k j)
    = G4 V c (((cfg1.win 4).blk t).view.emb (ix3 (0 : Fin 1) k j))
  obtain ⟨-, -, -, -, -, -, -, -, -, -, -, -, e0, e1, e2, -⟩ := idx_facts1 t
  have hemb : ((cfg1.win 4).blk t).view.emb (ix3 (0 : Fin 1) k j)
      = ix3 (⟨t.val / 2, by omega⟩ : Fin 32) k (⟨t.val % 2 * 512 + j.val, by have := j.isLt; omega⟩ : Fin 1024) :=
    funext fun a => Fin.ext (by
      match a with
      | ⟨0, _⟩ => show win1_4.index t (0 : Fin 3) * 1 + 1 * 0 = t.val / 2; omega
      | ⟨1, _⟩ => show win1_4.index t (1 : Fin 3) * 1024 + 1 * k.val = k.val; omega
      | ⟨2, _⟩ => show win1_4.index t (2 : Fin 3) * 512 + 1 * j.val = t.val % 2 * 512 + j.val; omega)
  rw [hemb, after4_at V c t ⟨t.val / 2, by omega⟩ rfl k j ⟨t.val % 2 * 512 + j.val, by have := j.isLt; omega⟩ rfl]

/-- An entry of the result array is in point t's block iff each coordinate is in the block's range on its axis. -/
theorem mem_blk4 (t : Fin cfg1.N) (i : S32x1024x1024.Idx) :
    i ∈ ((cfg1.win 4).blk t).view.set ↔ ∀ a : Fin 3, win1_4.index t a * S1x1024x512.size a ≤ (i a).val
      ∧ (i a).val < win1_4.index t a * S1x1024x512.size a + S1x1024x512.size a := by
  show i ∈ ((View.whole main_v3_0).slice (win1_4.rect t)).set ↔ _
  rw [View.set_slice_whole, Rect.mem_set_unit]
  exact Iff.rfl

/-- Every entry of the result array is in the block of the point of its batch row and of its half of the output
    features. -/
theorem cover4 (i : S32x1024x1024.Idx) :
    ∃ t : Fin cfg1.N, (cfg1.win 4).flush t = true ∧ i ∈ ((cfg1.win 4).blk t).view.set := by
  have hN : cfg1.N = 64 := N_1
  have h0 : (i 0).val < 32 := (i 0).isLt
  have h1 : (i 1).val < 1024 := (i 1).isLt
  have h2 : (i 2).val < 1024 := (i 2).isLt
  refine ⟨⟨2 * (i 0).val + (i 2).val / 512, by omega⟩, flush1_4 _, ?_⟩
  rw [mem_blk4]
  obtain ⟨-, -, -, -, -, -, -, -, -, -, -, -, e0, e1, e2, -⟩ := idx_facts1 ⟨2 * (i 0).val + (i 2).val / 512, by omega⟩
  dsimp only at e0 e1 e2
  intro a
  match a with
  | ⟨0, _⟩ =>
    show win1_4.index ⟨2 * (i 0).val + (i 2).val / 512, _⟩ (0 : Fin 3) * 1 ≤ (i 0).val
      ∧ (i 0).val < win1_4.index ⟨2 * (i 0).val + (i 2).val / 512, _⟩ (0 : Fin 3) * 1 + 1
    omega
  | ⟨1, _⟩ =>
    show win1_4.index ⟨2 * (i 0).val + (i 2).val / 512, _⟩ (1 : Fin 3) * 1024 ≤ (i 1).val
      ∧ (i 1).val < win1_4.index ⟨2 * (i 0).val + (i 2).val / 512, _⟩ (1 : Fin 3) * 1024 + 1024
    omega
  | ⟨2, _⟩ =>
    show win1_4.index ⟨2 * (i 0).val + (i 2).val / 512, _⟩ (2 : Fin 3) * 512 ≤ (i 2).val
      ∧ (i 2).val < win1_4.index ⟨2 * (i 0).val + (i 2).val / 512, _⟩ (2 : Fin 3) * 512 + 512
    omega

/-- The first result array after the region. -/
theorem final1_4 (c : Dev nD) : (dat1 V c).arrAt 4 cfg1.N = G4 V c :=
  (dat1 V c).arrAt_eq_of_cover 4 (G4 V c) (fun t _ => flushed4_eq V c t) cover4

/-- What point t writes back to the second result is block t of it. -/
theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  funext y
  obtain ⟨z, k, j, rfl⟩ : ∃ (z : Fin 1) (k : Fin 1024) (j : Fin 512), (y : S1x1024x512.Idx) = ix3 z k j :=
    ⟨y 0, y 1, y 2, eq_ix3 y⟩
  obtain rfl : z = 0 := Subsingleton.elim z 0
  rw [View.read_apply]
  have hN : cfg1.N = 64 := N_1
  have ht : t.val < 64 := lt_of_lt_of_eq t.isLt hN
  show ((outsAt1 V c t.val t.isLt).2.1 : Vec Ideal S1x1024x512 .f32) (ix3 (0 : Fin 1) k j)
    = G5 V c (((cfg1.win 5).blk t).view.emb (ix3 (0 : Fin 1) k j))
  obtain ⟨-, -, -, -, -, -, -, -, -, -, -, -, -, -, -, e0, e1, e2⟩ := idx_facts1 t
  have hemb : ((cfg1.win 5).blk t).view.emb (ix3 (0 : Fin 1) k j)
      = ix3 (⟨t.val / 2, by omega⟩ : Fin 32) k (⟨t.val % 2 * 512 + j.val, by have := j.isLt; omega⟩ : Fin 1024) :=
    funext fun a => Fin.ext (by
      match a with
      | ⟨0, _⟩ => show win1_5.index t (0 : Fin 3) * 1 + 1 * 0 = t.val / 2; omega
      | ⟨1, _⟩ => show win1_5.index t (1 : Fin 3) * 1024 + 1 * k.val = k.val; omega
      | ⟨2, _⟩ => show win1_5.index t (2 : Fin 3) * 512 + 1 * j.val = t.val % 2 * 512 + j.val; omega)
  rw [hemb, after5_at V c t ⟨t.val / 2, by omega⟩ rfl k j ⟨t.val % 2 * 512 + j.val, by have := j.isLt; omega⟩ rfl]

/-- The same membership for the second result's blocks. -/
theorem mem_blk5 (t : Fin cfg1.N) (i : S32x1024x1024.Idx) :
    i ∈ ((cfg1.win 5).blk t).view.set ↔ ∀ a : Fin 3, win1_5.index t a * S1x1024x512.size a ≤ (i a).val
      ∧ (i a).val < win1_5.index t a * S1x1024x512.size a + S1x1024x512.size a := by
  show i ∈ ((View.whole main_v3_1).slice (win1_5.rect t)).set ↔ _
  rw [View.set_slice_whole, Rect.mem_set_unit]
  exact Iff.rfl

/-- The second result's blocks cover it in the same way. -/
theorem cover5 (i : S32x1024x1024.Idx) :
    ∃ t : Fin cfg1.N, (cfg1.win 5).flush t = true ∧ i ∈ ((cfg1.win 5).blk t).view.set := by
  have hN : cfg1.N = 64 := N_1
  have h0 : (i 0).val < 32 := (i 0).isLt
  have h1 : (i 1).val < 1024 := (i 1).isLt
  have h2 : (i 2).val < 1024 := (i 2).isLt
  refine ⟨⟨2 * (i 0).val + (i 2).val / 512, by omega⟩, flush1_5 _, ?_⟩
  rw [mem_blk5]
  obtain ⟨-, -, -, -, -, -, -, -, -, -, -, -, -, -, -, e0, e1, e2⟩ := idx_facts1 ⟨2 * (i 0).val + (i 2).val / 512, by omega⟩
  dsimp only at e0 e1 e2
  intro a
  match a with
  | ⟨0, _⟩ =>
    show win1_5.index ⟨2 * (i 0).val + (i 2).val / 512, _⟩ (0 : Fin 3) * 1 ≤ (i 0).val
      ∧ (i 0).val < win1_5.index ⟨2 * (i 0).val + (i 2).val / 512, _⟩ (0 : Fin 3) * 1 + 1
    omega
  | ⟨1, _⟩ =>
    show win1_5.index ⟨2 * (i 0).val + (i 2).val / 512, _⟩ (1 : Fin 3) * 1024 ≤ (i 1).val
      ∧ (i 1).val < win1_5.index ⟨2 * (i 0).val + (i 2).val / 512, _⟩ (1 : Fin 3) * 1024 + 1024
    omega
  | ⟨2, _⟩ =>
    show win1_5.index ⟨2 * (i 0).val + (i 2).val / 512, _⟩ (2 : Fin 3) * 512 ≤ (i 2).val
      ∧ (i 2).val < win1_5.index ⟨2 * (i 0).val + (i 2).val / 512, _⟩ (2 : Fin 3) * 512 + 512
    omega

/-- The second result array after the region. -/
theorem final1_5 (c : Dev nD) : (dat1 V c).arrAt 5 cfg1.N = G5 V c :=
  (dat1 V c).arrAt_eq_of_cover 5 (G5 V c) (fun t _ => flushed5_eq V c t) cover5

/-- The two results, spelled out. -/
theorem G4_def (c : Dev nD) : G4 V c = fun i =>
    Cert.Spec.beta * (Cert.Spec.beta * inEW V c i + inX V c (ix3 (i 0) (0 : Fin 1) (i 1)))
      + inX V c (ix3 (i 0) (0 : Fin 1) (i 1)) := rfl
theorem G5_def (c : Dev nD) : G5 V c = fun i =>
    (Cert.Spec.beta * inSg V c (ix3 (i 0) (0 : Fin 1) (i 2))) * inRhW V c i
      + ((Cert.Spec.beta * inSg V c (ix3 (i 0) (0 : Fin 1) (i 2)))
            * (Cert.Spec.beta * inEW V c i + inX V c (ix3 (i 0) (0 : Fin 1) (i 1)))
          + inX V c (ix3 (i 0) (0 : Fin 1) (i 1)) * inSg V c (ix3 (i 0) (0 : Fin 1) (i 2))) := rfl

/-- The two result arrays after the region, with the formulas written out. -/
theorem final1_4_fun (c : Dev nD) : (dat1 V c).arrAt 4 cfg1.N = fun i : S32x1024x1024.Idx =>
    Cert.Spec.beta * (Cert.Spec.beta * inEW V c i + inX V c (ix3 (i 0) (0 : Fin 1) (i 1)))
      + inX V c (ix3 (i 0) (0 : Fin 1) (i 1)) := final1_4 V c
theorem final1_5_fun (c : Dev nD) : (dat1 V c).arrAt 5 cfg1.N = fun i : S32x1024x1024.Idx =>
    (Cert.Spec.beta * inSg V c (ix3 (i 0) (0 : Fin 1) (i 2))) * inRhW V c i
      + ((Cert.Spec.beta * inSg V c (ix3 (i 0) (0 : Fin 1) (i 2)))
            * (Cert.Spec.beta * inEW V c i + inX V c (ix3 (i 0) (0 : Fin 1) (i 1)))
          + inX V c (ix3 (i 0) (0 : Fin 1) (i 1)) * inSg V c (ix3 (i 0) (0 : Fin 1) (i 2))) := final1_5 V c

end Values

end Cert.KernelIdeal.Hand

end
-- ==== Proof.KI.Final.lean ====
/-
  The idealized kernel's run, read: every weakly fair execution ends with each of the seven results at the trace
  update's formula of the argument arrays (Spec), entry by entry, and the arguments unchanged. The five small results
  are the first region's; the two weight traces are the second region's, whose inputs `x` and `sg` reach it through
  a reshape to [32, 1, 1024] — `sg` being the first region's own second result.
-/
import proofs.«164400_j30940944400973_2_alg».proof.Proof.KI.Values
import proofs.«164400_j30940944400973_2_alg».proof.Proof.KI.Value1

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The run with every result named. -/
theorem kernel_values : θ_run defs (onTc (τ := τ) (main (F := Ideal))) ⟨m, fun _ => 0, ρ⟩ (fun r => ∀ c : Dev nD,
      r.2.mem ((c.tc : Thread nD τ).loc main_v0_0) = (fun i : S32x1024.Idx => Cert.Spec.s (m ((c.tc : Thread nD τ).loc main_arg0)) (m ((c.tc : Thread nD τ).loc main_arg1)) (m ((c.tc : Thread nD τ).loc main_arg2)) (m ((c.tc : Thread nD τ).loc main_arg3)) (i 0) (i 1))
      ∧ r.2.mem ((c.tc : Thread nD τ).loc main_v3_0) = (fun i : S32x1024x1024.Idx => Cert.Spec.ew2 (m ((c.tc : Thread nD τ).loc main_arg0)) (m ((c.tc : Thread nD τ).loc main_arg4)) (i 0) (i 1) (i 2))
      ∧ r.2.mem ((c.tc : Thread nD τ).loc main_v0_2) = (fun i : S32x1024.Idx => Cert.Spec.eb2 (m ((c.tc : Thread nD τ).loc main_arg5)) (i 0) (i 1))
      ∧ r.2.mem ((c.tc : Thread nD τ).loc main_v3_1) = (fun i : S32x1024x1024.Idx => Cert.Spec.rhw2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (i 0) (i 1) (i 2))
      ∧ r.2.mem ((c.tc : Thread nD τ).loc main_v0_3) = (fun i : S32x1024.Idx => Cert.Spec.rhb2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (i 0) (i 1))
      ∧ r.2.mem ((c.tc : Thread nD τ).loc main_v0_4) = (fun i : S32x1024.Idx => Cert.Spec.gbar2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (i 0) (i 1))
      ∧ r.2.mem ((c.tc : Thread nD τ).loc main_v0_5) = (fun i : S32x1.Idx => Cert.Spec.r2 (m ((c.tc : Thread nD τ).loc main_arg9)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_v0_0 (by decide))).trans (W3_v0_0 m ρ c),
    (h c _ (mem_uc main_v3_0 (by decide))).trans (W3_v3_0_of m ρ c (final1_4 (V2 m ρ) c)),
    (h c _ (mem_uc main_v0_2 (by decide))).trans (W3_v0_2 m ρ c),
    (h c _ (mem_uc main_v3_1 (by decide))).trans (W3_v3_1_of m ρ c (final1_5 (V2 m ρ) c)),
    (h c _ (mem_uc main_v0_3 (by decide))).trans (W3_v0_3 m ρ c),
    (h c _ (mem_uc main_v0_4 (by decide))).trans (W3_v0_4 m ρ c),
    (h c _ (mem_uc main_v0_5 (by decide))).trans (W3_v0_5 m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.KernelIdeal.Hand

end
-- ==== Proof.RefIsSpec.lean ====
/-
  The reference program, read one entry at a time, is the specification.

  Every stage of the reference is an elementwise operation, a broadcast, a literal, or the one contraction
  x · W.  Read at the entry (p, q) (or (p, k, q) for the weight-shaped stages) each stage is the operation on
  its operands' entries; a broadcast reads its operand at the entry with the new axes dropped; the contraction
  is the sum over the shared axis.  Chaining these readings from a result down to the arguments gives, symbol
  for symbol, the formulas of the specification.  The one step that is not a reading: the reference spells the
  spike as one / (one + exp (−z)) with the float literal one, and that is the logistic function because the
  literal one is the number one.
-/
import proofs.«164400_j30940944400973_2_alg».proof.Proof.Gen.ReferenceIdeal.Read
import proofs.«164400_j30940944400973_2_alg».proof.Proof.Spec

noncomputable section

namespace Cert.RefSpec

open Cert.ReferenceIdeal Cert.ReferenceIdeal.Gen Cert.ReferenceIdeal.Read
open Idealize.ShloMosaic Idealize.ShloMosaic.ValueIdx Idealize.ShloMosaic.StableHlo

/-- Arrays of the four shapes the arguments have, with extended-real entries. -/
abbrev A2 : Type := (⟨S32x1024, .f32⟩ : BufTy).Contents (Elt Ideal)
abbrev AW : Type := (⟨S1024x1024, .f32⟩ : BufTy).Contents (Elt Ideal)
abbrev A1 : Type := (⟨S1024, .f32⟩ : BufTy).Contents (Elt Ideal)
abbrev A3 : Type := (⟨S32x1024x1024, .f32⟩ : BufTy).Contents (Elt Ideal)
abbrev AR : Type := (⟨S32x1, .f32⟩ : BufTy).Contents (Elt Ideal)

/-- The quotient one / (one + exp (−z)) with the literal one is the logistic function. -/
theorem logistic_expand (z : EReal) :
    Ideal.div Cert.Spec.one (Cert.Spec.one + Ideal.exp (-z)) = Ideal.logistic z := by
  rw [Cert.Spec.one_eq]; rfl

/-! ## The entries the broadcasts and the contraction read -/

theorem lidx_at (p : Fin 32) (q k : Fin 1024) : lidx_main_v0 (ix2 p q) k = ix2 p k :=
  funext fun a => Fin.ext (by match a with | ⟨0, _⟩ => rfl | ⟨1, _⟩ => rfl)
theorem ridx_at (p : Fin 32) (q k : Fin 1024) : ridx_main_v0 (ix2 p q) k = ix2 k q :=
  funext fun a => Fin.ext (by match a with | ⟨0, _⟩ => rfl | ⟨1, _⟩ => rfl)
theorem bias_at (p : Fin 32) (q : Fin 1024) : idx_main_v1 (idx_main_v2 (ix2 p q)) = ix1 q :=
  funext fun a => Fin.ext (by match a with | ⟨0, _⟩ => rfl)

variable (x0 : A2) (x1 : AW) (x2 : A1) (x3 : A2)

/-! ## The shared stages at an entry -/

/-- The dense layer. -/
theorem v3_at (p : Fin 32) (q : Fin 1024) :
    val_main_v3 (F := Ideal) x0 x1 x2 (ix2 p q) = Cert.Spec.h x0 x1 x2 p q := by
  rw [val_main_v3_apply, val_main_v0_apply, val_main_v2_apply, val_main_v1_apply]
  simp only [lidx_at, ridx_at, bias_at]
  rfl

/-- The membrane after the leaky step. -/
theorem v6_at (p : Fin 32) (q : Fin 1024) :
    val_main_v6 (F := Ideal) x0 x1 x2 x3 (ix2 p q) = Cert.Spec.unew x0 x1 x2 x3 p q := by
  rw [val_main_v6_apply, val_main_v5_apply, val_main_v4_apply, val_main_cst_apply, v3_at]
  rfl

/-- The spike. -/
theorem v14_at (p : Fin 32) (q : Fin 1024) :
    val_main_v14 (F := Ideal) x0 x1 x2 x3 (ix2 p q) = Cert.Spec.s x0 x1 x2 x3 p q := by
  rw [val_main_v14_apply, val_main_v13_apply, val_main_cst_2_apply, val_main_v12_apply, val_main_v11_apply,
    val_main_cst_1_apply, val_main_v10_apply, val_main_v9_apply, val_main_v8_apply, val_main_v7_apply,
    val_main_cst_0_apply, v6_at]
  exact logistic_expand (Cert.Spec.unew x0 x1 x2 x3 p q - Cert.Spec.one)

/-- The spike's derivative. -/
theorem v17_at (p : Fin 32) (q : Fin 1024) :
    val_main_v17 (F := Ideal) x0 x1 x2 x3 (ix2 p q) = Cert.Spec.sg x0 x1 x2 x3 p q := by
  rw [val_main_v17_apply, val_main_v16_apply, val_main_v15_apply, val_main_cst_3_apply, v14_at]
  rfl

/-- The derivative through the leak. -/
theorem v19_at (p : Fin 32) (q : Fin 1024) :
    val_main_v19 (F := Ideal) x0 x1 x2 x3 (ix2 p q) = Cert.Spec.dsdu x0 x1 x2 x3 p q := by
  rw [val_main_v19_apply, val_main_v18_apply, val_main_cst_4_apply, v17_at]
  rfl

/-! ## The seven results, as whole arrays -/

/-- Result 0, the spike. -/
theorem res0 : val_main_v14 (F := Ideal) x0 x1 x2 x3 = fun i => Cert.Spec.s x0 x1 x2 x3 (i 0) (i 1) := by
  funext i
  obtain ⟨p, q, rfl⟩ : ∃ p q, i = ix2 p q := ⟨i 0, i 1, eq_ix2 i⟩
  exact v14_at x0 x1 x2 x3 p q

variable (x4 : A3) (x5 : A2) (x6 : A3) (x7 x8 : A2) (x9 : AR)

/-- The input entry x[p,k], spread along the output axis. -/
theorem v26_at (p : Fin 32) (k q : Fin 1024) : val_main_v26 (F := Ideal) x0 (ix3 p k q) = x0 (ix2 p k) := by
  rw [val_main_v26_apply, val_main_v25_apply]
  exact congrArg x0 (funext fun a => Fin.ext (by match a with | ⟨0, _⟩ => rfl | ⟨1, _⟩ => rfl))

/-- The weight eligibility after one step. -/
theorem v30_at (p : Fin 32) (k q : Fin 1024) :
    val_main_v30 (F := Ideal) x0 x4 (ix3 p k q) = Cert.Spec.ew1 x0 x4 p k q := by
  rw [val_main_v30_apply, val_main_v29_apply, val_main_v28_apply, val_main_cst_6_apply, v26_at]
  rfl

/-- The weight eligibility after two steps. -/
theorem v42_at (p : Fin 32) (k q : Fin 1024) :
    val_main_v42 (F := Ideal) x0 x4 (ix3 p k q) = Cert.Spec.ew2 x0 x4 p k q := by
  rw [val_main_v42_apply, val_main_v41_apply, val_main_v40_apply, val_main_cst_8_apply, v30_at, v26_at]
  rfl

/-- Result 1, the weight eligibility after two steps. -/
theorem res1 : val_main_v42 (F := Ideal) x0 x4 = fun i => Cert.Spec.ew2 x0 x4 (i 0) (i 1) (i 2) := by
  funext i
  obtain ⟨p, k, q, rfl⟩ : ∃ p k q, i = ix3 p k q := ⟨i 0, i 1, i 2, eq_ix3 i⟩
  exact v42_at x0 x4 p k q

/-- The bias eligibility after one step. -/
theorem v33_at (p : Fin 32) (q : Fin 1024) :
    val_main_v33 (F := Ideal) x5 (ix2 p q) = Cert.Spec.eb1 x5 p q := by
  rw [val_main_v33_apply, val_main_v32_apply, val_main_v31_apply, val_main_cst_7_apply, val_main_v27_apply,
    val_main_cst_5_apply]
  rfl

/-- The bias eligibility after two steps. -/
theorem v45_at (p : Fin 32) (q : Fin 1024) :
    val_main_v45 (F := Ideal) x5 (ix2 p q) = Cert.Spec.eb2 x5 p q := by
  rw [val_main_v45_apply, val_main_v44_apply, val_main_v43_apply, val_main_cst_9_apply, v33_at, val_main_v27_apply,
    val_main_cst_5_apply]
  rfl

/-- Result 2, the bias eligibility after two steps. -/
theorem res2 : val_main_v45 (F := Ideal) x5 = fun i => Cert.Spec.eb2 x5 (i 0) (i 1) := by
  funext i
  obtain ⟨p, q, rfl⟩ : ∃ p q, i = ix2 p q := ⟨i 0, i 1, eq_ix2 i⟩
  exact v45_at x5 p q

/-- An entry (p, q) spread along the input axis: the two broadcasts read (p, k, q) at (p, q). -/
theorem spread_at (p : Fin 32) (k q : Fin 1024) : idx_main_v34 (idx_main_v35 (ix3 p k q)) = ix2 p q :=
  funext fun a => Fin.ext (by match a with | ⟨0, _⟩ => rfl | ⟨1, _⟩ => rfl)

/-- The derivative through the leak, spread along the input axis (first copy). -/
theorem v35_at (p : Fin 32) (k q : Fin 1024) :
    val_main_v35 (F := Ideal) x0 x1 x2 x3 (ix3 p k q) = Cert.Spec.dsdu x0 x1 x2 x3 p q := by
  rw [val_main_v35_apply, val_main_v34_apply]
  exact (congrArg (val_main_v19 (F := Ideal) x0 x1 x2 x3) (spread_at p k q)).trans (v19_at x0 x1 x2 x3 p q)

/-- The derivative through the leak, spread along the input axis (second copy). -/
theorem v47_at (p : Fin 32) (k q : Fin 1024) :
    val_main_v47 (F := Ideal) x0 x1 x2 x3 (ix3 p k q) = Cert.Spec.dsdu x0 x1 x2 x3 p q := by
  rw [val_main_v47_apply, val_main_v46_apply]
  exact (congrArg (val_main_v19 (F := Ideal) x0 x1 x2 x3) (spread_at p k q)).trans (v19_at x0 x1 x2 x3 p q)

/-- The spike's derivative, spread along the input axis. -/
theorem v23_at (p : Fin 32) (k q : Fin 1024) :
    val_main_v23 (F := Ideal) x0 x1 x2 x3 (ix3 p k q) = Cert.Spec.sg x0 x1 x2 x3 p q := by
  rw [val_main_v23_apply, val_main_v21_apply]
  exact (congrArg (val_main_v17 (F := Ideal) x0 x1 x2 x3) (spread_at p k q)).trans (v17_at x0 x1 x2 x3 p q)

/-- The input entry x[p,k], spread along the output axis (the copy the product with the derivative reads). -/
theorem v22_at (p : Fin 32) (k q : Fin 1024) : val_main_v22 (F := Ideal) x0 (ix3 p k q) = x0 (ix2 p k) := by
  rw [val_main_v22_apply, val_main_v20_apply]
  exact congrArg x0 (funext fun a => Fin.ext (by match a with | ⟨0, _⟩ => rfl | ⟨1, _⟩ => rfl))

/-- The weight trace. -/
theorem v49_at (p : Fin 32) (k q : Fin 1024) :
    val_main_v49 (F := Ideal) x0 x1 x2 x3 x4 x6 (ix3 p k q) = Cert.Spec.rhw2 x0 x1 x2 x3 x4 x6 p k q := by
  rw [val_main_v49_apply, val_main_v48_apply, v47_at, val_main_v37_apply, val_main_v36_apply, v35_at, v30_at,
    val_main_v24_apply, v22_at, v23_at]
  rfl

/-- Result 3, the weight trace. -/
theorem res3 : val_main_v49 (F := Ideal) x0 x1 x2 x3 x4 x6
    = fun i => Cert.Spec.rhw2 x0 x1 x2 x3 x4 x6 (i 0) (i 1) (i 2) := by
  funext i
  obtain ⟨p, k, q, rfl⟩ : ∃ p k q, i = ix3 p k q := ⟨i 0, i 1, i 2, eq_ix3 i⟩
  exact v49_at x0 x1 x2 x3 x4 x6 p k q

/-- The bias trace. -/
theorem v51_at (p : Fin 32) (q : Fin 1024) :
    val_main_v51 (F := Ideal) x0 x1 x2 x3 x5 x7 (ix2 p q) = Cert.Spec.rhb2 x0 x1 x2 x3 x5 x7 p q := by
  rw [val_main_v51_apply, val_main_v50_apply, val_main_v39_apply, val_main_v38_apply, v19_at, v33_at, v17_at]
  rfl

/-- Result 4, the bias trace. -/
theorem res4 : val_main_v51 (F := Ideal) x0 x1 x2 x3 x5 x7
    = fun i => Cert.Spec.rhb2 x0 x1 x2 x3 x5 x7 (i 0) (i 1) := by
  funext i
  obtain ⟨p, q, rfl⟩ : ∃ p q, i = ix2 p q := ⟨i 0, i 1, eq_ix2 i⟩
  exact v51_at x0 x1 x2 x3 x5 x7 p q

/-- The leaked ratio. -/
theorem v53_at (p : Fin 32) : val_main_v53 (F := Ideal) x9 (ix2 p 0) = Cert.Spec.ratio0 x9 p := by
  rw [val_main_v53_apply, val_main_v52_apply, val_main_cst_10_apply]
  rfl

/-- The ratio's denominator. -/
theorem v55_at (p : Fin 32) : val_main_v55 (F := Ideal) x9 (ix2 p 0) = Cert.Spec.r2 x9 p := by
  rw [val_main_v55_apply, v53_at, val_main_v54_apply, val_main_cst_11_apply]
  rfl

/-- The ratio. -/
theorem v56_at (p : Fin 32) : val_main_v56 (F := Ideal) x9 (ix2 p 0) = Cert.Spec.ratio x9 p := by
  rw [val_main_v56_apply, v53_at, v55_at]
  rfl

/-- A per-row entry spread along the output axis: the broadcast reads (p, q) at (p, 0). -/
theorem row_at (p : Fin 32) (q : Fin 1024) : idx_main_v57 (ix2 p q) = ix2 p 0 :=
  funext fun a => Fin.ext (by match a with | ⟨0, _⟩ => rfl | ⟨1, _⟩ => rfl)

/-- The averaged gradient. -/
theorem v63_at (p : Fin 32) (q : Fin 1024) :
    val_main_v63 (F := Ideal) x0 x1 x2 x3 x8 x9 (ix2 p q) = Cert.Spec.gbar2 x0 x1 x2 x3 x8 x9 p q := by
  rw [val_main_v63_apply, val_main_v58_apply, val_main_v57_apply, val_main_v62_apply, val_main_v61_apply,
    val_main_v60_apply, val_main_v59_apply, val_main_cst_12_apply, v19_at]
  rw [show idx_main_v61 (ix2 p q) = ix2 p 0 from row_at p q, row_at, v56_at]
  rfl

/-- Result 5, the averaged gradient. -/
theorem res5 : val_main_v63 (F := Ideal) x0 x1 x2 x3 x8 x9
    = fun i => Cert.Spec.gbar2 x0 x1 x2 x3 x8 x9 (i 0) (i 1) := by
  funext i
  obtain ⟨p, q, rfl⟩ : ∃ p q, i = ix2 p q := ⟨i 0, i 1, eq_ix2 i⟩
  exact v63_at x0 x1 x2 x3 x8 x9 p q

/-- Result 6, the ratio's denominator. -/
theorem res6 : val_main_v55 (F := Ideal) x9 = fun i => Cert.Spec.r2 x9 (i 0) := by
  funext i
  obtain ⟨p, z, rfl⟩ : ∃ (p : Fin 32) (z : Fin 1), i = ix2 p z := ⟨i 0, i 1, eq_ix2 i⟩
  obtain rfl : z = 0 := Subsingleton.elim z 0
  exact v55_at x9 p

/-! ## The same seven statements about the terms the reference's run states

The run of the reference states each result buffer's final contents as a composed term of the arguments' contents
`m` at launch (two of them by name).  Each such term is the stage above by unfolding, hence the specification of
the arguments' contents. -/

section RunTerms
open Idealize.ShloMosaic.TcCoe Idealize.SL.Sem

variable (m : (ℓ : Loc nD τ sig) → Buf (Elt Ideal) ℓ) (c : Dev nD)

/-- Result 0 as the run states it. -/
theorem out0 :
    Host.divf (F := Ideal) (broadcastInDim S32x1024 ![] bcast_S_S32x1024 (constant S_ .f32 0x3F800000#32)) (addf (broadcastInDim S32x1024 ![] bcast_S_S32x1024 (constant S_ .f32 0x3F800000#32)) (Host.exp (Host.negf (subf (addf (mulf (broadcastInDim S32x1024 ![] bcast_S_S32x1024 (constant S_ .f32 0x3F666666#32)) (m ((c.tc : Thread nD τ).loc main_arg3))) (addf (Host.dotGeneral (φ₁ := .f32) (φ₂ := .f32) dot_S32x1024_S1024x1024_S32x1024_1_0_0_1_n_n none (m ((c.tc : Thread nD τ).loc main_arg0)) (m ((c.tc : Thread nD τ).loc main_arg1))) (broadcastInDim S32x1024 ![0, 1] bcast_S1x1024_S32x1024_0_1 (broadcastInDim S1x1024 ![1] bcast_S1024_S1x1024_1 (m ((c.tc : Thread nD τ).loc main_arg2)))))) (broadcastInDim S32x1024 ![] bcast_S_S32x1024 (constant S_ .f32 0x3F800000#32))))))
      = fun i : S32x1024.Idx => Cert.Spec.s (m ((c.tc : Thread nD τ).loc main_arg0)) (m ((c.tc : Thread nD τ).loc main_arg1)) (m ((c.tc : Thread nD τ).loc main_arg2)) (m ((c.tc : Thread nD τ).loc main_arg3)) (i 0) (i 1) :=
  (val_main_v14_eq _ _ _ _).trans (res0 _ _ _ _)

/-- Result 1 as the run states it. -/
theorem out1 :
    addf (F := Ideal) (mulf (broadcastInDim S32x1024x1024 ![] bcast_S_S32x1024x1024 (constant S_ .f32 0x3F666666#32)) (addf (mulf (broadcastInDim S32x1024x1024 ![] bcast_S_S32x1024x1024 (constant S_ .f32 0x3F666666#32)) (m ((c.tc : Thread nD τ).loc main_arg4))) (broadcastInDim S32x1024x1024 ![0, 1, 2] bcast_S32x1024x1_S32x1024x1024_0_1_2 (broadcastInDim S32x1024x1 ![0, 1] bcast_S32x1024_S32x1024x1_0_1 (m ((c.tc : Thread nD τ).loc main_arg0)))))) (broadcastInDim S32x1024x1024 ![0, 1, 2] bcast_S32x1024x1_S32x1024x1024_0_1_2 (broadcastInDim S32x1024x1 ![0, 1] bcast_S32x1024_S32x1024x1_0_1 (m ((c.tc : Thread nD τ).loc main_arg0))))
      = fun i : S32x1024x1024.Idx => Cert.Spec.ew2 (m ((c.tc : Thread nD τ).loc main_arg0)) (m ((c.tc : Thread nD τ).loc main_arg4)) (i 0) (i 1) (i 2) :=
  (val_main_v42_eq _ _).trans (res1 _ _)

/-- Result 2 as the run states it. -/
theorem out2 :
    addf (F := Ideal) (mulf (broadcastInDim S32x1024 ![] bcast_S_S32x1024 (constant S_ .f32 0x3F666666#32)) (addf (mulf (broadcastInDim S32x1024 ![] bcast_S_S32x1024 (constant S_ .f32 0x3F666666#32)) (m ((c.tc : Thread nD τ).loc main_arg5))) (broadcastInDim S32x1024 ![] bcast_S_S32x1024 (constant S_ .f32 0x3F800000#32)))) (broadcastInDim S32x1024 ![] bcast_S_S32x1024 (constant S_ .f32 0x3F800000#32))
      = fun i : S32x1024.Idx => Cert.Spec.eb2 (m ((c.tc : Thread nD τ).loc main_arg5)) (i 0) (i 1) :=
  (val_main_v45_eq _).trans (res2 _)

/-- Result 3 as the run names it. -/
theorem out3 :
    Cert.ReferenceIdeal.Value.res_main_v49 m c
      = fun i => Cert.Spec.rhw2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (i 0) (i 1) (i 2) :=
  (val_main_v49_eq m c).trans (res3 _ _ _ _ _ _)

/-- Result 4 as the run names it. -/
theorem out4 :
    Cert.ReferenceIdeal.Value.res_main_v51 m c
      = fun i => Cert.Spec.rhb2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (i 0) (i 1) :=
  (val_main_v51_eq m c).trans (res4 _ _ _ _ _ _)

/-- Result 5 as the run states it. -/
theorem out5 :
    addf (F := Ideal) (mulf (broadcastInDim S32x1024 ![0, 1] bcast_S32x1_S32x1024_0_1 (Host.divf (mulf (broadcastInDim S32x1 ![] bcast_S_S32x1 (constant S_ .f32 0x3F666666#32)) (m ((c.tc : Thread nD τ).loc main_arg9))) (addf (mulf (broadcastInDim S32x1 ![] bcast_S_S32x1 (constant S_ .f32 0x3F666666#32)) (m ((c.tc : Thread nD τ).loc main_arg9))) (broadcastInDim S32x1 ![] bcast_S_S32x1 (constant S_ .f32 0x3F800000#32))))) (m ((c.tc : Thread nD τ).loc main_arg8))) (mulf (broadcastInDim S32x1024 ![0, 1] bcast_S32x1_S32x1024_0_1 (subf (broadcastInDim S32x1 ![] bcast_S_S32x1 (constant S_ .f32 0x3F800000#32)) (Host.divf (mulf (broadcastInDim S32x1 ![] bcast_S_S32x1 (constant S_ .f32 0x3F666666#32)) (m ((c.tc : Thread nD τ).loc main_arg9))) (addf (mulf (broadcastInDim S32x1 ![] bcast_S_S32x1 (constant S_ .f32 0x3F666666#32)) (m ((c.tc : Thread nD τ).loc main_arg9))) (broadcastInDim S32x1 ![] bcast_S_S32x1 (constant S_ .f32 0x3F800000#32)))))) (mulf (broadcastInDim S32x1024 ![] bcast_S_S32x1024 (constant S_ .f32 0x3F666666#32)) (mulf (Host.divf (broadcastInDim S32x1024 ![] bcast_S_S32x1024 (constant S_ .f32 0x3F800000#32)) (addf (broadcastInDim S32x1024 ![] bcast_S_S32x1024 (constant S_ .f32 0x3F800000#32)) (Host.exp (Host.negf (subf (addf (mulf (broadcastInDim S32x1024 ![] bcast_S_S32x1024 (constant S_ .f32 0x3F666666#32)) (m ((c.tc : Thread nD τ).loc main_arg3))) (addf (Host.dotGeneral (φ₁ := .f32) (φ₂ := .f32) dot_S32x1024_S1024x1024_S32x1024_1_0_0_1_n_n none (m ((c.tc : Thread nD τ).loc main_arg0)) (m ((c.tc : Thread nD τ).loc main_arg1))) (broadcastInDim S32x1024 ![0, 1] bcast_S1x1024_S32x1024_0_1 (broadcastInDim S1x1024 ![1] bcast_S1024_S1x1024_1 (m ((c.tc : Thread nD τ).loc main_arg2)))))) (broadcastInDim S32x1024 ![] bcast_S_S32x1024 (constant S_ .f32 0x3F800000#32))))))) (subf (broadcastInDim S32x1024 ![] bcast_S_S32x1024 (constant S_ .f32 0x3F800000#32)) (Host.divf (broadcastInDim S32x1024 ![] bcast_S_S32x1024 (constant S_ .f32 0x3F800000#32)) (addf (broadcastInDim S32x1024 ![] bcast_S_S32x1024 (constant S_ .f32 0x3F800000#32)) (Host.exp (Host.negf (subf (addf (mulf (broadcastInDim S32x1024 ![] bcast_S_S32x1024 (constant S_ .f32 0x3F666666#32)) (m ((c.tc : Thread nD τ).loc main_arg3))) (addf (Host.dotGeneral (φ₁ := .f32) (φ₂ := .f32) dot_S32x1024_S1024x1024_S32x1024_1_0_0_1_n_n none (m ((c.tc : Thread nD τ).loc main_arg0)) (m ((c.tc : Thread nD τ).loc main_arg1))) (broadcastInDim S32x1024 ![0, 1] bcast_S1x1024_S32x1024_0_1 (broadcastInDim S1x1024 ![1] bcast_S1024_S1x1024_1 (m ((c.tc : Thread nD τ).loc main_arg2)))))) (broadcastInDim S32x1024 ![] bcast_S_S32x1024 (constant S_ .f32 0x3F800000#32)))))))))))
      = fun i : S32x1024.Idx => Cert.Spec.gbar2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (i 0) (i 1) :=
  (val_main_v63_eq _ _ _ _ _ _).trans (res5 _ _ _ _ _ _)

/-- Result 6 as the run states it. -/
theorem out6 :
    addf (F := Ideal) (mulf (broadcastInDim S32x1 ![] bcast_S_S32x1 (constant S_ .f32 0x3F666666#32)) (m ((c.tc : Thread nD τ).loc main_arg9))) (broadcastInDim S32x1 ![] bcast_S_S32x1 (constant S_ .f32 0x3F800000#32))
      = fun i : S32x1.Idx => Cert.Spec.r2 (m ((c.tc : Thread nD τ).loc main_arg9)) (i 0) :=
  (val_main_v55_eq _).trans (res6 _)

end RunTerms

end Cert.RefSpec

end
-- ==== Proof.lean ====
/-
  The certificate: the kernel (an eligibility-trace update in two kernel regions: a dense layer with a sigmoid spike
  and the small bias / ratio traces, then the two [32, 1024, 1024] weight traces tile by tile) against its plain
  reference. At the ideal instance both compute, entry by entry, the same formulas of the arguments (Spec): the
  kernel's matrix product into a zero accumulator and the reference's dot_general are one sum; the kernel's logistic is
  the reference's 1 / (1 + exp (−z)); every other operation is the same operation on the same operands in the same
  order. The three frames are the programs' runs with the results dropped; nothing was rewritten by the idealization.
-/
import proofs.«164400_j30940944400973_2_alg».proof.Defs
import proofs.«164400_j30940944400973_2_alg».proof.Proof.Gen.Kernel
import proofs.«164400_j30940944400973_2_alg».proof.Proof.Gen.KernelIdeal
import proofs.«164400_j30940944400973_2_alg».proof.Proof.Gen.ReferenceIdeal
import proofs.«164400_j30940944400973_2_alg».proof.Proof.Gen.Pre_finite_inputs
import proofs.«164400_j30940944400973_2_alg».proof.Proof.Gen.ReferenceIdeal.Run
import proofs.«164400_j30940944400973_2_alg».proof.Proof.KB.Run
import proofs.«164400_j30940944400973_2_alg».proof.Proof.KI.Final
import proofs.«164400_j30940944400973_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2.2.2.2.2) (Cert.ReferenceIdeal.Value.run (F := Ideal) m ρ)

/-- Both programs end at the same seven arrays: the kernel's run read (`kernel_values`), the reference's run read
    one operation at a time, from memories agreeing on the ten arguments. -/
theorem algebraic : Cert.algebraic_KernelIdeal_ReferenceIdeal := by
  intro m ρ m' ρ' _ hagree
  refine ⟨_, _, _, _, _, _, _, Cert.KernelIdeal.Hand.kernel_values m ρ, ?_⟩
  refine (θ_run Cert.ReferenceIdeal.defs _ _).mono (fun _ h c => ⟨((h c).1).trans ((Cert.RefSpec.out0 m' c).trans (by rw [(hagree c).1, (hagree c).2.1, (hagree c).2.2.1, (hagree c).2.2.2.1] <;> rfl)),
    ((h c).2.1).trans ((Cert.RefSpec.out1 m' c).trans (by rw [(hagree c).1, (hagree c).2.2.2.2.1] <;> rfl)),
    ((h c).2.2.1).trans ((Cert.RefSpec.out2 m' c).trans (by rw [(hagree c).2.2.2.2.2.1] <;> rfl)),
    ((h c).2.2.2.1).trans ((Cert.RefSpec.out3 m' c).trans (by rw [(hagree c).1, (hagree c).2.1, (hagree c).2.2.1, (hagree c).2.2.2.1, (hagree c).2.2.2.2.1, (hagree c).2.2.2.2.2.2.1] <;> rfl)),
    ((h c).2.2.2.2.1).trans ((Cert.RefSpec.out4 m' c).trans (by rw [(hagree c).1, (hagree c).2.1, (hagree c).2.2.1, (hagree c).2.2.2.1, (hagree c).2.2.2.2.2.1, (hagree c).2.2.2.2.2.2.2.1] <;> rfl)),
    ((h c).2.2.2.2.2.1).trans ((Cert.RefSpec.out5 m' c).trans (by rw [(hagree c).1, (hagree c).2.1, (hagree c).2.2.1, (hagree c).2.2.2.1, (hagree c).2.2.2.2.2.2.2.2.1, (hagree c).2.2.2.2.2.2.2.2.2] <;> rfl)),
    ((h c).2.2.2.2.2.2.1).trans ((Cert.RefSpec.out6 m' c).trans (by rw [(hagree c).2.2.2.2.2.2.2.2.2] <;> rfl)),
    (h c).2.2.2.2.2.2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
